-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg7 : FVec F S1000x1024 .f32) (main_arg8 : FVec F S1000 .f32) (main_v33 : IVec S_ 1) : IVec S_ 1 :=
  let main_v34 : FVec F S1000x1024 .f32 := Host.absf main_arg7
  let main_cst_12 : FVec F S_ .f32 := constant S_ .f32 0x7F800000#32
  let main_v35 : FVec F S1000x1024 .f32 := broadcastInDim S1000x1024 ![] bcast_S_S1000x1024 main_cst_12
  let main_v36 : IVec S1000x1024 1 := cmpf .olt main_v34 main_v35
  let main_c_13 : IVec S_ 1 := constantI S_ 1 1#1
  let main_v37 : IVec S_ 1 := (fun x v => Host.reduce IntOp.andi x v reducesTo_S1000x1024_S_d0_1 h_S_) main_v36 main_c_13
  let main_v38 : IVec S_ 1 := andi main_v33 main_v37
  let main_v39 : FVec F S1000 .f32 := Host.absf main_arg8
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  main_v43

def fn_part1 {F : FTy → Type} [FloatOps F] (main_arg4 : FVec F S1536x1024 .f32) (main_arg5 : FVec F S1536x1024 .f32) (main_arg6 : FVec F S1536x1024 .f32) (main_arg7 : FVec F S1000x1024 .f32) (main_arg8 : FVec F S1000 .f32) (main_v13 : IVec S_ 1) (main_v16 : IVec S1536x1024 1) : IVec S_ 1 :=
  let main_c_5 : IVec S_ 1 := constantI S_ 1 1#1
  let main_v17 : IVec S_ 1 := (fun x v => Host.reduce IntOp.andi x v reducesTo_S1536x1024_S_d0_1 h_S_) main_v16 main_c_5
  let main_v18 : IVec S_ 1 := andi main_v13 main_v17
  let main_v19 : FVec F S1536x1024 .f32 := Host.absf main_arg4
  let main_cst_6 : FVec F S_ .f32 := constant S_ .f32 0x7F800000#32
  let main_v20 : FVec F S1536x1024 .f32 := broadcastInDim S1536x1024 ![] bcast_S_S1536x1024 main_cst_6
  let main_v21 : IVec S1536x1024 1 := cmpf .olt main_v19 main_v20
  let main_c_7 : IVec S_ 1 := constantI S_ 1 1#1
  let main_v22 : IVec S_ 1 := (fun x v => Host.reduce IntOp.andi x v reducesTo_S1536x1024_S_d0_1 h_S_) main_v21 main_c_7
  let main_v23 : IVec S_ 1 := andi main_v18 main_v22
  let main_v24 : FVec F S1536x1024 .f32 := Host.absf main_arg5
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1536x1024 .f32 := Host.absf main_arg6
  let main_cst_10 : FVec F S_ .f32 := constant S_ .f32 0x7F800000#32
  let main_v30 : FVec F S1536x1024 .f32 := broadcastInDim S1536x1024 ![] bcast_S_S1536x1024 main_cst_10
  let main_v31 : IVec S1536x1024 1 := cmpf .olt main_v29 main_v30
  let main_c_11 : IVec S_ 1 := constantI S_ 1 1#1
  let main_v32 : IVec S_ 1 := (fun x v => Host.reduce IntOp.andi x v reducesTo_S1536x1024_S_d0_1 h_S_) main_v31 main_c_11
  let main_v33 : IVec S_ 1 := andi main_v28 main_v32
  fn_part2 (F := F) main_arg7 main_arg8 main_v33

def fn {F : FTy → Type} [FloatOps F] (main_arg0 : FVec F S32x512x512 .f32) (main_arg1 : FVec F S1024 .f32) (main_arg2 : FVec F S1024 .f32) (main_arg3 : FVec F S1536x1024 .f32) (main_arg4 : FVec F S1536x1024 .f32) (main_arg5 : FVec F S1536x1024 .f32) (main_arg6 : FVec F S1536x1024 .f32) (main_arg7 : FVec F S1000x1024 .f32) (main_arg8 : FVec F S1000 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1536x1024 .f32 := Host.absf main_arg3
  let main_cst_4 : FVec F S_ .f32 := constant S_ .f32 0x7F800000#32
  let main_v15 : FVec F S1536x1024 .f32 := broadcastInDim S1536x1024 ![] bcast_S_S1536x1024 main_cst_4
  let main_v16 : IVec S1536x1024 1 := cmpf .olt main_v14 main_v15
  fn_part1 (F := F) main_arg4 main_arg5 main_arg6 main_arg7 main_arg8 main_v13 main_v16
-- ==== Kernel.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S32x1x512 : Shape := ⟨3, ![32, 1, 512]⟩
abbrev S32x512 : Shape := ⟨2, ![32, 512]⟩
abbrev S1x1024 : Shape := ⟨2, ![1, 1024]⟩
abbrev S32x1024 : Shape := ⟨2, ![32, 1024]⟩
abbrev S32x1536 : Shape := ⟨2, ![32, 1536]⟩
abbrev S512x512 : Shape := ⟨2, ![512, 512]⟩
abbrev S1x512 : Shape := ⟨2, ![1, 512]⟩
abbrev S32x2048 : Shape := ⟨2, ![32, 2048]⟩
abbrev S1024x1000 : Shape := ⟨2, ![1024, 1000]⟩
abbrev S1x1000 : Shape := ⟨2, ![1, 1000]⟩
abbrev S32x1000 : Shape := ⟨2, ![32, 1000]⟩
abbrev S32 : Shape := ⟨1, ![32]⟩
abbrev S32x1 : Shape := ⟨2, ![32, 1]⟩

abbrev nBuf : Space → Nat
  | .hbm => 19
  | .vmem => 19
  | .smem => 0
  | _ => 0

abbrev bufTy : (tb : Table) → Fin (tcTables nBuf tb) → BufTy
  | .hbm, ⟨0, _⟩ => ⟨S32x512x512, .f32⟩
  | .hbm, ⟨1, _⟩ => ⟨S1024, .f32⟩
  | .hbm, ⟨2, _⟩ => ⟨S1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1000x1024, .f32⟩
  | .hbm, ⟨8, _⟩ => ⟨S1000, .f32⟩
  | .hbm, ⟨9, _⟩ => ⟨S32x1x512, .f32⟩
  | .hbm, ⟨10, _⟩ => ⟨S32x512, .f32⟩
  | .hbm, ⟨11, _⟩ => ⟨S1x1024, .f32⟩
  | .hbm, ⟨12, _⟩ => ⟨S32x1024, .f32⟩
  | .hbm, ⟨13, _⟩ => ⟨S32x1536, .f32⟩
  | .hbm, ⟨14, _⟩ => ⟨S1x1024, .f32⟩
  | .hbm, ⟨15, _⟩ => ⟨S32x1024, .f32⟩
  | .hbm, ⟨16, _⟩ => ⟨S1024x1000, .f32⟩
  | .hbm, ⟨17, _⟩ => ⟨S1x1000, .f32⟩
  | .hbm, ⟨18, _⟩ => ⟨S32x1000, .f32⟩
  | .local _ .vmem, ⟨0, _⟩ => ⟨S32x512, .f32⟩
  | .local _ .vmem, ⟨1, _⟩ => ⟨S32x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S32x512, .f32⟩
  | .local _ .vmem, ⟨13, _⟩ => ⟨S32x512, .f32⟩
  | .local _ .vmem, ⟨14, _⟩ => ⟨S32x2048, .f32⟩
  | .local _ .vmem, ⟨15, _⟩ => ⟨S32x1024, .f32⟩
  | .local _ .vmem, ⟨16, _⟩ => ⟨S1024x1000, .f32⟩
  | .local _ .vmem, ⟨17, _⟩ => ⟨S1x1000, .f32⟩
  | .local _ .vmem, ⟨18, _⟩ => ⟨S32x1000, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v33 : BitVec 1 := Scalar.cmpi .eq arg1 c2_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S32x512x512_S32x1x512_0_511_0 : S32x512x512.Slices ![0, 511, 0] S32x1x512
  shapeCasts_S32x1x512_S32x512 : S32x1x512.ShapeCasts S32x512
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  concatenates_S32x1024_S32x512_S32x1536_d1 : Shape.Concatenates [S32x1024, S32x512] S32x1536 1
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x2048_S32x512_0_0 : ∀ a, (![0, 0] : Fin 2 → Nat) a + S32x512.size a ≤ S32x2048.size a
  inb_S512x512_S512x512_0_0 : ∀ a, (![0, 0] : Fin 2 → Nat) a + S512x512.size a ≤ S512x512.size a
  h_S512x512 : 0 < S512x512.numel
  inb_S32x2048_S32x512_0_512 : ∀ a, (![0, 512] : Fin 2 → Nat) a + S32x512.size a ≤ S32x2048.size a
  inb_S32x2048_S32x512_0_1024 : ∀ a, (![0, 1024] : Fin 2 → Nat) a + S32x512.size a ≤ S32x2048.size a
  inb_S32x2048_S32x512_0_1536 : ∀ a, (![0, 1536] : Fin 2 → Nat) a + S32x512.size a ≤ S32x2048.size a
  slices_S32x2048_o0_0_S32x512 : S32x2048.Slices ![0, 0] S32x512
  slices_S32x2048_o0_512_S32x512 : S32x2048.Slices ![0, 512] S32x512
  slices_S32x2048_o0_1024_S32x512 : S32x2048.Slices ![0, 1024] S32x512
  slices_S32x2048_o0_1536_S32x512 : S32x2048.Slices ![0, 1536] S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  transposes_S1000x1024_S1024x1000_1_0 : S1000x1024.Transposes [1, 0] S1024x1000
  bcast_S1000_S1x1000_1 : S1000.BroadcastsInDim S1x1000 (![1] : Fin 1 → Fin S1x1000.rank)
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  reduces_S32x1000_S32 : S32x1000.Reduces [1] S32
  shapeCasts_S32_S32x1 : S32.ShapeCasts S32x1
  broadcasts_S32x1_S32x1000 : S32x1.Broadcasts S32x1000
  inb_S32x1000_S32x1000_0_0 : ∀ a, (![0, 0] : Fin 2 → Nat) a + S32x1000.size a ≤ S32x1000.size a
  h_S32x1000 : 0 < S32x1000.numel
  dot_S32x512_S512x512_S32x512_1_0_0_1_n_n_wf : DotDims.WF S32x512 S512x512 S32x512 [1] [0] [0] [1] [] []
  dot_S32x1024_S1024x1000_S32x1000_1_0_0_1_n_n_wf : DotDims.WF S32x1024 S1024x1000 S32x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x1536.size a
  hwx0_0 : ∀ i : grid0.Coords, EltTy.bits .f32 = 32 ∨ (Rect.block (s := S32x1536) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1536x1024.size a
  hwx0_1 : ∀ i : grid0.Coords, EltTy.bits .f32 = 32 ∨ (Rect.block (s := S1536x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S1536x1024.size a
  hwx0_2 : ∀ i : grid0.Coords, EltTy.bits .f32 = 32 ∨ (Rect.block (s := S1536x1024) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1536x1024.size a
  hwx0_3 : ∀ i : grid0.Coords, EltTy.bits .f32 = 32 ∨ (Rect.block (s := S1536x1024) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S1536x1024.size a
  hwx0_4 : ∀ i : grid0.Coords, EltTy.bits .f32 = 32 ∨ (Rect.block (s := S1536x1024) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x1024.size a
  hwx0_6 : ∀ i : grid0.Coords, EltTy.bits .f32 = 32 ∨ (Rect.block (s := S32x1024) S32x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1000.size a ≤ S1024x1000.size a
  hwx1_1 : ∀ i : grid1.Coords, EltTy.bits .f32 = 32 ∨ (Rect.block (s := S1024x1000) S1024x1000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1000.size a ≤ S32x1000.size a
  hwx1_3 : ∀ i : grid1.Coords, EltTy.bits .f32 = 32 ∨ (Rect.block (s := S32x1000) S32x1000.size (cc1_transform_3 i) (hinb1_3 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x1024_S1024x1000_S32x1000_1_0_0_1_n_n : DotDims S32x1024 S1024x1000 S32x1000 where
  lhsContracting := [1]
  rhsContracting := [0]
  lhsNonContracting := [0]
  rhsNonContracting := [1]
  lhsBatch := []
  rhsBatch := []
  wf := dot_S32x1024_S1024x1000_S32x1000_1_0_0_1_n_n_wf

abbrev win0_0 : Pipeline.Window sig grid0 :=
  Pipeline.Window.ofSpec (Memref.whole main_v4) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S32x1000.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S32x512x1024 : Shape := ⟨3, ![32, 512, 1024]⟩
abbrev S32x512x1536 : Shape := ⟨3, ![32, 512, 1536]⟩
abbrev S1536x4096 : Shape := ⟨2, ![1536, 4096]⟩
abbrev S32x512x4096 : Shape := ⟨3, ![32, 512, 4096]⟩
abbrev S_ : Shape := ⟨0, ![]⟩
abbrev S1x1x1024 : Shape := ⟨3, ![1, 1, 1024]⟩
abbrev S32x1x1024 : Shape := ⟨3, ![32, 1, 1024]⟩
abbrev S32x1024 : Shape := ⟨2, ![32, 1024]⟩
abbrev S1024x1000 : Shape := ⟨2, ![1024, 1000]⟩
abbrev S32x1000 : Shape := ⟨2, ![32, 1000]⟩
abbrev S1x1000 : Shape := ⟨2, ![1, 1000]⟩
abbrev S32 : Shape := ⟨1, ![32]⟩
abbrev S32x1 : Shape := ⟨2, ![32, 1]⟩

abbrev nBuf : Space → Nat
  | .hbm => 74
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S1024, .f32⟩
  | .hbm, ⟨2, _⟩ => ⟨S1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1000x1024, .f32⟩
  | .hbm, ⟨8, _⟩ => ⟨S1000, .f32⟩
  | .hbm, ⟨9, _⟩ => ⟨S32x512x1024, .f32⟩
  | .hbm, ⟨10, _⟩ => ⟨S32x512x1536, .f32⟩
  | .hbm, ⟨11, _⟩ => ⟨S1536x4096, .f32⟩
  | .hbm, ⟨12, _⟩ => ⟨S32x512x4096, .f32⟩
  | .hbm, ⟨13, _⟩ => ⟨S32x512x1024, .f32⟩
  | .hbm, ⟨14, _⟩ => ⟨S32x512x1024, .f32⟩
  | .hbm, ⟨15, _⟩ => ⟨S32x512x1024, .f32⟩
  | .hbm, ⟨16, _⟩ => ⟨S32x512x1024, .f32⟩
  | .hbm, ⟨17, _⟩ => ⟨S32x512x1024, .f32⟩
  | .hbm, ⟨18, _⟩ => ⟨S32x512x1024, .f32⟩
  | .hbm, ⟨19, _⟩ => ⟨S_, .f32⟩
  | .hbm, ⟨20, _⟩ => ⟨S32x512x1024, .f32⟩
  | .hbm, ⟨21, _⟩ => ⟨S32x512x1024, .f32⟩
  | .hbm, ⟨22, _⟩ => ⟨S_, .f32⟩
  | .hbm, ⟨23, _⟩ => ⟨S32x512x1024, .f32⟩
  | .hbm, ⟨24, _⟩ => ⟨S32x512x1024, .f32⟩
  | .hbm, ⟨25, _⟩ => ⟨S32x512x1024, .f32⟩
  | .hbm, ⟨26, _⟩ => ⟨S32x512x1024, .f32⟩
  | .hbm, ⟨27, _⟩ => ⟨S_, .f32⟩
  | .hbm, ⟨28, _⟩ => ⟨S32x512x1024, .f32⟩
  | .hbm, ⟨29, _⟩ => ⟨S32x512x1024, .f32⟩
  | .hbm, ⟨30, _⟩ => ⟨S_, .f32⟩
  | .hbm, ⟨31, _⟩ => ⟨S32x512x1024, .f32⟩
  | .hbm, ⟨32, _⟩ => ⟨S32x512x1024, .f32⟩
  | .hbm, ⟨33, _⟩ => ⟨S32x512x1024, .f32⟩
  | .hbm, ⟨34, _⟩ => ⟨S32x512x1024, .f32⟩
  | .hbm, ⟨35, _⟩ => ⟨S32x512x1024, .f32⟩
  | .hbm, ⟨36, _⟩ => ⟨S_, .f32⟩
  | .hbm, ⟨37, _⟩ => ⟨S32x512x1024, .f32⟩
  | .hbm, ⟨38, _⟩ => ⟨S32x512x1024, .f32⟩
  | .hbm, ⟨39, _⟩ => ⟨S_, .f32⟩
  | .hbm, ⟨40, _⟩ => ⟨S32x512x1024, .f32⟩
  | .hbm, ⟨41, _⟩ => ⟨S32x512x1024, .f32⟩
  | .hbm, ⟨42, _⟩ => ⟨S1x1x1024, .f32⟩
  | .hbm, ⟨43, _⟩ => ⟨S32x512x1024, .f32⟩
  | .hbm, ⟨44, _⟩ => ⟨S32x512x1024, .f32⟩
  | .hbm, ⟨45, _⟩ => ⟨S32x512x1024, .f32⟩
  | .hbm, ⟨46, _⟩ => ⟨S32x512x1024, .f32⟩
  | .hbm, ⟨47, _⟩ => ⟨S32x512x1024, .f32⟩
  | .hbm, ⟨48, _⟩ => ⟨S32x512x1024, .f32⟩
  | .hbm, ⟨49, _⟩ => ⟨S32x1x1024, .f32⟩
  | .hbm, ⟨50, _⟩ => ⟨S32x1024, .f32⟩
  | .hbm, ⟨51, _⟩ => ⟨S1024x1000, .f32⟩
  | .hbm, ⟨52, _⟩ => ⟨S32x1000, .f32⟩
  | .hbm, ⟨53, _⟩ => ⟨S1x1000, .f32⟩
  | .hbm, ⟨54, _⟩ => ⟨S32x1000, .f32⟩
  | .hbm, ⟨55, _⟩ => ⟨S32x1000, .f32⟩
  | .hbm, ⟨56, _⟩ => ⟨S_, .f32⟩
  | .hbm, ⟨57, _⟩ => ⟨S32x1000, .f32⟩
  | .hbm, ⟨58, _⟩ => ⟨S32x1000, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32x1, .f32⟩
  | .hbm, ⟨65, _⟩ => ⟨S32x1000, .f32⟩
  | .hbm, ⟨66, _⟩ => ⟨S32x1000, .f32⟩
  | .hbm, ⟨67, _⟩ => ⟨S32x1000, .f32⟩
  | .hbm, ⟨68, _⟩ => ⟨S_, .f32⟩
  | .hbm, ⟨69, _⟩ => ⟨S32, .f32⟩
  | .hbm, ⟨70, _⟩ => ⟨S32x1, .f32⟩
  | .hbm, ⟨71, _⟩ => ⟨S32x1, .f32⟩
  | .hbm, ⟨72, _⟩ => ⟨S32x1000, .f32⟩
  | .hbm, ⟨73, _⟩ => ⟨S32x1000, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v42 : Ref sig .tc := ⟨.hbm, 73, rfl⟩

abbrev nD : Nat := 1
abbrev τ : Topo := Topo.v7x

variable {F : FTy → Type} [FloatOps F]

class Facts₀ : Prop where
  bcast_S1024_S32x512x1024_2 : S1024.BroadcastsInDim S32x512x1024 (![2] : Fin 1 → Fin S32x512x1024.rank)
  concatenates_S32x512x1024_S32x512x512_S32x512x1536_d2 : Shape.Concatenates [S32x512x1024, S32x512x512] S32x512x1536 2
  concatenates_S1536x1024_S1536x1024_S1536x1024_S1536x1024_S1536x4096_d1 : Shape.Concatenates [S1536x1024, S1536x1024, S1536x1024, S1536x1024] S1536x4096 1
  slices_S32x512x4096_S32x512x1024_0_0_0 : S32x512x4096.Slices ![0, 0, 0] S32x512x1024
  slices_S32x512x4096_S32x512x1024_0_0_1024 : S32x512x4096.Slices ![0, 0, 1024] S32x512x1024
  slices_S32x512x4096_S32x512x1024_0_0_2048 : S32x512x4096.Slices ![0, 0, 2048] S32x512x1024
  slices_S32x512x4096_S32x512x1024_0_0_3072 : S32x512x4096.Slices ![0, 0, 3072] S32x512x1024
  bcast_S_S32x512x1024 : S_.BroadcastsInDim S32x512x1024 (![] : Fin 0 → Fin S32x512x1024.rank)
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  slices_S32x512x1024_S32x1x1024_0_511_0 : S32x512x1024.Slices ![0, 511, 0] S32x1x1024
  shapeCasts_S32x1x1024_S32x1024 : S32x1x1024.ShapeCasts S32x1024
  transposes_S1000x1024_S1024x1000_1_0 : S1000x1024.Transposes [1, 0] S1024x1000
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  bcast_S_S32x1000 : S_.BroadcastsInDim S32x1000 (![] : Fin 0 → Fin S32x1000.rank)
  reducesTo_S32x1000_S32_d1 : S32x1000.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x1000_0_1 : S32x1.BroadcastsInDim S32x1000 (![0, 1] : Fin 2 → Fin S32x1000.rank)
  dot_S32x512x1536_S1536x4096_S32x512x4096_2_0_01_1_n_n_wf : DotDims.WF S32x512x1536 S1536x4096 S32x512x4096 [2] [0] [0, 1] [1] [] []
  dot_S32x1024_S1024x1000_S32x1000_1_0_0_1_n_n_wf : DotDims.WF S32x1024 S1024x1000 S32x1000 [1] [0] [0] [1] [] []

variable [Facts₀]

def dot_S32x512x1536_S1536x4096_S32x512x4096_2_0_01_1_n_n : DotDims S32x512x1536 S1536x4096 S32x512x4096 where
  lhsContracting := [2]
  rhsContracting := [0]
  lhsNonContracting := [0, 1]
  rhsNonContracting := [1]
  lhsBatch := []
  rhsBatch := []
  wf := dot_S32x512x1536_S1536x4096_S32x512x4096_2_0_01_1_n_n_wf
def dot_S32x1024_S1024x1000_S32x1000_1_0_0_1_n_n : DotDims S32x1024 S1024x1000 S32x1000 where
  lhsContracting := [1]
  rhsContracting := [0]
  lhsNonContracting := [0]
  rhsNonContracting := [1]
  lhsBatch := []
  rhsBatch := []
  wf := dot_S32x1024_S1024x1000_S32x1000_1_0_0_1_n_n_wf

class Facts : Prop extends Facts₀ where

variable [Facts]
-- ==== Proof.K.Shared.lean ====
/-
  What the two kernels' runs share, at any float instance and at PARAMETER contents `V` of the core's buffers when a
  region is entered.

  A window's block at a grid point is the window's rectangle of its array read through `V`.  The gate kernel runs
  on a 2 × 3 grid, point `t` being column tile `t / 3` and reduction step `t % 3`: it clears its accumulator where
  `t % 3 = 0`, adds four products at every point, and stores the cell's output where `t % 3 = 2`; at the other
  points its output window is idle and is not written back.  The final-layer kernel runs at one point.
-/
import proofs.«160136_j5179730559367_2_alg».proof.Proof.Gen.Kernel.Launch
import proofs.«160136_j5179730559367_2_alg».proof.Proof.Gen.Kernel.Skeleton
import proofs.«160136_j5179730559367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The gate kernel's windows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not: where it is not fetched the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The final-layer kernel's windows -/

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not: where it is not fetched the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, fetched there or not: where it is not fetched the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, fetched there or not: where it is not fetched the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The gate kernel's two branches, decided over the grid -/

/-- "This is the first reduction step": the condition under which the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "This is the last reduction step": the condition under which the output block is stored. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the gate kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At a first step the output window is idle and not written back; -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- at a middle step too; -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- at a last step it is live. -/
theorem liveAt0_6_C : ∀ t : Fin cfg0.N, ¬cond0_0 (grid0.coords t) → cond0_1 (grid0.coords t) → cfg0.idle 6 (grid0.coords t) = false := by decide +kernel

/-! ## The memrefs the gate kernel is called with -/

/-- One staging buffer of the output window, through which its contents are stated (the choice does not matter). -/
abbrev VO0_6 : View sig .tc .vmem S32x512 .f32 := (Memref.whole cc0_stg6_0 : Memref sig .tc .vmem S32x512 .f32).view
abbrev ms0_0 (t : Fin cfg0.N) : Memref sig .tc .vmem S32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x512 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S32x2048 .f32 := Memref.whole cc0_scratch0
abbrev VS0_0 : View sig .tc .vmem S32x2048 .f32 := scM0_0.view

/-- The other scoped buffers the gate kernel's region holds and never touches (the final-layer kernel's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- What the launch hands the gate kernel's region beside its windows: the accumulator at some contents, the other
    scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Hand

end
-- ==== Proof.K.GateRunA.lean ====
/-
  The gate kernel's body run whole at a FIRST reduction step (the accumulator is cleared, the output block is not stored): on whole memrefs, the six input windows' at their
  contents, the output window's at contents handed back untouched, the accumulator at anything (the body overwrites it whole before it reads it), the body runs to its end leaving the inputs as they were and each buffer it
  stored into with its stores written, as a list of pieces (last first).  The pieces are found by running the body; each
  branch is decided by the case's hypotheses.
-/
import proofs.«160136_j5179730559367_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i)
    (x0 : Vec F S32x512 .f32) (x1 x2 x3 x4 : Vec F S512x512 .f32) (x5 : Vec F S1x512 .f32) :
    Σ' (L6 : List (View.Piece (Elt F) S32x512 .f32)), { LS0 : List (View.Piece (Elt F) S32x2048 .f32) //
      ∀ (xi6 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨[], ?_, fun xi6 E K => ?run⟩
  case run =>
    haveI : Fact (cond0_0 i) := ⟨hc0⟩
    haveI : Fact (¬cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.GateRunB.lean ====
/-
  The gate kernel's body run whole at a MIDDLE reduction step (neither branch is taken): on whole memrefs, the six input windows' at their
  contents, the output window's at contents handed back untouched, the accumulator at the contents the point before left, the body runs to its end leaving the inputs as they were and each buffer it
  stored into with its stores written, as a list of pieces (last first).  The pieces are found by running the body; each
  branch is decided by the case's hypotheses.
-/
import proofs.«160136_j5179730559367_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i)
    (x0 : Vec F S32x512 .f32) (x1 x2 x3 x4 : Vec F S512x512 .f32) (x5 : Vec F S1x512 .f32) (xs0 : Vec F S32x2048 .f32) :
    Σ' (L6 : List (View.Piece (Elt F) S32x512 .f32)), { LS0 : List (View.Piece (Elt F) S32x2048 .f32) //
      ∀ (xi6 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨[], ?_, fun xi6 E K => ?run⟩
  case run =>
    haveI : Fact (¬cond0_0 i) := ⟨hc0⟩
    haveI : Fact (¬cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.GateRunC.lean ====
/-
  The gate kernel's body run whole at a LAST reduction step (the output block is stored): on whole memrefs, the six input windows' at their
  contents, the output window's at anything, the accumulator at the contents the point before left, the body runs to its end leaving the inputs as they were and each buffer it
  stored into with its stores written, as a list of pieces (last first).  The pieces are found by running the body; each
  branch is decided by the case's hypotheses.
-/
import proofs.«160136_j5179730559367_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i)
    (x0 : Vec F S32x512 .f32) (x1 x2 x3 x4 : Vec F S512x512 .f32) (x5 : Vec F S1x512 .f32) (xs0 : Vec F S32x2048 .f32) :
    Σ' (L6 : List (View.Piece (Elt F) S32x512 .f32)), { LS0 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨?_, ?_, fun E K => ?run⟩
  case run =>
    haveI : Fact (¬cond0_0 i) := ⟨hc0⟩
    haveI : Fact (cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.GateBody.lean ====
/-
  The gate kernel's region, at any float instance and at parameter entry contents `V`.

  What the accumulator and the output window's buffer hold after each grid point is defined by recursion on the point:
  at a first reduction step the body clears the accumulator and adds the step's four products into its four column
  slabs; at a middle step it adds into what the point before left; at a last step it adds, then stores the cell's
  output computed from the accumulator.  The region's invariant carries the accumulator AT those contents from one
  point to the next (before the first point it is at anything), beside the scoped buffers the region never touches
  and the generator register.  At the points where the output window is idle its buffer is handed back as found and
  is not written back.
-/
import proofs.«160136_j5179730559367_2_alg».proof.Proof.K.GateRunA
import proofs.«160136_j5179730559367_2_alg».proof.Proof.K.GateRunB
import proofs.«160136_j5179730559367_2_alg».proof.Proof.K.GateRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- A first step stores nothing into the output window: a placeholder nothing consults. -/
def out0_A_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) : Vec F S32x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)
/-- Its stores into the accumulator (the clearing store, then the four slabs) cover it. -/
theorem scover0_A_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) (y : S32x2048.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S32x2048.size (by sl_kernel_rfl) y
/-- What a first step leaves in the accumulator. -/
def sout0_A_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) : Vec F S32x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- A middle step stores nothing into the output window either. -/
def out0_B_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) : Vec F S32x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)
/-- Its four slab stores cover the accumulator. -/
theorem scover0_B_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) (y : S32x2048.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S32x512.size (by sl_kernel_rfl) y
def sout0_B_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) : Vec F S32x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- A last step's one store covers the output block. -/
theorem cover0_C_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) (y : S32x512.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S32x512.size (by sl_kernel_rfl) y
/-- What a last step leaves in the output window's buffer. -/
def out0_C_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) : Vec F S32x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)
theorem scover0_C_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) (y : S32x2048.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S32x512.size (by sl_kernel_rfl) y
def sout0_C_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) : Vec F S32x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output window's buffer and the accumulator hold after each point -/

/-- THE ACCUMULATION: after the body at position `n`, the output window's buffer and the accumulator — the case the
    closed forms select at `n`, run at the point's memrefs and input blocks, over what position `n - 1` left. -/
def outsAt0 (c : Dev nD) : (n : ℕ) → n < cfg0.N → Vec F S32x512 .f32 × Vec F S32x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 3 = 0 then
      if h1 : (n + 1) % 3 = 2 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 3 = 2 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

theorem outsAt0_A (c : Dev nD) (t : Fin cfg0.N) (h0 : t.val % 3 = 0) (h1 : ¬t.val % 3 = 2) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 3 = 0) (h1 : ¬t.val % 3 = 2) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 3 = 0) (h1 : t.val % 3 = 2) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (the accumulator at anything); afterwards the
    accumulator at what the point before left, the scoped buffers the region never touches, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; the
    invariant hands the body the accumulator at what the point before left (at anything before the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 6 := lt_of_lt_of_eq t.isLt (show cfg0.N = 6 from N_0)
  by_cases h0 : t.val % 3 = 0
  · by_cases h1 : t.val % 3 = 2
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 3 = 2
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 6 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end

end Cert.Kernel.Hand

end
-- ==== Proof.K.FcBody.lean ====
/-
  The final-layer kernel's region, at any float instance and at parameter entry contents `V`.

  The body loads its three input blocks whole (the hidden state, the transposed weights, the bias row), loads and
  ignores the output buffer, and stores ONE value over the whole output block: the logarithm of the soft maximum of
  the rectified logits.  So after the body the output window's buffer holds that value of the three input blocks,
  and the inputs' buffers are as they were.  The region's invariant is the class's (the scoped buffers it does not
  stage and the generator register, untouched); nothing is owed.
-/
import proofs.«160136_j5179730559367_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The body's accesses: each a whole block -/

abbrev r1_0 : Rect S32x1024 := Rect.unit (s := S32x1024) ![0, 0] S32x1024.size inb_S32x1024_S32x1024_0_0
abbrev r1_1 : Rect S1024x1000 := Rect.unit (s := S1024x1000) ![0, 0] S1024x1000.size inb_S1024x1000_S1024x1000_0_0
abbrev r1_2 : Rect S1x1000 := Rect.unit (s := S1x1000) ![0, 0] S1x1000.size inb_S1x1000_S1x1000_0_0
abbrev r1_3 : Rect S32x1000 := Rect.unit (s := S32x1000) ![0, 0] S32x1000.size inb_S32x1000_S32x1000_0_0

/-- The output window's buffer after the body, from the three input blocks: its one store. -/
def out1_3 (x0 : Vec F S32x1024 .f32) (x1 : Vec F S1024x1000 .f32) (x2 : Vec F S1x1000 .f32) : Vec F S32x1000 .f32 :=
  View.canon [⟨r1_3, k1_pay1 (View.ld x0 r1_0) (View.ld x1 r1_1) (View.ld x2 r1_2)⟩]

/-- The one store covers the block. -/
theorem cover1_3 (p0 : Vec F S32x1000 .f32) (y : S32x1000.Idx) :
    ∃ pc ∈ ([⟨r1_3, p0⟩] : List (View.Piece (Elt F) S32x1000 .f32)), y ∈ pc.1.set :=
  View.cover_of_tiledL [⟨r1_3, p0⟩] S32x1000.size (by sl_kernel_rfl) y

/-! ## The body's triple -/

set_option maxHeartbeats 4000000 in
theorem sound_kernel1 (c : Dev nD) (E : Set ℕ) (i : grid1.Coords) (arg1 : Memref sig .tc .vmem S32x1024 .f32) (harg1 : arg1.IsWhole) (arg2 : Memref sig .tc .vmem S1024x1000 .f32) (harg2 : arg2.IsWhole) (arg3 : Memref sig .tc .vmem S1x1000 .f32) (harg3 : arg3.IsWhole) (arg4 : Memref sig .tc .vmem S32x1000 .f32) (harg4 : arg4.IsWhole)
    (x0 : Vec F S32x1024 .f32) (x1 : Vec F S1024x1000 .f32) (x2 : Vec F S1x1000 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The whole program's run, at any float instance: @main is host operations, the gate kernel's region, host
  operations, the final-layer kernel's region.

  The contents of the core's buffers at each boundary are a fold from the launch memory: after a stretch of host
  operations, what those operations compute; after a region, its windows' arrays at what its write-backs leave (an
  input's array as entered) and every other buffer as entered.  Each region's proof data are taken at the contents
  of the boundary before it.  The thread state between two items is "every unscoped buffer at the boundary's
  contents, the generator register at some state, nothing owed".  The run ends with every unscoped buffer at the last
  boundary's contents, from which the arguments read back to their launch contents (no host operation and no region
  writes one) and the result reads as the final-layer region's output array.
-/
import proofs.«160136_j5179730559367_2_alg».proof.Proof.K.GateBody
import proofs.«160136_j5179730559367_2_alg».proof.Proof.K.FcBody
import proofs.«160136_j5179730559367_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Bd0 : Dev nD → Valuation τ sig (Elt F) := fun c b => (s₀ m ρ).mem ((c : Dev nD), b)
/-- After the first stretch of host operations: the gate kernel's region is entered from these. -/
abbrev Bd1 : Dev nD → Valuation τ sig (Elt F) := fun c => StableHlo.after hostOps0 (Bd0 m ρ c)
abbrev En1 : (c : Dev nD) → (b : Ref sig .tc) → Buf (Elt F) ((c : Thread nD τ).loc b) := fun c b => Bd1 m ρ c b
/-- At the gate kernel's region's exit. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (dat0 (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)

/-- After the second stretch of host operations: the final-layer kernel's region is entered from these. -/
abbrev Bd3 : Dev nD → Valuation τ sig (Elt F) := fun c => StableHlo.after hostOps1 (Bd2 m ρ c)
abbrev En3 : (c : Dev nD) → (b : Ref sig .tc) → Buf (Elt F) ((c : Thread nD τ).loc b) := fun c b => Bd3 m ρ c b
/-- At the final-layer kernel's region's exit. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)

/-! ## The arguments end as launched -/

theorem Bd4_main_arg0 (c : Dev nD) : Bd4 m ρ c (Proc.devRef .tc main_arg0) = m ((c : Thread nD τ).loc main_arg0) :=
  calc Bd4 m ρ c (Proc.devRef .tc main_arg0)
    _ = Bd3 m ρ c (Proc.devRef .tc main_arg0) := Bd4_of_ne m ρ c main_arg0 (by decide)
    _ = Bd2 m ρ c (Proc.devRef .tc main_arg0) := StableHlo.after_of_writes_sub hostOps1 _ hostOps1_writes (show main_arg0 ∉ hostOps1_W by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (show main_arg0 ∉ hostOps0_W by decide)
    _ = m ((c : Thread nD τ).loc main_arg0) := rfl

theorem Bd4_main_arg1 (c : Dev nD) : Bd4 m ρ c (Proc.devRef .tc main_arg1) = m ((c : Thread nD τ).loc main_arg1) :=
  calc Bd4 m ρ c (Proc.devRef .tc main_arg1)
    _ = Bd3 m ρ c (Proc.devRef .tc main_arg1) := Bd4_of_ne m ρ c main_arg1 (by decide)
    _ = Bd2 m ρ c (Proc.devRef .tc main_arg1) := StableHlo.after_of_writes_sub hostOps1 _ hostOps1_writes (show main_arg1 ∉ hostOps1_W by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (show main_arg1 ∉ hostOps0_W by decide)
    _ = m ((c : Thread nD τ).loc main_arg1) := rfl

theorem Bd4_main_arg2 (c : Dev nD) : Bd4 m ρ c (Proc.devRef .tc main_arg2) = m ((c : Thread nD τ).loc main_arg2) :=
  calc Bd4 m ρ c (Proc.devRef .tc main_arg2)
    _ = Bd3 m ρ c (Proc.devRef .tc main_arg2) := Bd4_of_ne m ρ c main_arg2 (by decide)
    _ = Bd2 m ρ c (Proc.devRef .tc main_arg2) := StableHlo.after_of_writes_sub hostOps1 _ hostOps1_writes (show main_arg2 ∉ hostOps1_W by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (show main_arg2 ∉ hostOps0_W by decide)
    _ = m ((c : Thread nD τ).loc main_arg2) := rfl

theorem Bd4_main_arg3 (c : Dev nD) : Bd4 m ρ c (Proc.devRef .tc main_arg3) = m ((c : Thread nD τ).loc main_arg3) :=
  calc Bd4 m ρ c (Proc.devRef .tc main_arg3)
    _ = Bd3 m ρ c (Proc.devRef .tc main_arg3) := Bd4_of_ne m ρ c main_arg3 (by decide)
    _ = Bd2 m ρ c (Proc.devRef .tc main_arg3) := StableHlo.after_of_writes_sub hostOps1 _ hostOps1_writes (show main_arg3 ∉ hostOps1_W by decide)
    _ = Bd1 m ρ c (Proc.devRef .tc main_arg3) := (Bd2_arr m ρ c 1).trans (((dat0 (En1 m ρ) c).arrAt_in 1 rfl _).trans (A_eq0 (En1 m ρ) c 1))
    _ = Bd0 m ρ c (Proc.devRef .tc main_arg3) := StableHlo.after_of_writes_sub hostOps0 _ hostOps0_writes (show main_arg3 ∉ hostOps0_W by decide)
    _ = m ((c : Thread nD τ).loc main_arg3) := rfl

theorem Bd4_main_arg4 (c : Dev nD) : Bd4 m ρ c (Proc.devRef .tc main_arg4) = m ((c : Thread nD τ).loc main_arg4) :=
  calc Bd4 m ρ c (Proc.devRef .tc main_arg4)
    _ = Bd3 m ρ c (Proc.devRef .tc main_arg4) := Bd4_of_ne m ρ c main_arg4 (by decide)
    _ = Bd2 m ρ c (Proc.devRef .tc main_arg4) := StableHlo.after_of_writes_sub hostOps1 _ hostOps1_writes (show main_arg4 ∉ hostOps1_W by decide)
    _ = Bd1 m ρ c (Proc.devRef .tc main_arg4) := (Bd2_arr m ρ c 2).trans (((dat0 (En1 m ρ) c).arrAt_in 2 rfl _).trans (A_eq0 (En1 m ρ) c 2))
    _ = Bd0 m ρ c (Proc.devRef .tc main_arg4) := StableHlo.after_of_writes_sub hostOps0 _ hostOps0_writes (show main_arg4 ∉ hostOps0_W by decide)
    _ = m ((c : Thread nD τ).loc main_arg4) := rfl

theorem Bd4_main_arg5 (c : Dev nD) : Bd4 m ρ c (Proc.devRef .tc main_arg5) = m ((c : Thread nD τ).loc main_arg5) :=
  calc Bd4 m ρ c (Proc.devRef .tc main_arg5)
    _ = Bd3 m ρ c (Proc.devRef .tc main_arg5) := Bd4_of_ne m ρ c main_arg5 (by decide)
    _ = Bd2 m ρ c (Proc.devRef .tc main_arg5) := StableHlo.after_of_writes_sub hostOps1 _ hostOps1_writes (show main_arg5 ∉ hostOps1_W by decide)
    _ = Bd1 m ρ c (Proc.devRef .tc main_arg5) := (Bd2_arr m ρ c 3).trans (((dat0 (En1 m ρ) c).arrAt_in 3 rfl _).trans (A_eq0 (En1 m ρ) c 3))
    _ = Bd0 m ρ c (Proc.devRef .tc main_arg5) := StableHlo.after_of_writes_sub hostOps0 _ hostOps0_writes (show main_arg5 ∉ hostOps0_W by decide)
    _ = m ((c : Thread nD τ).loc main_arg5) := rfl

theorem Bd4_main_arg6 (c : Dev nD) : Bd4 m ρ c (Proc.devRef .tc main_arg6) = m ((c : Thread nD τ).loc main_arg6) :=
  calc Bd4 m ρ c (Proc.devRef .tc main_arg6)
    _ = Bd3 m ρ c (Proc.devRef .tc main_arg6) := Bd4_of_ne m ρ c main_arg6 (by decide)
    _ = Bd2 m ρ c (Proc.devRef .tc main_arg6) := StableHlo.after_of_writes_sub hostOps1 _ hostOps1_writes (show main_arg6 ∉ hostOps1_W by decide)
    _ = Bd1 m ρ c (Proc.devRef .tc main_arg6) := (Bd2_arr m ρ c 4).trans (((dat0 (En1 m ρ) c).arrAt_in 4 rfl _).trans (A_eq0 (En1 m ρ) c 4))
    _ = Bd0 m ρ c (Proc.devRef .tc main_arg6) := StableHlo.after_of_writes_sub hostOps0 _ hostOps0_writes (show main_arg6 ∉ hostOps0_W by decide)
    _ = m ((c : Thread nD τ).loc main_arg6) := rfl

theorem Bd4_main_arg7 (c : Dev nD) : Bd4 m ρ c (Proc.devRef .tc main_arg7) = m ((c : Thread nD τ).loc main_arg7) :=
  calc Bd4 m ρ c (Proc.devRef .tc main_arg7)
    _ = Bd3 m ρ c (Proc.devRef .tc main_arg7) := Bd4_of_ne m ρ c main_arg7 (by decide)
    _ = Bd2 m ρ c (Proc.devRef .tc main_arg7) := StableHlo.after_of_writes_sub hostOps1 _ hostOps1_writes (show main_arg7 ∉ hostOps1_W by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (show main_arg7 ∉ hostOps0_W by decide)
    _ = m ((c : Thread nD τ).loc main_arg7) := rfl

theorem Bd4_main_arg8 (c : Dev nD) : Bd4 m ρ c (Proc.devRef .tc main_arg8) = m ((c : Thread nD τ).loc main_arg8) :=
  calc Bd4 m ρ c (Proc.devRef .tc main_arg8)
    _ = Bd3 m ρ c (Proc.devRef .tc main_arg8) := Bd4_of_ne m ρ c main_arg8 (by decide)
    _ = Bd2 m ρ c (Proc.devRef .tc main_arg8) := StableHlo.after_of_writes_sub hostOps1 _ hostOps1_writes (show main_arg8 ∉ hostOps1_W by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (show main_arg8 ∉ hostOps0_W by decide)
    _ = m ((c : Thread nD τ).loc main_arg8) := rfl

/-- The result's buffer at the end holds the final-layer region's output array. -/
theorem Bd4_main_v9 (c : Dev nD) : Bd4 m ρ c (Proc.devRef .tc main_v9) = (dat1 (En3 m ρ) c).arrAt 3 cfg1.N :=
  Bd4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd4 m ρ c) ∗ ∃ r, prngReg c r)

/-- What the class's invariant of the gate kernel's region gives back, in the order the region's exit takes it. -/
theorem PhiA_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-! ## The regions as segments -/

set_option backward.isDefEq.respectTransparency.types false in
/-- The gate kernel's region: its arrays split out of the unscoped buffers and put back at the exit contents; the
    generator register and the scoped buffers it does not stage into its invariant before the first point and out of
    it after the last (the accumulator's contents are then forgotten); nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (En1 m ρ) c).trans (PhiA_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final-layer kernel's region, the same way, with the class's invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd4 m ρ c) s')
      isplitl [Hh] <;> iassumption)
    (hQ := fun s h => h)

/-- THE FRAME, at any float instance: every weakly fair execution of @main terminates, nothing faulting, and the nine
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (Bd4_main_arg0 m ρ c),
      (h c _ (mem_uc main_arg1 (by decide))).trans (Bd4_main_arg1 m ρ c),
      (h c _ (mem_uc main_arg2 (by decide))).trans (Bd4_main_arg2 m ρ c),
      (h c _ (mem_uc main_arg3 (by decide))).trans (Bd4_main_arg3 m ρ c),
      (h c _ (mem_uc main_arg4 (by decide))).trans (Bd4_main_arg4 m ρ c),
      (h c _ (mem_uc main_arg5 (by decide))).trans (Bd4_main_arg5 m ρ c),
      (h c _ (mem_uc main_arg6 (by decide))).trans (Bd4_main_arg6 m ρ c),
      (h c _ (mem_uc main_arg7 (by decide))).trans (Bd4_main_arg7 m ρ c),
      (h c _ (mem_uc main_arg8 (by decide))).trans (Bd4_main_arg8 m ρ c)⟩) (run_all m ρ)

/-- The same run read at the result: it ends holding the final-layer region's output array. -/
theorem run_result : θ_run defs (onTc (τ := τ) (main (F := F))) ⟨m, fun _ => 0, ρ⟩ (fun r => ∀ c : Dev nD,
      r.2.mem ((c.tc : Thread nD τ).loc main_v9) = (dat1 (En3 m ρ) c).arrAt 3 cfg1.N) :=
  (θ_run defs _ _).mono (fun r h c => (h c _ (mem_uc main_v9 (by decide))).trans (Bd4_main_v9 m ρ c)) (run_all m ρ)

end Cert.Kernel.Hand

end
-- ==== Proof.KI.Shared.lean ====
/-
  What the two kernels' runs share, at any float instance and at PARAMETER contents `V` of the core's buffers when a
  region is entered.

  A window's block at a grid point is the window's rectangle of its array read through `V`.  The gate kernel runs
  on a 2 × 3 grid, point `t` being column tile `t / 3` and reduction step `t % 3`: it clears its accumulator where
  `t % 3 = 0`, adds four products at every point, and stores the cell's output where `t % 3 = 2`; at the other
  points its output window is idle and is not written back.  The final-layer kernel runs at one point.
-/
import proofs.«160136_j5179730559367_2_alg».proof.Proof.Gen.KernelIdeal.Launch
import proofs.«160136_j5179730559367_2_alg».proof.Proof.Gen.KernelIdeal.Skeleton
import proofs.«160136_j5179730559367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The gate kernel's windows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not: where it is not fetched the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, fetched there or not: where it is not fetched the
    block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The final-layer kernel's windows -/

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not: where it is not fetched the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, fetched there or not: where it is not fetched the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, fetched there or not: where it is not fetched the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The gate kernel's two branches, decided over the grid -/

/-- "This is the first reduction step": the condition under which the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "This is the last reduction step": the condition under which the output block is stored. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the gate kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At a first step the output window is idle and not written back; -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- at a middle step too; -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- at a last step it is live. -/
theorem liveAt0_6_C : ∀ t : Fin cfg0.N, ¬cond0_0 (grid0.coords t) → cond0_1 (grid0.coords t) → cfg0.idle 6 (grid0.coords t) = false := by decide +kernel

/-! ## The memrefs the gate kernel is called with -/

/-- One staging buffer of the output window, through which its contents are stated (the choice does not matter). -/
abbrev VO0_6 : View sig .tc .vmem S32x512 .f32 := (Memref.whole cc0_stg6_0 : Memref sig .tc .vmem S32x512 .f32).view
abbrev ms0_0 (t : Fin cfg0.N) : Memref sig .tc .vmem S32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x512 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S32x2048 .f32 := Memref.whole cc0_scratch0
abbrev VS0_0 : View sig .tc .vmem S32x2048 .f32 := scM0_0.view

/-- The other scoped buffers the gate kernel's region holds and never touches (the final-layer kernel's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- What the launch hands the gate kernel's region beside its windows: the accumulator at some contents, the other
    scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Hand

end
-- ==== Proof.KI.GateRunA.lean ====
/-
  The gate kernel's body run whole at a FIRST reduction step (the accumulator is cleared, the output block is not stored): on whole memrefs, the six input windows' at their
  contents, the output window's at contents handed back untouched, the accumulator at anything (the body overwrites it whole before it reads it), the body runs to its end leaving the inputs as they were and each buffer it
  stored into with its stores written, as a list of pieces (last first).  The pieces are found by running the body; each
  branch is decided by the case's hypotheses.
-/
import proofs.«160136_j5179730559367_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i)
    (x0 : Vec F S32x512 .f32) (x1 x2 x3 x4 : Vec F S512x512 .f32) (x5 : Vec F S1x512 .f32) :
    Σ' (L6 : List (View.Piece (Elt F) S32x512 .f32)), { LS0 : List (View.Piece (Elt F) S32x2048 .f32) //
      ∀ (xi6 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨[], ?_, fun xi6 E K => ?run⟩
  case run =>
    haveI : Fact (cond0_0 i) := ⟨hc0⟩
    haveI : Fact (¬cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.GateRunB.lean ====
/-
  The gate kernel's body run whole at a MIDDLE reduction step (neither branch is taken): on whole memrefs, the six input windows' at their
  contents, the output window's at contents handed back untouched, the accumulator at the contents the point before left, the body runs to its end leaving the inputs as they were and each buffer it
  stored into with its stores written, as a list of pieces (last first).  The pieces are found by running the body; each
  branch is decided by the case's hypotheses.
-/
import proofs.«160136_j5179730559367_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i)
    (x0 : Vec F S32x512 .f32) (x1 x2 x3 x4 : Vec F S512x512 .f32) (x5 : Vec F S1x512 .f32) (xs0 : Vec F S32x2048 .f32) :
    Σ' (L6 : List (View.Piece (Elt F) S32x512 .f32)), { LS0 : List (View.Piece (Elt F) S32x2048 .f32) //
      ∀ (xi6 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨[], ?_, fun xi6 E K => ?run⟩
  case run =>
    haveI : Fact (¬cond0_0 i) := ⟨hc0⟩
    haveI : Fact (¬cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.GateRunC.lean ====
/-
  The gate kernel's body run whole at a LAST reduction step (the output block is stored): on whole memrefs, the six input windows' at their
  contents, the output window's at anything, the accumulator at the contents the point before left, the body runs to its end leaving the inputs as they were and each buffer it
  stored into with its stores written, as a list of pieces (last first).  The pieces are found by running the body; each
  branch is decided by the case's hypotheses.
-/
import proofs.«160136_j5179730559367_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i)
    (x0 : Vec F S32x512 .f32) (x1 x2 x3 x4 : Vec F S512x512 .f32) (x5 : Vec F S1x512 .f32) (xs0 : Vec F S32x2048 .f32) :
    Σ' (L6 : List (View.Piece (Elt F) S32x512 .f32)), { LS0 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gate_kernel i arg2 harg2 arg3 harg3 arg4 harg4 arg5 harg5 arg6 harg6 arg7 harg7 arg8 harg8 arg9 harg9) K } := by
  refine ⟨?_, ?_, fun E K => ?run⟩
  case run =>
    haveI : Fact (¬cond0_0 i) := ⟨hc0⟩
    haveI : Fact (cond0_1 i) := ⟨hc1⟩
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.GateBody.lean ====
/-
  The gate kernel's region, at any float instance and at parameter entry contents `V`.

  What the accumulator and the output window's buffer hold after each grid point is defined by recursion on the point:
  at a first reduction step the body clears the accumulator and adds the step's four products into its four column
  slabs; at a middle step it adds into what the point before left; at a last step it adds, then stores the cell's
  output computed from the accumulator.  The region's invariant carries the accumulator AT those contents from one
  point to the next (before the first point it is at anything), beside the scoped buffers the region never touches
  and the generator register.  At the points where the output window is idle its buffer is handed back as found and
  is not written back.
-/
import proofs.«160136_j5179730559367_2_alg».proof.Proof.KI.GateRunA
import proofs.«160136_j5179730559367_2_alg».proof.Proof.KI.GateRunB
import proofs.«160136_j5179730559367_2_alg».proof.Proof.KI.GateRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- A first step stores nothing into the output window: a placeholder nothing consults. -/
def out0_A_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) : Vec F S32x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)
/-- Its stores into the accumulator (the clearing store, then the four slabs) cover it. -/
theorem scover0_A_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) (y : S32x2048.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S32x2048.size (by sl_kernel_rfl) y
/-- What a first step leaves in the accumulator. -/
def sout0_A_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec F S32x512 .f32) (x1 x2 x3 x4 : Vec F S512x512 .f32) (x5 : Vec F S1x512 .f32) : Vec F S32x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- A middle step stores nothing into the output window either. -/
def out0_B_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) : Vec F S32x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)
/-- Its four slab stores cover the accumulator. -/
theorem scover0_B_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) (y : S32x2048.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S32x512.size (by sl_kernel_rfl) y
def sout0_B_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec F S32x512 .f32) (x1 x2 x3 x4 : Vec F S512x512 .f32) (x5 : Vec F S1x512 .f32) (xs0 : Vec F S32x2048 .f32) : Vec F S32x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- A last step's one store covers the output block. -/
theorem cover0_C_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) (y : S32x512.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S32x512.size (by sl_kernel_rfl) y
/-- What a last step leaves in the output window's buffer. -/
def out0_C_6 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) : Vec F S32x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)
theorem scover0_C_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) (y : S32x2048.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S32x512.size (by sl_kernel_rfl) y
def sout0_C_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec F S32x512 .f32) (x1 x2 x3 x4 : Vec F S512x512 .f32) (x5 : Vec F S1x512 .f32) (xs0 : Vec F S32x2048 .f32) : Vec F S32x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output window's buffer and the accumulator hold after each point -/

/-- THE ACCUMULATION: after the body at position `n`, the output window's buffer and the accumulator — the case the
    closed forms select at `n`, run at the point's memrefs and input blocks, over what position `n - 1` left. -/
def outsAt0 (c : Dev nD) : (n : ℕ) → n < cfg0.N → Vec F S32x512 .f32 × Vec F S32x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 3 = 0 then
      if h1 : (n + 1) % 3 = 2 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 3 = 2 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

theorem outsAt0_A (c : Dev nD) (t : Fin cfg0.N) (h0 : t.val % 3 = 0) (h1 : ¬t.val % 3 = 2) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 3 = 0) (h1 : ¬t.val % 3 = 2) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 3 = 0) (h1 : t.val % 3 = 2) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (the accumulator at anything); afterwards the
    accumulator at what the point before left, the scoped buffers the region never touches, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; the
    invariant hands the body the accumulator at what the point before left (at anything before the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 6 := lt_of_lt_of_eq t.isLt (show cfg0.N = 6 from N_0)
  by_cases h0 : t.val % 3 = 0
  · by_cases h1 : t.val % 3 = 2
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 3 = 2
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 6 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end

end Cert.KernelIdeal.Hand

end
-- ==== Proof.KI.FcBody.lean ====
/-
  The final-layer kernel's region, at any float instance and at parameter entry contents `V`.

  The body loads its three input blocks whole (the hidden state, the transposed weights, the bias row), loads and
  ignores the output buffer, and stores ONE value over the whole output block: the logarithm of the soft maximum of
  the rectified logits.  So after the body the output window's buffer holds that value of the three input blocks,
  and the inputs' buffers are as they were.  The region's invariant is the class's (the scoped buffers it does not
  stage and the generator register, untouched); nothing is owed.
-/
import proofs.«160136_j5179730559367_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The body's accesses: each a whole block -/

abbrev r1_0 : Rect S32x1024 := Rect.unit (s := S32x1024) ![0, 0] S32x1024.size inb_S32x1024_S32x1024_0_0
abbrev r1_1 : Rect S1024x1000 := Rect.unit (s := S1024x1000) ![0, 0] S1024x1000.size inb_S1024x1000_S1024x1000_0_0
abbrev r1_2 : Rect S1x1000 := Rect.unit (s := S1x1000) ![0, 0] S1x1000.size inb_S1x1000_S1x1000_0_0
abbrev r1_3 : Rect S32x1000 := Rect.unit (s := S32x1000) ![0, 0] S32x1000.size inb_S32x1000_S32x1000_0_0

/-- The output window's buffer after the body, from the three input blocks: its one store. -/
def out1_3 (x0 : Vec F S32x1024 .f32) (x1 : Vec F S1024x1000 .f32) (x2 : Vec F S1x1000 .f32) : Vec F S32x1000 .f32 :=
  View.canon [⟨r1_3, k1_pay1 (View.ld x0 r1_0) (View.ld x1 r1_1) (View.ld x2 r1_2)⟩]

/-- The one store covers the block. -/
theorem cover1_3 (p0 : Vec F S32x1000 .f32) (y : S32x1000.Idx) :
    ∃ pc ∈ ([⟨r1_3, p0⟩] : List (View.Piece (Elt F) S32x1000 .f32)), y ∈ pc.1.set :=
  View.cover_of_tiledL [⟨r1_3, p0⟩] S32x1000.size (by sl_kernel_rfl) y

/-! ## The body's triple -/

set_option maxHeartbeats 4000000 in
theorem sound_kernel1 (c : Dev nD) (E : Set ℕ) (i : grid1.Coords) (arg1 : Memref sig .tc .vmem S32x1024 .f32) (harg1 : arg1.IsWhole) (arg2 : Memref sig .tc .vmem S1024x1000 .f32) (harg2 : arg2.IsWhole) (arg3 : Memref sig .tc .vmem S1x1000 .f32) (harg3 : arg3.IsWhole) (arg4 : Memref sig .tc .vmem S32x1000 .f32) (harg4 : arg4.IsWhole)
    (x0 : Vec F S32x1024 .f32) (x1 : Vec F S1024x1000 .f32) (x2 : Vec F S1x1000 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The whole program's run, at any float instance: @main is host operations, the gate kernel's region, host
  operations, the final-layer kernel's region.

  The contents of the core's buffers at each boundary are a fold from the launch memory: after a stretch of host
  operations, what those operations compute; after a region, its windows' arrays at what its write-backs leave (an
  input's array as entered) and every other buffer as entered.  Each region's proof data are taken at the contents
  of the boundary before it.  The thread state between two items is "every unscoped buffer at the boundary's
  contents, the generator register at some state, nothing owed".  The run ends with every unscoped buffer at the last
  boundary's contents, from which the arguments read back to their launch contents (no host operation and no region
  writes one) and the result reads as the final-layer region's output array.
-/
import proofs.«160136_j5179730559367_2_alg».proof.Proof.KI.GateBody
import proofs.«160136_j5179730559367_2_alg».proof.Proof.KI.FcBody
import proofs.«160136_j5179730559367_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Bd0 : Dev nD → Valuation τ sig (Elt F) := fun c b => (s₀ m ρ).mem ((c : Dev nD), b)
/-- After the first stretch of host operations: the gate kernel's region is entered from these. -/
abbrev Bd1 : Dev nD → Valuation τ sig (Elt F) := fun c => StableHlo.after hostOps0 (Bd0 m ρ c)
abbrev En1 : (c : Dev nD) → (b : Ref sig .tc) → Buf (Elt F) ((c : Thread nD τ).loc b) := fun c b => Bd1 m ρ c b
/-- At the gate kernel's region's exit. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (dat0 (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)

/-- After the second stretch of host operations: the final-layer kernel's region is entered from these. -/
abbrev Bd3 : Dev nD → Valuation τ sig (Elt F) := fun c => StableHlo.after hostOps1 (Bd2 m ρ c)
abbrev En3 : (c : Dev nD) → (b : Ref sig .tc) → Buf (Elt F) ((c : Thread nD τ).loc b) := fun c b => Bd3 m ρ c b
/-- At the final-layer kernel's region's exit. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)

/-! ## The arguments end as launched -/

theorem Bd4_main_arg0 (c : Dev nD) : Bd4 m ρ c (Proc.devRef .tc main_arg0) = m ((c : Thread nD τ).loc main_arg0) :=
  calc Bd4 m ρ c (Proc.devRef .tc main_arg0)
    _ = Bd3 m ρ c (Proc.devRef .tc main_arg0) := Bd4_of_ne m ρ c main_arg0 (by decide)
    _ = Bd2 m ρ c (Proc.devRef .tc main_arg0) := StableHlo.after_of_writes_sub hostOps1 _ hostOps1_writes (show main_arg0 ∉ hostOps1_W by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (show main_arg0 ∉ hostOps0_W by decide)
    _ = m ((c : Thread nD τ).loc main_arg0) := rfl

theorem Bd4_main_arg1 (c : Dev nD) : Bd4 m ρ c (Proc.devRef .tc main_arg1) = m ((c : Thread nD τ).loc main_arg1) :=
  calc Bd4 m ρ c (Proc.devRef .tc main_arg1)
    _ = Bd3 m ρ c (Proc.devRef .tc main_arg1) := Bd4_of_ne m ρ c main_arg1 (by decide)
    _ = Bd2 m ρ c (Proc.devRef .tc main_arg1) := StableHlo.after_of_writes_sub hostOps1 _ hostOps1_writes (show main_arg1 ∉ hostOps1_W by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (show main_arg1 ∉ hostOps0_W by decide)
    _ = m ((c : Thread nD τ).loc main_arg1) := rfl

theorem Bd4_main_arg2 (c : Dev nD) : Bd4 m ρ c (Proc.devRef .tc main_arg2) = m ((c : Thread nD τ).loc main_arg2) :=
  calc Bd4 m ρ c (Proc.devRef .tc main_arg2)
    _ = Bd3 m ρ c (Proc.devRef .tc main_arg2) := Bd4_of_ne m ρ c main_arg2 (by decide)
    _ = Bd2 m ρ c (Proc.devRef .tc main_arg2) := StableHlo.after_of_writes_sub hostOps1 _ hostOps1_writes (show main_arg2 ∉ hostOps1_W by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (show main_arg2 ∉ hostOps0_W by decide)
    _ = m ((c : Thread nD τ).loc main_arg2) := rfl

theorem Bd4_main_arg3 (c : Dev nD) : Bd4 m ρ c (Proc.devRef .tc main_arg3) = m ((c : Thread nD τ).loc main_arg3) :=
  calc Bd4 m ρ c (Proc.devRef .tc main_arg3)
    _ = Bd3 m ρ c (Proc.devRef .tc main_arg3) := Bd4_of_ne m ρ c main_arg3 (by decide)
    _ = Bd2 m ρ c (Proc.devRef .tc main_arg3) := StableHlo.after_of_writes_sub hostOps1 _ hostOps1_writes (show main_arg3 ∉ hostOps1_W by decide)
    _ = Bd1 m ρ c (Proc.devRef .tc main_arg3) := (Bd2_arr m ρ c 1).trans (((dat0 (En1 m ρ) c).arrAt_in 1 rfl _).trans (A_eq0 (En1 m ρ) c 1))
    _ = Bd0 m ρ c (Proc.devRef .tc main_arg3) := StableHlo.after_of_writes_sub hostOps0 _ hostOps0_writes (show main_arg3 ∉ hostOps0_W by decide)
    _ = m ((c : Thread nD τ).loc main_arg3) := rfl

theorem Bd4_main_arg4 (c : Dev nD) : Bd4 m ρ c (Proc.devRef .tc main_arg4) = m ((c : Thread nD τ).loc main_arg4) :=
  calc Bd4 m ρ c (Proc.devRef .tc main_arg4)
    _ = Bd3 m ρ c (Proc.devRef .tc main_arg4) := Bd4_of_ne m ρ c main_arg4 (by decide)
    _ = Bd2 m ρ c (Proc.devRef .tc main_arg4) := StableHlo.after_of_writes_sub hostOps1 _ hostOps1_writes (show main_arg4 ∉ hostOps1_W by decide)
    _ = Bd1 m ρ c (Proc.devRef .tc main_arg4) := (Bd2_arr m ρ c 2).trans (((dat0 (En1 m ρ) c).arrAt_in 2 rfl _).trans (A_eq0 (En1 m ρ) c 2))
    _ = Bd0 m ρ c (Proc.devRef .tc main_arg4) := StableHlo.after_of_writes_sub hostOps0 _ hostOps0_writes (show main_arg4 ∉ hostOps0_W by decide)
    _ = m ((c : Thread nD τ).loc main_arg4) := rfl

theorem Bd4_main_arg5 (c : Dev nD) : Bd4 m ρ c (Proc.devRef .tc main_arg5) = m ((c : Thread nD τ).loc main_arg5) :=
  calc Bd4 m ρ c (Proc.devRef .tc main_arg5)
    _ = Bd3 m ρ c (Proc.devRef .tc main_arg5) := Bd4_of_ne m ρ c main_arg5 (by decide)
    _ = Bd2 m ρ c (Proc.devRef .tc main_arg5) := StableHlo.after_of_writes_sub hostOps1 _ hostOps1_writes (show main_arg5 ∉ hostOps1_W by decide)
    _ = Bd1 m ρ c (Proc.devRef .tc main_arg5) := (Bd2_arr m ρ c 3).trans (((dat0 (En1 m ρ) c).arrAt_in 3 rfl _).trans (A_eq0 (En1 m ρ) c 3))
    _ = Bd0 m ρ c (Proc.devRef .tc main_arg5) := StableHlo.after_of_writes_sub hostOps0 _ hostOps0_writes (show main_arg5 ∉ hostOps0_W by decide)
    _ = m ((c : Thread nD τ).loc main_arg5) := rfl

theorem Bd4_main_arg6 (c : Dev nD) : Bd4 m ρ c (Proc.devRef .tc main_arg6) = m ((c : Thread nD τ).loc main_arg6) :=
  calc Bd4 m ρ c (Proc.devRef .tc main_arg6)
    _ = Bd3 m ρ c (Proc.devRef .tc main_arg6) := Bd4_of_ne m ρ c main_arg6 (by decide)
    _ = Bd2 m ρ c (Proc.devRef .tc main_arg6) := StableHlo.after_of_writes_sub hostOps1 _ hostOps1_writes (show main_arg6 ∉ hostOps1_W by decide)
    _ = Bd1 m ρ c (Proc.devRef .tc main_arg6) := (Bd2_arr m ρ c 4).trans (((dat0 (En1 m ρ) c).arrAt_in 4 rfl _).trans (A_eq0 (En1 m ρ) c 4))
    _ = Bd0 m ρ c (Proc.devRef .tc main_arg6) := StableHlo.after_of_writes_sub hostOps0 _ hostOps0_writes (show main_arg6 ∉ hostOps0_W by decide)
    _ = m ((c : Thread nD τ).loc main_arg6) := rfl

theorem Bd4_main_arg7 (c : Dev nD) : Bd4 m ρ c (Proc.devRef .tc main_arg7) = m ((c : Thread nD τ).loc main_arg7) :=
  calc Bd4 m ρ c (Proc.devRef .tc main_arg7)
    _ = Bd3 m ρ c (Proc.devRef .tc main_arg7) := Bd4_of_ne m ρ c main_arg7 (by decide)
    _ = Bd2 m ρ c (Proc.devRef .tc main_arg7) := StableHlo.after_of_writes_sub hostOps1 _ hostOps1_writes (show main_arg7 ∉ hostOps1_W by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (show main_arg7 ∉ hostOps0_W by decide)
    _ = m ((c : Thread nD τ).loc main_arg7) := rfl

theorem Bd4_main_arg8 (c : Dev nD) : Bd4 m ρ c (Proc.devRef .tc main_arg8) = m ((c : Thread nD τ).loc main_arg8) :=
  calc Bd4 m ρ c (Proc.devRef .tc main_arg8)
    _ = Bd3 m ρ c (Proc.devRef .tc main_arg8) := Bd4_of_ne m ρ c main_arg8 (by decide)
    _ = Bd2 m ρ c (Proc.devRef .tc main_arg8) := StableHlo.after_of_writes_sub hostOps1 _ hostOps1_writes (show main_arg8 ∉ hostOps1_W by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (show main_arg8 ∉ hostOps0_W by decide)
    _ = m ((c : Thread nD τ).loc main_arg8) := rfl

/-- The result's buffer at the end holds the final-layer region's output array. -/
theorem Bd4_main_v9 (c : Dev nD) : Bd4 m ρ c (Proc.devRef .tc main_v9) = (dat1 (En3 m ρ) c).arrAt 3 cfg1.N :=
  Bd4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd4 m ρ c) ∗ ∃ r, prngReg c r)

/-- What the class's invariant of the gate kernel's region gives back, in the order the region's exit takes it. -/
theorem PhiA_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-! ## The regions as segments -/

set_option backward.isDefEq.respectTransparency.types false in
/-- The gate kernel's region: its arrays split out of the unscoped buffers and put back at the exit contents; the
    generator register and the scoped buffers it does not stage into its invariant before the first point and out of
    it after the last (the accumulator's contents are then forgotten); nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (En1 m ρ) c).trans (PhiA_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final-layer kernel's region, the same way, with the class's invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd4 m ρ c) s')
      isplitl [Hh] <;> iassumption)
    (hQ := fun s h => h)

/-- THE FRAME, at any float instance: every weakly fair execution of @main terminates, nothing faulting, and the nine
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (Bd4_main_arg0 m ρ c),
      (h c _ (mem_uc main_arg1 (by decide))).trans (Bd4_main_arg1 m ρ c),
      (h c _ (mem_uc main_arg2 (by decide))).trans (Bd4_main_arg2 m ρ c),
      (h c _ (mem_uc main_arg3 (by decide))).trans (Bd4_main_arg3 m ρ c),
      (h c _ (mem_uc main_arg4 (by decide))).trans (Bd4_main_arg4 m ρ c),
      (h c _ (mem_uc main_arg5 (by decide))).trans (Bd4_main_arg5 m ρ c),
      (h c _ (mem_uc main_arg6 (by decide))).trans (Bd4_main_arg6 m ρ c),
      (h c _ (mem_uc main_arg7 (by decide))).trans (Bd4_main_arg7 m ρ c),
      (h c _ (mem_uc main_arg8 (by decide))).trans (Bd4_main_arg8 m ρ c)⟩) (run_all m ρ)

/-- The same run read at the result: it ends holding the final-layer region's output array. -/
theorem run_result : θ_run defs (onTc (τ := τ) (main (F := F))) ⟨m, fun _ => 0, ρ⟩ (fun r => ∀ c : Dev nD,
      r.2.mem ((c.tc : Thread nD τ).loc main_v9) = (dat1 (En3 m ρ) c).arrAt 3 cfg1.N) :=
  (θ_run defs _ _).mono (fun r h c => (h c _ (mem_uc main_v9 (by decide))).trans (Bd4_main_v9 m ρ c)) (run_all m ρ)

end Cert.KernelIdeal.Hand

end
-- ==== Proof.Spec.lean ====
/-
  The function both programs compute, stated once over the nine argument arrays, index by index, on the
  extended reals.

  A row of the gate input is the initial hidden state followed by the features of the LAST time step:
  `z b j = h0 j` for `j < 1024` and `data b 511 (j - 1024)` otherwise.  Each of the four gates is the
  plain sum `∑ j < 1536, z b j * w j n` against its own weight matrix; the cell is
  `σ(g_f) * c0 + σ(g_i) * tanh(g_c)`, the hidden state `σ(g_o) * tanh(cell)`; the logits are
  `max (∑ n < 1024, hid b n * fcw k n + fcb k) 0`; the result is the logits less their row maximum, less the
  logarithm of the row sum of the exponentials of those differences.  The row maximum starts from the negative
  infinity of the 32-bit format, as both programs start it, and is taken once more against it; the row sum is
  the plain sum (the zero both programs start it from adds nothing).
-/
import Idealize.ShloMosaic.PureOps.Ideal
import Idealize.ShloMosaic.Lib.ValueIdx

noncomputable section

namespace Cert.Spec

open Idealize.ShloMosaic Idealize.ShloMosaic.ValueIdx

abbrev Sdata : Shape := ⟨3, ![32, 512, 512]⟩
abbrev Svec : Shape := ⟨1, ![1024]⟩
abbrev Sw : Shape := ⟨2, ![1536, 1024]⟩
abbrev Sfcw : Shape := ⟨2, ![1000, 1024]⟩
abbrev Sfcb : Shape := ⟨1, ![1000]⟩
abbrev Sout : Shape := ⟨2, ![32, 1000]⟩

/-- Row `b` of the gate input: the initial hidden state, then the last time step's features. -/
def zrow (data : Sdata.Idx → EReal) (h0 : Svec.Idx → EReal) (b : Fin 32) (j : Fin 1536) : EReal :=
  if h : j.val < 1024 then h0 (ix1 (⟨j.val, h⟩ : Fin 1024))
  else data (ix3 b (511 : Fin 512) (⟨j.val - 1024, by omega⟩ : Fin 512))

/-- One gate's pre-activation: the row against column `n` of the gate's weights. -/
def gate (z : Fin 1536 → EReal) (w : Sw.Idx → EReal) (n : Fin 1024) : EReal :=
  ∑ j : Fin 1536, z j * w (ix2 j n)

/-- The hidden state the cell leaves at the last time step. -/
def hid (data : Sdata.Idx → EReal) (h0 c0 : Svec.Idx → EReal) (wf wi wc wo : Sw.Idx → EReal)
    (b : Fin 32) (n : Fin 1024) : EReal :=
  Ideal.logistic (gate (zrow data h0 b) wo n)
    * Ideal.tanh (Ideal.logistic (gate (zrow data h0 b) wf n) * c0 (ix1 n)
        + Ideal.logistic (gate (zrow data h0 b) wi n) * Ideal.tanh (gate (zrow data h0 b) wc n))

/-- The rectified logits of the final layer from a hidden state `h`. -/
def logit (h : Fin 32 → Fin 1024 → EReal) (fcw : Sfcw.Idx → EReal) (fcb : Sfcb.Idx → EReal)
    (b : Fin 32) (k : Fin 1000) : EReal :=
  max ((∑ n : Fin 1024, h b n * fcw (ix2 k n)) + fcb (ix1 k)) (Ideal.ofBits .f32 0x00000000#32)

/-- A row's maximum, from the negative infinity of the 32-bit format, taken once more against it. -/
def rowmax (x : Fin 1000 → EReal) : EReal :=
  max (Ideal.ofBits .f32 0xFF800000#32)
    ((Finset.univ : Finset (Fin 1000)).fold max (Ideal.ofBits .f32 0xFF800000#32) x)

/-- The logarithm of the soft maximum of the rows of `x`. -/
def logSoftmax (x : Fin 32 → Fin 1000 → EReal) (b : Fin 32) (k : Fin 1000) : EReal :=
  (x b k - rowmax (x b))
    - Ideal.log (∑ k' : Fin 1000, Ideal.exp (x b k' - rowmax (x b)))

/-- The result array as one function of the argument arrays. -/
def G (data : Sdata.Idx → EReal) (h0 c0 : Svec.Idx → EReal) (wf wi wc wo : Sw.Idx → EReal)
    (fcw : Sfcw.Idx → EReal) (fcb : Sfcb.Idx → EReal) : Sout.Idx → EReal :=
  fun i => logSoftmax (logit (hid data h0 c0 wf wi wc wo) fcw fcb) (i 0) (i 1)

end Cert.Spec

end
-- ==== Proof.RefSpecGates.lean ====
/-
  The hidden state of the reference program, read at an index.

  The program forms the gate input for every time step at once: the initial hidden state repeated over the
  batch and the time steps, joined along the last axis with the features. It joins the four gate weight
  matrices side by side, takes one product over the 1536 joined coordinates, cuts the product into four
  bands of 1024 columns, applies the activations, and only then keeps time step 511. At a batch row `b` and
  a hidden coordinate `n` each band is the plain sum over `j < 1536` of the joined row at the last time
  step against column `n` of that band's own weight matrix.
-/
import proofs.«160136_j5179730559367_2_alg».proof.Proof.RefReadP
import proofs.«160136_j5179730559367_2_alg».proof.Proof.Spec
import Idealize.ShloMosaic.Lib.IdealHost

noncomputable section

namespace Cert.RefSpec

open Cert.ReferenceIdeal Cert.ReferenceIdeal.Gen Cert.ReferenceIdeal.ReadP Idealize.ShloMosaic
  Idealize.ShloMosaic.ValueIdx

/-- The joined gate input at the last time step is the specification's row: below coordinate 1024 the
    initial hidden state, from there on the last time step's features. -/
theorem v1_last (x0 : S32x512x512.Idx → EReal) (x1 : S1024.Idx → EReal) (b : Fin 32) (j : Fin 1536) :
    val_main_v1 (F := Ideal) x0 x1 (ix3 b (511 : Fin 512) j) = Cert.Spec.zrow x0 x1 b j := by
  unfold val_main_v1 Cert.Spec.zrow
  by_cases h : j.val < 1024
  · rw [dif_pos h]
    refine (concatenate_pair_apply_left (2 : Fin 3) (val_main_v0 (F := Ideal) x1) x0 _ (ix3 b (511 : Fin 512) j) rfl
      (ix3 b (511 : Fin 512) (⟨j.val, h⟩ : Fin 1024)) (fun a => match a with
        | ⟨0, _⟩ => rfl
        | ⟨1, _⟩ => rfl
        | ⟨2, _⟩ => rfl)).trans ?_
    rw [val_main_v0_apply]
    exact congrArg x1 (funext fun a => Fin.ext (by match a with | ⟨0, _⟩ => rfl))
  · rw [dif_neg h]
    exact concatenate_pair_apply_right (2 : Fin 3) (val_main_v0 (F := Ideal) x1) x0 _ (ix3 b (511 : Fin 512) j) rfl rfl
      (ix3 b (511 : Fin 512) (⟨j.val - 1024, by omega⟩ : Fin 512)) (fun a ha => match a, ha with
        | ⟨0, _⟩, _ => rfl
        | ⟨1, _⟩, _ => rfl
        | ⟨2, _⟩, ha => absurd rfl ha)
      (by show j.val - 1024 + 1024 = j.val; omega)

/-- The four weight matrices side by side: column `1024 * q + n` of the joined matrix is column `n` of
    the `q`-th matrix. -/
theorem v2_band0 (x3 x4 x5 x6 : S1536x1024.Idx → EReal) (j : Fin 1536) (n : Fin 1024) :
    val_main_v2 (F := Ideal) x3 x4 x5 x6 (ix2 j (⟨n.val, by omega⟩ : Fin 4096)) = x3 (ix2 j n) := by
  unfold val_main_v2
  exact concatenate_apply_piece (1 : Fin 2) _ _ (ix2 j (⟨n.val, by omega⟩ : Fin 4096)) 0 (by show (0 : Nat) < 4; omega) S1536x1024 x3 rfl rfl 0 rfl
    (ix2 j n) (fun a ha => match a, ha with
      | ⟨0, _⟩, _ => rfl
      | ⟨1, _⟩, ha => absurd rfl ha)
    (by show 0 + n.val = n.val; omega)

theorem v2_band1 (x3 x4 x5 x6 : S1536x1024.Idx → EReal) (j : Fin 1536) (n : Fin 1024) :
    val_main_v2 (F := Ideal) x3 x4 x5 x6 (ix2 j (⟨1024 + n.val, by omega⟩ : Fin 4096)) = x4 (ix2 j n) := by
  unfold val_main_v2
  exact concatenate_apply_piece (1 : Fin 2) _ _ (ix2 j (⟨1024 + n.val, by omega⟩ : Fin 4096)) 1 (by show (1 : Nat) < 4; omega) S1536x1024 x4 rfl rfl 1024 rfl
    (ix2 j n) (fun a ha => match a, ha with
      | ⟨0, _⟩, _ => rfl
      | ⟨1, _⟩, ha => absurd rfl ha)
    (by show 1024 + n.val = 1024 + n.val; rfl)

theorem v2_band2 (x3 x4 x5 x6 : S1536x1024.Idx → EReal) (j : Fin 1536) (n : Fin 1024) :
    val_main_v2 (F := Ideal) x3 x4 x5 x6 (ix2 j (⟨2048 + n.val, by omega⟩ : Fin 4096)) = x5 (ix2 j n) := by
  unfold val_main_v2
  exact concatenate_apply_piece (1 : Fin 2) _ _ (ix2 j (⟨2048 + n.val, by omega⟩ : Fin 4096)) 2 (by show (2 : Nat) < 4; omega) S1536x1024 x5 rfl rfl 2048 rfl
    (ix2 j n) (fun a ha => match a, ha with
      | ⟨0, _⟩, _ => rfl
      | ⟨1, _⟩, ha => absurd rfl ha)
    (by show 2048 + n.val = 2048 + n.val; rfl)

theorem v2_band3 (x3 x4 x5 x6 : S1536x1024.Idx → EReal) (j : Fin 1536) (n : Fin 1024) :
    val_main_v2 (F := Ideal) x3 x4 x5 x6 (ix2 j (⟨3072 + n.val, by omega⟩ : Fin 4096)) = x6 (ix2 j n) := by
  unfold val_main_v2
  exact concatenate_apply_piece (1 : Fin 2) _ _ (ix2 j (⟨3072 + n.val, by omega⟩ : Fin 4096)) 3 (by show (3 : Nat) < 4; omega) S1536x1024 x6 rfl rfl 3072 rfl
    (ix2 j n) (fun a ha => match a, ha with
      | ⟨0, _⟩, _ => rfl
      | ⟨1, _⟩, ha => absurd rfl ha)
    (by show 3072 + n.val = 3072 + n.val; rfl)

/-- Each band of the product at the last time step is the specification's gate against that band's matrix. -/
theorem gate0 (x0 : S32x512x512.Idx → EReal) (x1 : S1024.Idx → EReal) (x3 x4 x5 x6 : S1536x1024.Idx → EReal)
    (b : Fin 32) (n : Fin 1024) :
    val_main_v4 (F := Ideal) x0 x1 x3 x4 x5 x6 (ix3 b (511 : Fin 512) n)
      = Cert.Spec.gate (Cert.Spec.zrow x0 x1 b) x3 n := by
  rw [val_main_v4_apply, val_main_v3_apply]
  unfold Cert.Spec.gate
  refine Finset.sum_congr rfl fun k _ => ?_
  have e1 : lidx_main_v3 (idx_main_v4 (ix3 b (511 : Fin 512) n)) k = ix3 b (511 : Fin 512) k :=
    funext fun a => Fin.ext (by match a with | ⟨0, _⟩ => rfl | ⟨1, _⟩ => rfl | ⟨2, _⟩ => rfl)
  have e2 : ridx_main_v3 (idx_main_v4 (ix3 b (511 : Fin 512) n)) k = ix2 k (⟨n.val, by omega⟩ : Fin 4096) :=
    funext fun a => Fin.ext (by match a with | ⟨0, _⟩ => rfl | ⟨1, _⟩ => rfl)
  rw [e1, e2, v1_last, v2_band0]

theorem gate1 (x0 : S32x512x512.Idx → EReal) (x1 : S1024.Idx → EReal) (x3 x4 x5 x6 : S1536x1024.Idx → EReal)
    (b : Fin 32) (n : Fin 1024) :
    val_main_v5 (F := Ideal) x0 x1 x3 x4 x5 x6 (ix3 b (511 : Fin 512) n)
      = Cert.Spec.gate (Cert.Spec.zrow x0 x1 b) x4 n := by
  rw [val_main_v5_apply, val_main_v3_apply]
  unfold Cert.Spec.gate
  refine Finset.sum_congr rfl fun k _ => ?_
  have e1 : lidx_main_v3 (idx_main_v5 (ix3 b (511 : Fin 512) n)) k = ix3 b (511 : Fin 512) k :=
    funext fun a => Fin.ext (by match a with | ⟨0, _⟩ => rfl | ⟨1, _⟩ => rfl | ⟨2, _⟩ => rfl)
  have e2 : ridx_main_v3 (idx_main_v5 (ix3 b (511 : Fin 512) n)) k = ix2 k (⟨1024 + n.val, by omega⟩ : Fin 4096) :=
    funext fun a => Fin.ext (by match a with | ⟨0, _⟩ => rfl | ⟨1, _⟩ => rfl)
  rw [e1, e2, v1_last, v2_band1]

theorem gate2 (x0 : S32x512x512.Idx → EReal) (x1 : S1024.Idx → EReal) (x3 x4 x5 x6 : S1536x1024.Idx → EReal)
    (b : Fin 32) (n : Fin 1024) :
    val_main_v6 (F := Ideal) x0 x1 x3 x4 x5 x6 (ix3 b (511 : Fin 512) n)
      = Cert.Spec.gate (Cert.Spec.zrow x0 x1 b) x5 n := by
  rw [val_main_v6_apply, val_main_v3_apply]
  unfold Cert.Spec.gate
  refine Finset.sum_congr rfl fun k _ => ?_
  have e1 : lidx_main_v3 (idx_main_v6 (ix3 b (511 : Fin 512) n)) k = ix3 b (511 : Fin 512) k :=
    funext fun a => Fin.ext (by match a with | ⟨0, _⟩ => rfl | ⟨1, _⟩ => rfl | ⟨2, _⟩ => rfl)
  have e2 : ridx_main_v3 (idx_main_v6 (ix3 b (511 : Fin 512) n)) k = ix2 k (⟨2048 + n.val, by omega⟩ : Fin 4096) :=
    funext fun a => Fin.ext (by match a with | ⟨0, _⟩ => rfl | ⟨1, _⟩ => rfl)
  rw [e1, e2, v1_last, v2_band2]

theorem gate3 (x0 : S32x512x512.Idx → EReal) (x1 : S1024.Idx → EReal) (x3 x4 x5 x6 : S1536x1024.Idx → EReal)
    (b : Fin 32) (n : Fin 1024) :
    val_main_v7 (F := Ideal) x0 x1 x3 x4 x5 x6 (ix3 b (511 : Fin 512) n)
      = Cert.Spec.gate (Cert.Spec.zrow x0 x1 b) x6 n := by
  rw [val_main_v7_apply, val_main_v3_apply]
  unfold Cert.Spec.gate
  refine Finset.sum_congr rfl fun k _ => ?_
  have e1 : lidx_main_v3 (idx_main_v7 (ix3 b (511 : Fin 512) n)) k = ix3 b (511 : Fin 512) k :=
    funext fun a => Fin.ext (by match a with | ⟨0, _⟩ => rfl | ⟨1, _⟩ => rfl | ⟨2, _⟩ => rfl)
  have e2 : ridx_main_v3 (idx_main_v7 (ix3 b (511 : Fin 512) n)) k = ix2 k (⟨3072 + n.val, by omega⟩ : Fin 4096) :=
    funext fun a => Fin.ext (by match a with | ⟨0, _⟩ => rfl | ⟨1, _⟩ => rfl)
  rw [e1, e2, v1_last, v2_band3]

/-- The literal one the program divides and adds is the extended real one, so the printed
    `1 / (1 + exp (-x))` is the logistic function of the gate. -/
theorem sig_f (x0 : S32x512x512.Idx → EReal) (x1 : S1024.Idx → EReal) (x3 x4 x5 x6 : S1536x1024.Idx → EReal)
    (b : Fin 32) (n : Fin 1024) :
    val_main_v13 (F := Ideal) x0 x1 x3 x4 x5 x6 (ix3 b (511 : Fin 512) n)
      = Ideal.logistic (Cert.Spec.gate (Cert.Spec.zrow x0 x1 b) x3 n) := by
  rw [val_main_v13_apply, val_main_v12_apply, val_main_cst_0_apply, val_main_v11_apply, val_main_v10_apply,
    val_main_cst_apply, val_main_v9_apply, val_main_v8_apply, gate0]
  simp only [Ideal.ofBits_def, Ideal.ofBits_one_f32]
  rfl

theorem sig_i (x0 : S32x512x512.Idx → EReal) (x1 : S1024.Idx → EReal) (x3 x4 x5 x6 : S1536x1024.Idx → EReal)
    (b : Fin 32) (n : Fin 1024) :
    val_main_v19 (F := Ideal) x0 x1 x3 x4 x5 x6 (ix3 b (511 : Fin 512) n)
      = Ideal.logistic (Cert.Spec.gate (Cert.Spec.zrow x0 x1 b) x4 n) := by
  rw [val_main_v19_apply, val_main_v18_apply, val_main_cst_2_apply, val_main_v17_apply, val_main_v16_apply,
    val_main_cst_1_apply, val_main_v15_apply, val_main_v14_apply, gate1]
  simp only [Ideal.ofBits_def, Ideal.ofBits_one_f32]
  rfl

theorem sig_o (x0 : S32x512x512.Idx → EReal) (x1 : S1024.Idx → EReal) (x3 x4 x5 x6 : S1536x1024.Idx → EReal)
    (b : Fin 32) (n : Fin 1024) :
    val_main_v26 (F := Ideal) x0 x1 x3 x4 x5 x6 (ix3 b (511 : Fin 512) n)
      = Ideal.logistic (Cert.Spec.gate (Cert.Spec.zrow x0 x1 b) x6 n) := by
  rw [val_main_v26_apply, val_main_v25_apply, val_main_cst_4_apply, val_main_v24_apply, val_main_v23_apply,
    val_main_cst_3_apply, val_main_v22_apply, val_main_v21_apply, gate3]
  simp only [Ideal.ofBits_def, Ideal.ofBits_one_f32]
  rfl

/-- The initial cell state repeated over the batch and the time steps reads the state's own coordinate. -/
theorem c0_apply (x2 : S1024.Idx → EReal) (b : Fin 32) (t : Fin 512) (n : Fin 1024) :
    val_main_v28 (F := Ideal) x2 (ix3 b t n) = x2 (ix1 n) := by
  rw [val_main_v28_apply, val_main_v27_apply]
  exact congrArg x2 (funext fun a => Fin.ext (by match a with | ⟨0, _⟩ => rfl))

/-- The hidden state the program keeps, at batch row `b` and coordinate `n`, is the specification's. -/
theorem hid_eq (x0 : S32x512x512.Idx → EReal) (x1 x2 : S1024.Idx → EReal) (x3 x4 x5 x6 : S1536x1024.Idx → EReal)
    (b : Fin 32) (n : Fin 1024) :
    val_main_v35 (F := Ideal) x0 x1 x2 x3 x4 x5 x6 (ix2 b n) = Cert.Spec.hid x0 x1 x2 x3 x4 x5 x6 b n := by
  have hb : b.val < 32 := b.isLt
  have hn : n.val < 1024 := n.isLt
  have e35 : idx_main_v35 (ix2 b n) = ix3 b (0 : Fin 1) n := funext fun a => Fin.ext (by
    match a with
    | ⟨0, _⟩ => show (b.val * 1024 + n.val) / 1024 = b.val; omega
    | ⟨1, _⟩ => rfl
    | ⟨2, _⟩ => show (b.val * 1024 + n.val) % 1024 = n.val; omega)
  have e34 : idx_main_v34 (ix3 b (0 : Fin 1) n) = ix3 b (511 : Fin 512) n := funext fun a => Fin.ext (by
    match a with
    | ⟨0, _⟩ => rfl
    | ⟨1, _⟩ => rfl
    | ⟨2, _⟩ => rfl)
  rw [val_main_v35_apply, e35, val_main_v34_apply, e34, val_main_v33_apply, val_main_v32_apply, val_main_v31_apply,
    val_main_v30_apply, val_main_v29_apply, val_main_v20_apply, sig_f, sig_i, sig_o, gate2, c0_apply]
  rfl

end Cert.RefSpec

end
-- ==== Proof.RefSpecTail.lean ====
/-
  From the hidden state to the result of the reference program, read at an index.

  The final layer is one product over the 1024 hidden coordinates against the transposed weight matrix, plus
  the bias repeated down the rows, rectified against a zero. The logarithm of the soft maximum then takes each
  row's maximum (a fold of the maximum from the negative infinity of the 32-bit format over the row's 1000
  entries, taken once more against that infinity), subtracts it, and subtracts the logarithm of the row's sum
  of exponentials, a sum that starts from a zero which adds nothing.
-/
import proofs.«160136_j5179730559367_2_alg».proof.Proof.RefSpecGates

noncomputable section

namespace Cert.RefSpec

open Cert.ReferenceIdeal Cert.ReferenceIdeal.Gen Cert.ReferenceIdeal.ReadP Idealize.ShloMosaic
  Idealize.ShloMosaic.ValueIdx

/-- The rectified logits at row `b` and class `k` are the specification's from the specification's hidden state. -/
theorem logit_eq (x0 : S32x512x512.Idx → EReal) (x1 x2 : S1024.Idx → EReal) (x3 x4 x5 x6 : S1536x1024.Idx → EReal)
    (x7 : S1000x1024.Idx → EReal) (x8 : S1000.Idx → EReal) (b : Fin 32) (k : Fin 1000) :
    val_main_v41 (F := Ideal) x0 x1 x2 x3 x4 x5 x6 x7 x8 (ix2 b k)
      = Cert.Spec.logit (Cert.Spec.hid x0 x1 x2 x3 x4 x5 x6) x7 x8 b k := by
  rw [val_main_v41_apply, val_main_v40_apply, val_main_v37_apply, val_main_v39_apply, val_main_v38_apply,
    val_main_call0_v0_apply, val_main_call0_cst_apply]
  unfold Cert.Spec.logit
  have hs : (∑ n : Fin 1024, val_main_v35 (F := Ideal) x0 x1 x2 x3 x4 x5 x6 (lidx_main_v37 (ix2 b k) n)
        * val_main_v36 (F := Ideal) x7 (ridx_main_v37 (ix2 b k) n))
      = ∑ n : Fin 1024, Cert.Spec.hid x0 x1 x2 x3 x4 x5 x6 b n * x7 (ix2 k n) :=
    Finset.sum_congr rfl fun n _ => by
      have e1 : lidx_main_v37 (ix2 b k) n = ix2 b n :=
        funext fun a => Fin.ext (by match a with | ⟨0, _⟩ => rfl | ⟨1, _⟩ => rfl)
      rw [e1, hid_eq, val_main_v36_apply]
      exact congrArg (_ * ·) (congrArg x7 (funext fun a => Fin.ext (by match a with | ⟨0, _⟩ => rfl | ⟨1, _⟩ => rfl)))
  have hb : x8 (idx_main_v38 (idx_main_v39 (ix2 b k))) = x8 (ix1 k) :=
    congrArg x8 (funext fun a => Fin.ext (by match a with | ⟨0, _⟩ => rfl))
  rw [hs, hb]
  rfl

/-- The shape fact that names a row's entries: the index `b` with a column inserted. -/
theorem reduces_rows : S32x1000.Reduces [1] S32 := by decide

/-- The reduction with the maximum over a row is the fold of the maximum, from the negative infinity of the
    32-bit format, over the row's 1000 rectified logits. -/
theorem rowfold_eq (x0 : S32x512x512.Idx → EReal) (x1 x2 : S1024.Idx → EReal) (x3 x4 x5 x6 : S1536x1024.Idx → EReal)
    (x7 : S1000x1024.Idx → EReal) (x8 : S1000.Idx → EReal) (b : Fin 32) :
    val_main_call1_v0 (F := Ideal) x0 x1 x2 x3 x4 x5 x6 x7 x8 (ix1 b)
      = (Finset.univ : Finset (Fin 1000)).fold max (Ideal.ofBits .f32 0xFF800000#32)
          (Cert.Spec.logit (Cert.Spec.hid x0 x1 x2 x3 x4 x5 x6) x7 x8 b) := by
  unfold val_main_call1_v0
  refine (Host.reduce_eq_fold_single FloatOps.maximumf _ _ _ reduces_rows _ (ix1 b)).trans ?_
  have hf : (val_main_v41 (F := Ideal) x0 x1 x2 x3 x4 x5 x6 x7 x8) ∘ reduces_rows.lift (ix1 b)
      = Cert.Spec.logit (Cert.Spec.hid x0 x1 x2 x3 x4 x5 x6) x7 x8 b :=
    funext fun k => by
      show val_main_v41 (F := Ideal) x0 x1 x2 x3 x4 x5 x6 x7 x8 (reduces_rows.lift (ix1 b) k) = _
      have e : reduces_rows.lift (ix1 b) k = ix2 b k :=
        funext fun a => Fin.ext (by match a with | ⟨0, _⟩ => rfl | ⟨1, _⟩ => rfl)
      rw [e]
      exact logit_eq x0 x1 x2 x3 x4 x5 x6 x7 x8 b k
  rw [hf]
  rfl

/-- The row maximum the program subtracts is the specification's. -/
theorem rowmax_eq (x0 : S32x512x512.Idx → EReal) (x1 x2 : S1024.Idx → EReal) (x3 x4 x5 x6 : S1536x1024.Idx → EReal)
    (x7 : S1000x1024.Idx → EReal) (x8 : S1000.Idx → EReal) (b : Fin 32) :
    val_main_call1_v2 (F := Ideal) x0 x1 x2 x3 x4 x5 x6 x7 x8 (ix1 b)
      = Cert.Spec.rowmax (Cert.Spec.logit (Cert.Spec.hid x0 x1 x2 x3 x4 x5 x6) x7 x8 b) := by
  rw [val_main_call1_v2_apply, val_main_call1_v1_apply, val_main_call1_cst_0_apply, rowfold_eq]
  rfl

/-- A rectified logit less its row's maximum. -/
theorem shifted_eq (x0 : S32x512x512.Idx → EReal) (x1 x2 : S1024.Idx → EReal) (x3 x4 x5 x6 : S1536x1024.Idx → EReal)
    (x7 : S1000x1024.Idx → EReal) (x8 : S1000.Idx → EReal) (b : Fin 32) (k : Fin 1000) :
    val_main_call1_v5 (F := Ideal) x0 x1 x2 x3 x4 x5 x6 x7 x8 (ix2 b k)
      = Cert.Spec.logit (Cert.Spec.hid x0 x1 x2 x3 x4 x5 x6) x7 x8 b k - Cert.Spec.rowmax (Cert.Spec.logit (Cert.Spec.hid x0 x1 x2 x3 x4 x5 x6) x7 x8 b) := by
  have e : idx_main_call1_v3 (idx_main_call1_v4 (ix2 b k)) = ix1 b :=
    funext fun a => Fin.ext (by match a with | ⟨0, _⟩ => rfl)
  rw [val_main_call1_v5_apply, val_main_call1_v4_apply, val_main_call1_v3_apply, e, rowmax_eq, logit_eq]
  rfl

/-- The row's sum of exponentials: the zero the program starts the sum from adds nothing. -/
theorem rowsum_eq (x0 : S32x512x512.Idx → EReal) (x1 x2 : S1024.Idx → EReal) (x3 x4 x5 x6 : S1536x1024.Idx → EReal)
    (x7 : S1000x1024.Idx → EReal) (x8 : S1000.Idx → EReal) (b : Fin 32) :
    val_main_call1_v7 (F := Ideal) x0 x1 x2 x3 x4 x5 x6 x7 x8 (ix1 b)
      = ∑ k' : Fin 1000, Ideal.exp (Cert.Spec.logit (Cert.Spec.hid x0 x1 x2 x3 x4 x5 x6) x7 x8 b k' - Cert.Spec.rowmax (Cert.Spec.logit (Cert.Spec.hid x0 x1 x2 x3 x4 x5 x6) x7 x8 b)) := by
  rw [val_main_call1_v7_apply, val_main_call1_cst_1_apply]
  have h0 : (FloatOps.ofBits (F := Ideal) .f32 0x00000000#32) = 0 := Ideal.ofBits_zero_f32
  rw [h0, zero_add]
  refine Finset.sum_congr rfl fun k' _ => ?_
  have e : idx_main_call1_v7 (ix1 b) k' = ix2 b k' :=
    funext fun a => Fin.ext (by match a with | ⟨0, _⟩ => rfl | ⟨1, _⟩ => rfl)
  rw [e, val_main_call1_v6_apply, shifted_eq]
  rfl

/-- The result of the reference program at row `b` and class `k`. -/
theorem out_eq (x0 : S32x512x512.Idx → EReal) (x1 x2 : S1024.Idx → EReal) (x3 x4 x5 x6 : S1536x1024.Idx → EReal)
    (x7 : S1000x1024.Idx → EReal) (x8 : S1000.Idx → EReal) (b : Fin 32) (k : Fin 1000) :
    val_main_v42 (F := Ideal) x0 x1 x2 x3 x4 x5 x6 x7 x8 (ix2 b k)
      = Cert.Spec.logSoftmax (Cert.Spec.logit (Cert.Spec.hid x0 x1 x2 x3 x4 x5 x6) x7 x8) b k := by
  have e : idx_main_call1_v8 (idx_main_call1_v10 (ix2 b k)) = ix1 b :=
    funext fun a => Fin.ext (by match a with | ⟨0, _⟩ => rfl)
  rw [val_main_v42_apply, val_main_call1_v10_apply, val_main_call1_v9_apply, val_main_call1_v8_apply, e, rowsum_eq,
    shifted_eq]
  rfl

end Cert.RefSpec

end
-- ==== Proof.RefSpec.lean ====
/-
  The reference program's result is the specification.

  Index by index the result array of the reference program is the logarithm of the soft maximum of the
  rectified logits of the hidden state the cell leaves at the last time step, which is the function the
  specification names.
-/
import proofs.«160136_j5179730559367_2_alg».proof.Proof.RefSpecTail

noncomputable section

namespace Cert.RefSpec

open Cert.ReferenceIdeal Cert.ReferenceIdeal.Gen Cert.ReferenceIdeal.ReadP Idealize.ShloMosaic
  Idealize.ShloMosaic.ValueIdx Idealize.ShloMosaic.TcCoe Idealize.SL.Sem

/-- The last stage of the reference program, as a function of the nine argument arrays, is the specification. -/
theorem val_eq (x0 : (⟨S32x512x512, .f32⟩ : BufTy).Contents (Elt Ideal))
    (x1 x2 : (⟨S1024, .f32⟩ : BufTy).Contents (Elt Ideal))
    (x3 x4 x5 x6 : (⟨S1536x1024, .f32⟩ : BufTy).Contents (Elt Ideal))
    (x7 : (⟨S1000x1024, .f32⟩ : BufTy).Contents (Elt Ideal))
    (x8 : (⟨S1000, .f32⟩ : BufTy).Contents (Elt Ideal)) :
    val_main_v42 (F := Ideal) x0 x1 x2 x3 x4 x5 x6 x7 x8 = Cert.Spec.G x0 x1 x2 x3 x4 x5 x6 x7 x8 := by
  funext i
  obtain ⟨b, k, rfl⟩ : ∃ (b : Fin 32) (k : Fin 1000), i = ix2 b k := ⟨i 0, i 1, eq_ix2 i⟩
  exact out_eq x0 x1 x2 x3 x4 x5 x6 x7 x8 b k

/-- The term every execution of the reference program leaves in its result buffer is the specification of the
    nine argument buffers' contents. -/
theorem res_eq (m : (ℓ : Loc nD τ sig) → Buf (Elt Ideal) ℓ) (c : Dev nD) :
    Cert.ReferenceIdeal.ValueP.res_main_v42 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v42_eq m c).trans (val_eq _ _ _ _ _ _ _ _ _)

end Cert.RefSpec

end
-- ==== Proof.KI.Slabs.lean ====
/-
  Four column slabs of a 32 by 2048 array.

  Slab `q` holds the columns `512 * q` to `512 * q + 511` of every row: the rectangle of unit stride at
  column offset `512 * q` and extents 32 by 512. Entry `(b, e)` of slab `q` sits at `(b, 512 * q + e)` of the
  array. The slabs are disjoint and together hold every column. Of a list of stores read last store first, an
  entry of slab `q` reads the payload of the last store through slab `q`, stores through the other slabs
  leaving it as it was; and it reads what a store through the whole array left when no later store went
  through its own slab.
-/
import proofs.«160136_j5179730559367_2_alg».proof.Proof.Gen.KernelIdeal.Skeleton
import Idealize.ShloMosaic.Lib.Pipeline.FrameBody
import Idealize.ShloMosaic.Lib.Pipeline.Value
import Idealize.ShloMosaic.Lib.ValueIdx

noncomputable section

namespace Cert.KernelIdeal.Slabs

open Cert.KernelIdeal Cert.KernelIdeal.Facts₀ Idealize.ShloMosaic Idealize.ShloMosaic.ValueIdx

variable {Val : EltTy → Type} [∀ e, Nonempty (Val e)] {e : EltTy}

/-- Columns 0 to 511. -/
abbrev slab0 : Rect S32x2048 := Rect.unit (s := S32x2048) ![0, 0] S32x512.size inb_S32x2048_S32x512_0_0
/-- Columns 512 to 1023. -/
abbrev slab1 : Rect S32x2048 := Rect.unit (s := S32x2048) ![0, 512] S32x512.size inb_S32x2048_S32x512_0_512
/-- Columns 1024 to 1535. -/
abbrev slab2 : Rect S32x2048 := Rect.unit (s := S32x2048) ![0, 1024] S32x512.size inb_S32x2048_S32x512_0_1024
/-- Columns 1536 to 2047. -/
abbrev slab3 : Rect S32x2048 := Rect.unit (s := S32x2048) ![0, 1536] S32x512.size inb_S32x2048_S32x512_0_1536
/-- Every column. -/
abbrev whole : Rect S32x2048 := Rect.unit (s := S32x2048) ![0, 0] S32x2048.size inb_S32x2048_S32x2048_0_0

/-- The zero offsets, however spelt. -/
theorem hz : (![0, 0] : Fin 2 → Nat) = fun _ => 0 := funext fun a => by
  match a with
  | ⟨0, _⟩ => rfl
  | ⟨1, _⟩ => rfl

/-! ## Where a slab's entry sits in the array -/

theorem idx_slab0 (b : Fin 32) (c : Fin 512) :
    slab0.toLoadRect.idx (ix2 b c) = ix2 b (⟨c.val, by omega⟩ : Fin 2048) :=
  funext fun a => Fin.ext (by
    match a with
    | ⟨0, _⟩ => show 0 + 1 * b.val = b.val; omega
    | ⟨1, _⟩ => show 0 + 1 * c.val = c.val; omega)

theorem idx_slab1 (b : Fin 32) (c : Fin 512) :
    slab1.toLoadRect.idx (ix2 b c) = ix2 b (⟨512 + c.val, by omega⟩ : Fin 2048) :=
  funext fun a => Fin.ext (by
    match a with
    | ⟨0, _⟩ => show 0 + 1 * b.val = b.val; omega
    | ⟨1, _⟩ => show 512 + 1 * c.val = 512 + c.val; omega)

theorem idx_slab2 (b : Fin 32) (c : Fin 512) :
    slab2.toLoadRect.idx (ix2 b c) = ix2 b (⟨1024 + c.val, by omega⟩ : Fin 2048) :=
  funext fun a => Fin.ext (by
    match a with
    | ⟨0, _⟩ => show 0 + 1 * b.val = b.val; omega
    | ⟨1, _⟩ => show 1024 + 1 * c.val = 1024 + c.val; omega)

theorem idx_slab3 (b : Fin 32) (c : Fin 512) :
    slab3.toLoadRect.idx (ix2 b c) = ix2 b (⟨1536 + c.val, by omega⟩ : Fin 2048) :=
  funext fun a => Fin.ext (by
    match a with
    | ⟨0, _⟩ => show 0 + 1 * b.val = b.val; omega
    | ⟨1, _⟩ => show 1536 + 1 * c.val = 1536 + c.val; omega)

/-! ## Reading through a slab -/

theorem ld_slab0 (X : S32x2048.Idx → Val e) (b : Fin 32) (c : Fin 512) :
    View.ld X slab0 (ix2 b c) = X (ix2 b (⟨c.val, by omega⟩ : Fin 2048)) := congrArg X (idx_slab0 b c)

theorem ld_slab1 (X : S32x2048.Idx → Val e) (b : Fin 32) (c : Fin 512) :
    View.ld X slab1 (ix2 b c) = X (ix2 b (⟨512 + c.val, by omega⟩ : Fin 2048)) := congrArg X (idx_slab1 b c)

theorem ld_slab2 (X : S32x2048.Idx → Val e) (b : Fin 32) (c : Fin 512) :
    View.ld X slab2 (ix2 b c) = X (ix2 b (⟨1024 + c.val, by omega⟩ : Fin 2048)) := congrArg X (idx_slab2 b c)

theorem ld_slab3 (X : S32x2048.Idx → Val e) (b : Fin 32) (c : Fin 512) :
    View.ld X slab3 (ix2 b c) = X (ix2 b (⟨1536 + c.val, by omega⟩ : Fin 2048)) := congrArg X (idx_slab3 b c)

theorem ld_whole (X : S32x2048.Idx → Val e) : View.ld X whole = X :=
  View.ld_unit_zero hz inb_S32x2048_S32x2048_0_0 X

/-! ## The slabs are disjoint: an index whose column lies before a slab's first column or after its last is not in it -/

theorem not_mem_slab0_lt (y : S32x2048.Idx) (hy : (y 1).val < 0) : y ∉ slab0.set := by
  intro h
  have h1 : (0 : Nat) ≤ (y 1).val := ((Rect.mem_set_unit.mp h) (1 : Fin 2)).1
  omega

theorem not_mem_slab0_ge (y : S32x2048.Idx) (hy : 512 ≤ (y 1).val) : y ∉ slab0.set := by
  intro h
  have h1 : (y 1).val < 0 + 512 := ((Rect.mem_set_unit.mp h) (1 : Fin 2)).2
  omega

theorem not_mem_slab1_lt (y : S32x2048.Idx) (hy : (y 1).val < 512) : y ∉ slab1.set := by
  intro h
  have h1 : (512 : Nat) ≤ (y 1).val := ((Rect.mem_set_unit.mp h) (1 : Fin 2)).1
  omega

theorem not_mem_slab1_ge (y : S32x2048.Idx) (hy : 1024 ≤ (y 1).val) : y ∉ slab1.set := by
  intro h
  have h1 : (y 1).val < 512 + 512 := ((Rect.mem_set_unit.mp h) (1 : Fin 2)).2
  omega

theorem not_mem_slab2_lt (y : S32x2048.Idx) (hy : (y 1).val < 1024) : y ∉ slab2.set := by
  intro h
  have h1 : (1024 : Nat) ≤ (y 1).val := ((Rect.mem_set_unit.mp h) (1 : Fin 2)).1
  omega

theorem not_mem_slab2_ge (y : S32x2048.Idx) (hy : 1536 ≤ (y 1).val) : y ∉ slab2.set := by
  intro h
  have h1 : (y 1).val < 1024 + 512 := ((Rect.mem_set_unit.mp h) (1 : Fin 2)).2
  omega

theorem not_mem_slab3_lt (y : S32x2048.Idx) (hy : (y 1).val < 1536) : y ∉ slab3.set := by
  intro h
  have h1 : (1536 : Nat) ≤ (y 1).val := ((Rect.mem_set_unit.mp h) (1 : Fin 2)).1
  omega

theorem not_mem_slab3_ge (y : S32x2048.Idx) (hy : 2048 ≤ (y 1).val) : y ∉ slab3.set := by
  intro h
  have h1 : (y 1).val < 1536 + 512 := ((Rect.mem_set_unit.mp h) (1 : Fin 2)).2
  omega

/-! ## The four slabs stored last: each entry reads its own slab's payload -/

theorem canon4_0 (p0 p1 p2 p3 : S32x512.Idx → Val e) (Ltail : List (View.Piece Val S32x2048 e)) (b : Fin 32) (c : Fin 512) :
    View.canon ((⟨slab3, p3⟩ : View.Piece Val S32x2048 e) :: ⟨slab2, p2⟩ :: ⟨slab1, p1⟩ :: ⟨slab0, p0⟩ :: Ltail)
        (ix2 b (⟨c.val, by omega⟩ : Fin 2048)) = p0 (ix2 b c) := by
  refine (View.canon_cons_of_not_mem (⟨slab3, p3⟩ : View.Piece Val S32x2048 e) ((⟨slab2, p2⟩ : View.Piece Val S32x2048 e) :: ⟨slab1, p1⟩ :: ⟨slab0, p0⟩ :: Ltail)
    (not_mem_slab3_lt (ix2 b (⟨c.val, by omega⟩ : Fin 2048)) (by show c.val < 1536; omega))).trans ?_
  refine (View.canon_cons_of_not_mem (⟨slab2, p2⟩ : View.Piece Val S32x2048 e) ((⟨slab1, p1⟩ : View.Piece Val S32x2048 e) :: ⟨slab0, p0⟩ :: Ltail)
    (not_mem_slab2_lt (ix2 b (⟨c.val, by omega⟩ : Fin 2048)) (by show c.val < 1024; omega))).trans ?_
  refine (View.canon_cons_of_not_mem (⟨slab1, p1⟩ : View.Piece Val S32x2048 e) ((⟨slab0, p0⟩ : View.Piece Val S32x2048 e) :: Ltail)
    (not_mem_slab1_lt (ix2 b (⟨c.val, by omega⟩ : Fin 2048)) (by show c.val < 512; omega))).trans ?_
  rw [← idx_slab0 b c]
  exact View.canon_cons_emb slab0 p0 Ltail (ix2 b c)

theorem canon4_1 (p0 p1 p2 p3 : S32x512.Idx → Val e) (Ltail : List (View.Piece Val S32x2048 e)) (b : Fin 32) (c : Fin 512) :
    View.canon ((⟨slab3, p3⟩ : View.Piece Val S32x2048 e) :: ⟨slab2, p2⟩ :: ⟨slab1, p1⟩ :: ⟨slab0, p0⟩ :: Ltail)
        (ix2 b (⟨512 + c.val, by omega⟩ : Fin 2048)) = p1 (ix2 b c) := by
  refine (View.canon_cons_of_not_mem (⟨slab3, p3⟩ : View.Piece Val S32x2048 e) ((⟨slab2, p2⟩ : View.Piece Val S32x2048 e) :: ⟨slab1, p1⟩ :: ⟨slab0, p0⟩ :: Ltail)
    (not_mem_slab3_lt (ix2 b (⟨512 + c.val, by omega⟩ : Fin 2048)) (by show 512 + c.val < 1536; omega))).trans ?_
  refine (View.canon_cons_of_not_mem (⟨slab2, p2⟩ : View.Piece Val S32x2048 e) ((⟨slab1, p1⟩ : View.Piece Val S32x2048 e) :: ⟨slab0, p0⟩ :: Ltail)
    (not_mem_slab2_lt (ix2 b (⟨512 + c.val, by omega⟩ : Fin 2048)) (by show 512 + c.val < 1024; omega))).trans ?_
  rw [← idx_slab1 b c]
  exact View.canon_cons_emb slab1 p1 ((⟨slab0, p0⟩ : View.Piece Val S32x2048 e) :: Ltail) (ix2 b c)

theorem canon4_2 (p0 p1 p2 p3 : S32x512.Idx → Val e) (Ltail : List (View.Piece Val S32x2048 e)) (b : Fin 32) (c : Fin 512) :
    View.canon ((⟨slab3, p3⟩ : View.Piece Val S32x2048 e) :: ⟨slab2, p2⟩ :: ⟨slab1, p1⟩ :: ⟨slab0, p0⟩ :: Ltail)
        (ix2 b (⟨1024 + c.val, by omega⟩ : Fin 2048)) = p2 (ix2 b c) := by
  refine (View.canon_cons_of_not_mem (⟨slab3, p3⟩ : View.Piece Val S32x2048 e) ((⟨slab2, p2⟩ : View.Piece Val S32x2048 e) :: ⟨slab1, p1⟩ :: ⟨slab0, p0⟩ :: Ltail)
    (not_mem_slab3_lt (ix2 b (⟨1024 + c.val, by omega⟩ : Fin 2048)) (by show 1024 + c.val < 1536; omega))).trans ?_
  rw [← idx_slab2 b c]
  exact View.canon_cons_emb slab2 p2 ((⟨slab1, p1⟩ : View.Piece Val S32x2048 e) :: ⟨slab0, p0⟩ :: Ltail) (ix2 b c)

theorem canon4_3 (p0 p1 p2 p3 : S32x512.Idx → Val e) (Ltail : List (View.Piece Val S32x2048 e)) (b : Fin 32) (c : Fin 512) :
    View.canon ((⟨slab3, p3⟩ : View.Piece Val S32x2048 e) :: ⟨slab2, p2⟩ :: ⟨slab1, p1⟩ :: ⟨slab0, p0⟩ :: Ltail)
        (ix2 b (⟨1536 + c.val, by omega⟩ : Fin 2048)) = p3 (ix2 b c) := by
  rw [← idx_slab3 b c]
  exact View.canon_cons_emb slab3 p3 ((⟨slab2, p2⟩ : View.Piece Val S32x2048 e) :: ⟨slab1, p1⟩ :: ⟨slab0, p0⟩ :: Ltail) (ix2 b c)

/-! ## Under the slabs stored so far: an entry of a slab not yet stored reads the store through the whole array -/

theorem canon_under0 (z : S32x2048.Idx → Val e) (b : Fin 32) (c : Fin 512) :
    View.canon [(⟨whole, z⟩ : View.Piece Val S32x2048 e)] (ix2 b (⟨c.val, by omega⟩ : Fin 2048))
      = z (ix2 b (⟨c.val, by omega⟩ : Fin 2048)) := by
  exact congrFun (View.canon_unit_zero hz inb_S32x2048_S32x2048_0_0 z) _

theorem canon_under1 (p0 : S32x512.Idx → Val e) (z : S32x2048.Idx → Val e) (b : Fin 32) (c : Fin 512) :
    View.canon [(⟨slab0, p0⟩ : View.Piece Val S32x2048 e), ⟨whole, z⟩] (ix2 b (⟨512 + c.val, by omega⟩ : Fin 2048))
      = z (ix2 b (⟨512 + c.val, by omega⟩ : Fin 2048)) := by
  refine (View.canon_cons_of_not_mem (⟨slab0, p0⟩ : View.Piece Val S32x2048 e) [(⟨whole, z⟩ : View.Piece Val S32x2048 e)]
    (not_mem_slab0_ge (ix2 b (⟨512 + c.val, by omega⟩ : Fin 2048)) (by show 512 ≤ 512 + c.val; omega))).trans ?_
  exact congrFun (View.canon_unit_zero hz inb_S32x2048_S32x2048_0_0 z) _

theorem canon_under2 (p0 p1 : S32x512.Idx → Val e) (z : S32x2048.Idx → Val e) (b : Fin 32) (c : Fin 512) :
    View.canon [(⟨slab1, p1⟩ : View.Piece Val S32x2048 e), ⟨slab0, p0⟩, ⟨whole, z⟩] (ix2 b (⟨1024 + c.val, by omega⟩ : Fin 2048))
      = z (ix2 b (⟨1024 + c.val, by omega⟩ : Fin 2048)) := by
  refine (View.canon_cons_of_not_mem (⟨slab1, p1⟩ : View.Piece Val S32x2048 e) [(⟨slab0, p0⟩ : View.Piece Val S32x2048 e), ⟨whole, z⟩]
    (not_mem_slab1_ge (ix2 b (⟨1024 + c.val, by omega⟩ : Fin 2048)) (by show 1024 ≤ 1024 + c.val; omega))).trans ?_
  refine (View.canon_cons_of_not_mem (⟨slab0, p0⟩ : View.Piece Val S32x2048 e) [(⟨whole, z⟩ : View.Piece Val S32x2048 e)]
    (not_mem_slab0_ge (ix2 b (⟨1024 + c.val, by omega⟩ : Fin 2048)) (by show 512 ≤ 1024 + c.val; omega))).trans ?_
  exact congrFun (View.canon_unit_zero hz inb_S32x2048_S32x2048_0_0 z) _

theorem canon_under3 (p0 p1 p2 : S32x512.Idx → Val e) (z : S32x2048.Idx → Val e) (b : Fin 32) (c : Fin 512) :
    View.canon [(⟨slab2, p2⟩ : View.Piece Val S32x2048 e), ⟨slab1, p1⟩, ⟨slab0, p0⟩, ⟨whole, z⟩] (ix2 b (⟨1536 + c.val, by omega⟩ : Fin 2048))
      = z (ix2 b (⟨1536 + c.val, by omega⟩ : Fin 2048)) := by
  refine (View.canon_cons_of_not_mem (⟨slab2, p2⟩ : View.Piece Val S32x2048 e) [(⟨slab1, p1⟩ : View.Piece Val S32x2048 e), ⟨slab0, p0⟩, ⟨whole, z⟩]
    (not_mem_slab2_ge (ix2 b (⟨1536 + c.val, by omega⟩ : Fin 2048)) (by show 1536 ≤ 1536 + c.val; omega))).trans ?_
  refine (View.canon_cons_of_not_mem (⟨slab1, p1⟩ : View.Piece Val S32x2048 e) [(⟨slab0, p0⟩ : View.Piece Val S32x2048 e), ⟨whole, z⟩]
    (not_mem_slab1_ge (ix2 b (⟨1536 + c.val, by omega⟩ : Fin 2048)) (by show 1024 ≤ 1536 + c.val; omega))).trans ?_
  refine (View.canon_cons_of_not_mem (⟨slab0, p0⟩ : View.Piece Val S32x2048 e) [(⟨whole, z⟩ : View.Piece Val S32x2048 e)]
    (not_mem_slab0_ge (ix2 b (⟨1536 + c.val, by omega⟩ : Fin 2048)) (by show 512 ≤ 1536 + c.val; omega))).trans ?_
  exact congrFun (View.canon_unit_zero hz inb_S32x2048_S32x2048_0_0 z) _

/-! ## Every column is in one slab -/

theorem col_cases (j : Fin 2048) :
    (∃ c : Fin 512, j = (⟨c.val, by omega⟩ : Fin 2048)) ∨ (∃ c : Fin 512, j = (⟨512 + c.val, by omega⟩ : Fin 2048))
      ∨ (∃ c : Fin 512, j = (⟨1024 + c.val, by omega⟩ : Fin 2048))
      ∨ (∃ c : Fin 512, j = (⟨1536 + c.val, by omega⟩ : Fin 2048)) := by
  have hj : j.val < 2048 := j.isLt
  by_cases h0 : j.val < 512
  · exact .inl ⟨⟨j.val, h0⟩, Fin.ext rfl⟩
  by_cases h1 : j.val < 1024
  · exact .inr (.inl ⟨⟨j.val - 512, by omega⟩, Fin.ext (by show j.val = 512 + (j.val - 512); omega)⟩)
  by_cases h2 : j.val < 1536
  · exact .inr (.inr (.inl ⟨⟨j.val - 1024, by omega⟩, Fin.ext (by show j.val = 1024 + (j.val - 1024); omega)⟩))
  · exact .inr (.inr (.inr ⟨⟨j.val - 1536, by omega⟩, Fin.ext (by show j.val = 1536 + (j.val - 1536); omega)⟩))

end Cert.KernelIdeal.Slabs

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.GateValue.lean ====
/-
  The values the gate kernel stores, read at one index on the extended reals.

  The accumulator is cleared to zero; each of the four gate stores adds, to the accumulator slice it
  read, the plain sum `∑ j, x[b, j] · w[j, e]` of a `[32, 512] · [512, 512]` product into a zero
  accumulator; the cell store reads the four column blocks of the `[32, 2048]` accumulator at offsets
  0, 512, 1024 and 1536 through the logistic, logistic, hyperbolic tangent and logistic functions and
  combines them with the `[1, 512]` row repeated down the rows as `o · tanh (f · c + i · g)`.
-/
import proofs.«160136_j5179730559367_2_alg».proof.Proof.Gen.KernelIdeal.Skeleton
import proofs.«160136_j5179730559367_2_alg».proof.Proof.LibDot
import Idealize.ShloMosaic.Lib.Pipeline.Value
import Idealize.ShloMosaic.Lib.ValueIdx
import Idealize.ShloMosaic.PureOps.Ideal.Laws

noncomputable section

open scoped BigOperators

namespace Cert.GateValue

open Cert.KernelIdeal Cert.KernelIdeal.Gen Idealize.ShloMosaic Idealize.ShloMosaic.ValueIdx

/-- The cleared accumulator reads zero everywhere. -/
theorem pay3_apply (i : S32x2048.Idx) : k0_pay3 (F := Ideal) i = 0 := by
  unfold k0_pay3
  rw [shapeCast_self]
  exact Ideal.ofBits_zero_f32

/-- A cast to the same shape changes nothing. -/
theorem pay4_apply (v3 : Vec Ideal S32x512 .f32) (i : S32x512.Idx) : k0_pay4 (F := Ideal) v3 i = v3 i := by
  unfold k0_pay4
  rw [shapeCast_self]

/-- The `[32, 512] · [512, 512]` product into the zero accumulator, at `(b, e)`: the plain sum over the
    contracted axis. -/
theorem dot_apply (A : FVec Ideal S32x512 .f32) (B : FVec Ideal S512x512 .f32) (b : Fin 32) (e : Fin 512) :
    matmul (F := Ideal) dot_S32x512_S512x512_S32x512_1_0_0_1_n_n none A B (constant S32x512 .f32 0x00000000#32) (ix2 b e)
      = ∑ j : Fin 512, A (ix2 b j) * B (ix2 j e) :=
  Cert.LibDot.matmul_zero_apply (m := 32) (k := 512) (n := 512) dot_S32x512_S512x512_S32x512_1_0_0_1_n_n rfl rfl
    (fun i q => by simp [DotDims.lhsIdx, dot_S32x512_S512x512_S32x512_1_0_0_1_n_n]; rfl)
    (fun i q => by simp [DotDims.lhsIdx, dot_S32x512_S512x512_S32x512_1_0_0_1_n_n]; rfl)
    (fun i q => by simp [DotDims.rhsIdx, dot_S32x512_S512x512_S32x512_1_0_0_1_n_n]; rfl)
    (fun i q => by simp [DotDims.rhsIdx, dot_S32x512_S512x512_S32x512_1_0_0_1_n_n]; rfl)
    none A B b e

/-- The accumulator slice plus the product into the zero accumulator, through a cast to the same shape, at
    `(b, e)`: the form all four gate stores share. -/
theorem acc_dot_apply (A acc : FVec Ideal S32x512 .f32) (B : FVec Ideal S512x512 .f32) (b : Fin 32) (e : Fin 512) :
    shapeCast S32x512 (addf acc (matmul (F := Ideal) dot_S32x512_S512x512_S32x512_1_0_0_1_n_n none A B
        (constant S32x512 .f32 0x00000000#32))) shapeCasts_S32x512_S32x512 (ix2 b e)
      = acc (ix2 b e) + ∑ j : Fin 512, A (ix2 b j) * B (ix2 j e) := by
  rw [shapeCast_self]
  exact congrArg (acc (ix2 b e) + ·) (dot_apply A B b e)

/-- The first gate's store at `(b, e)`. -/
theorem pay5_apply (v3 v5 : Vec Ideal S32x512 .f32) (v6 : Vec Ideal S512x512 .f32) (b : Fin 32) (e : Fin 512) :
    k0_pay5 (F := Ideal) v3 v5 v6 (ix2 b e) = v5 (ix2 b e) + ∑ j : Fin 512, v3 (ix2 b j) * v6 (ix2 j e) :=
  (acc_dot_apply (k0_pay4 v3) v5 v6 b e).trans (by simp only [pay4_apply])

/-- The second gate's store at `(b, e)`. -/
theorem pay6_apply (v3 v12 : Vec Ideal S32x512 .f32) (v13 : Vec Ideal S512x512 .f32) (b : Fin 32) (e : Fin 512) :
    k0_pay6 (F := Ideal) v3 v12 v13 (ix2 b e) = v12 (ix2 b e) + ∑ j : Fin 512, v3 (ix2 b j) * v13 (ix2 j e) :=
  (acc_dot_apply (k0_pay4 v3) v12 v13 b e).trans (by simp only [pay4_apply])

/-- The third gate's store at `(b, e)`. -/
theorem pay7_apply (v3 v19 : Vec Ideal S32x512 .f32) (v20 : Vec Ideal S512x512 .f32) (b : Fin 32) (e : Fin 512) :
    k0_pay7 (F := Ideal) v3 v19 v20 (ix2 b e) = v19 (ix2 b e) + ∑ j : Fin 512, v3 (ix2 b j) * v20 (ix2 j e) :=
  (acc_dot_apply (k0_pay4 v3) v19 v20 b e).trans (by simp only [pay4_apply])

/-- The fourth gate's store at `(b, e)`. -/
theorem pay1_apply (v4 : FVec Ideal S32x512 .f32) (v26 : Vec Ideal S32x512 .f32) (v27 : Vec Ideal S512x512 .f32)
    (b : Fin 32) (e : Fin 512) :
    k0_pay1 (F := Ideal) v4 v26 v27 (ix2 b e) = v26 (ix2 b e) + ∑ j : Fin 512, v4 (ix2 b j) * v27 (ix2 j e) :=
  acc_dot_apply v4 v26 v27 b e

/-! ## The cell -/

/-- A block of 512 columns of the `[32, 2048]` accumulator from column `o`, at `(b, e)`. -/
theorem slice_cols (o : ℕ) (ho : o + 512 ≤ 2048) (acc : FVec Ideal S32x2048 .f32)
    (h : S32x2048.Slices ![0, o] S32x512) (b : Fin 32) (e : Fin 512) :
    extractStridedSlice S32x512 ![0, o] acc h (ix2 b e) = acc (ix2 b (⟨o + e.val, by omega⟩ : Fin 2048)) := by
  refine extractStridedSlice_apply _ _ _ _ _ fun a => ?_
  match a with
  | ⟨0, _⟩ => show b.val = 0 + b.val; omega
  | ⟨1, _⟩ => rfl

/-- The block from column 0. -/
theorem slice_cols_zero (acc : FVec Ideal S32x2048 .f32) (h : S32x2048.Slices ![0, 0] S32x512) (b : Fin 32) (e : Fin 512) :
    extractStridedSlice S32x512 ![0, 0] acc h (ix2 b e) = acc (ix2 b (⟨e.val, by omega⟩ : Fin 2048)) := by
  refine extractStridedSlice_apply _ _ _ _ _ fun a => ?_
  match a with
  | ⟨0, _⟩ => show b.val = 0 + b.val; omega
  | ⟨1, _⟩ => show e.val = 0 + e.val; omega

/-- The `[1, 512]` row repeated down the 32 rows, at `(b, e)`. -/
theorem row_bcast_apply (r : FVec Ideal S1x512 .f32) (h : S1x512.Broadcasts S32x512) (b : Fin 32) (e : Fin 512) :
    broadcastTo S32x512 r h (ix2 b e) = r (ix2 (0 : Fin 1) e) := by
  refine broadcastTo_apply _ _ _ _ fun a => ?_
  match a with
  | ⟨0, _⟩ => rfl
  | ⟨1, _⟩ => rfl

/-- The cell's store at `(b, e)`: the output gate times the hyperbolic tangent of the new cell state. -/
theorem pay2_apply (acc : Vec Ideal S32x2048 .f32) (c0r : Vec Ideal S1x512 .f32) (b : Fin 32) (e : Fin 512) :
    k0_pay2 (F := Ideal) acc c0r (ix2 b e)
      = Ideal.logistic (acc (ix2 b (⟨1536 + e.val, by omega⟩ : Fin 2048)))
        * Ideal.tanh (Ideal.logistic (acc (ix2 b (⟨e.val, by omega⟩ : Fin 2048))) * c0r (ix2 (0 : Fin 1) e)
            + Ideal.logistic (acc (ix2 b (⟨512 + e.val, by omega⟩ : Fin 2048)))
              * Ideal.tanh (acc (ix2 b (⟨1024 + e.val, by omega⟩ : Fin 2048)))) := by
  show Ideal.logistic (extractStridedSlice S32x512 ![0, 1536] acc slices_S32x2048_o0_1536_S32x512 (ix2 b e))
      * Ideal.tanh (Ideal.logistic (extractStridedSlice S32x512 ![0, 0] acc slices_S32x2048_o0_0_S32x512 (ix2 b e))
            * broadcastTo S32x512 (shapeCast S1x512 c0r shapeCasts_S1x512_S1x512) broadcasts_S1x512_S32x512 (ix2 b e)
          + Ideal.logistic (extractStridedSlice S32x512 ![0, 512] acc slices_S32x2048_o0_512_S32x512 (ix2 b e))
            * Ideal.tanh (extractStridedSlice S32x512 ![0, 1024] acc slices_S32x2048_o0_1024_S32x512 (ix2 b e))) = _
  rw [slice_cols 1536 (by omega), slice_cols 512 (by omega), slice_cols 1024 (by omega), slice_cols_zero,
    row_bcast_apply, shapeCast_self]

end Cert.GateValue

end
-- ==== Proof.KI.GateAcc.lean ====
/-
  What the gate kernel's accumulator holds after a point, at the extended reals, read at an index.

  The accumulator is four column slabs, one per gate.  At a first reduction step slab `q` holds `0 + ∑ j, x b j * w_q j e`
  (the cleared zero plus the step's product); at a middle or last step it holds what the point before left plus the
  step's product.  At a last step the output block is the cell's output computed from the accumulator so updated.
-/
import proofs.«160136_j5179730559367_2_alg».proof.Proof.KI.GateBody
import proofs.«160136_j5179730559367_2_alg».proof.Proof.KI.Slabs
import proofs.«160136_j5179730559367_2_alg».proof.Proof.GateValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Slabs

theorem hz2 : (![0, 0] : Fin 2 → Nat) = fun _ => 0 := funext fun a => by fin_cases a <;> rfl

/-- A whole-block load of a buffer that reads `x` reads `x`. -/
theorem load_a (arg : Memref sig .tc .vmem S32x512 .f32) (h : arg.IsWhole) (x : Vec Ideal S32x512 .f32) :
    View.readAt (Elt Ideal) arg.view (Rect.unit (s := S32x512) ![0, 0] S32x512.size inb_S32x512_S32x512_0_0).toLoadRect (h.unread x) = x := by
  rw [View.readAt_eq_ld, h.read_unread]; exact View.ld_unit_zero (S := S32x512) hz2 _ x
theorem load_w (arg : Memref sig .tc .vmem S512x512 .f32) (h : arg.IsWhole) (x : Vec Ideal S512x512 .f32) :
    View.readAt (Elt Ideal) arg.view (Rect.unit (s := S512x512) ![0, 0] S512x512.size inb_S512x512_S512x512_0_0).toLoadRect (h.unread x) = x := by
  rw [View.readAt_eq_ld, h.read_unread]; exact View.ld_unit_zero (S := S512x512) hz2 _ x
theorem load_r (arg : Memref sig .tc .vmem S1x512 .f32) (h : arg.IsWhole) (x : Vec Ideal S1x512 .f32) :
    View.readAt (Elt Ideal) arg.view (Rect.unit (s := S1x512) ![0, 0] S1x512.size inb_S1x512_S1x512_0_0).toLoadRect (h.unread x) = x := by
  rw [View.readAt_eq_ld, h.read_unread]; exact View.ld_unit_zero (S := S1x512) hz2 _ x

/-! ## A middle step: each slab is what the point before left plus the step's product -/

theorem accB_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_B_0 (F := Ideal) c i arg2 harg2 arg3 harg3 arg4 harg4 arg5 harg5 arg6 harg6 arg7 harg7 arg8 harg8 arg9 harg9 hc0 hc1 x0 x1 x2 x3 x4 x5 xs0 (ix2 b (⟨e.val, by omega⟩ : Fin 2048))
      = xs0 (ix2 b (⟨e.val, by omega⟩ : Fin 2048)) + ∑ j : Fin 512, x0 (ix2 b j) * x1 (ix2 j e) := by
  unfold sout0_B_0
  rw [View.read_writes_junk_eq_canon]
  unfold kernelRun0_B; dsimp only; sl_unfold_words
  refine (canon4_0 _ _ _ _ _ b e).trans ?_
  refine (Cert.GateValue.pay5_apply _ _ _ b e).trans ?_
  rw [load_a, load_w]
  refine congrArg (fun v : EReal => v + ∑ j : Fin 512, x0 (ix2 b j) * x1 (ix2 j e)) ?_
  rw [View.readAt_eq_ld, harg9.read_unread]
  exact ld_slab0 xs0 b e

theorem accB_1 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_B_0 (F := Ideal) c i arg2 harg2 arg3 harg3 arg4 harg4 arg5 harg5 arg6 harg6 arg7 harg7 arg8 harg8 arg9 harg9 hc0 hc1 x0 x1 x2 x3 x4 x5 xs0 (ix2 b (⟨512 + e.val, by omega⟩ : Fin 2048))
      = xs0 (ix2 b (⟨512 + e.val, by omega⟩ : Fin 2048)) + ∑ j : Fin 512, x0 (ix2 b j) * x2 (ix2 j e) := by
  unfold sout0_B_0
  rw [View.read_writes_junk_eq_canon]
  unfold kernelRun0_B; dsimp only; sl_unfold_words
  refine (canon4_1 _ _ _ _ _ b e).trans ?_
  refine (Cert.GateValue.pay6_apply _ _ _ b e).trans ?_
  rw [load_a, load_w]
  refine congrArg (fun v : EReal => v + ∑ j : Fin 512, x0 (ix2 b j) * x2 (ix2 j e)) ?_
  rw [View.readAt_eq_ld, harg9.read_unread]
  exact ld_slab1 xs0 b e

theorem accB_2 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_B_0 (F := Ideal) c i arg2 harg2 arg3 harg3 arg4 harg4 arg5 harg5 arg6 harg6 arg7 harg7 arg8 harg8 arg9 harg9 hc0 hc1 x0 x1 x2 x3 x4 x5 xs0 (ix2 b (⟨1024 + e.val, by omega⟩ : Fin 2048))
      = xs0 (ix2 b (⟨1024 + e.val, by omega⟩ : Fin 2048)) + ∑ j : Fin 512, x0 (ix2 b j) * x3 (ix2 j e) := by
  unfold sout0_B_0
  rw [View.read_writes_junk_eq_canon]
  unfold kernelRun0_B; dsimp only; sl_unfold_words
  refine (canon4_2 _ _ _ _ _ b e).trans ?_
  refine (Cert.GateValue.pay7_apply _ _ _ b e).trans ?_
  rw [load_a, load_w]
  refine congrArg (fun v : EReal => v + ∑ j : Fin 512, x0 (ix2 b j) * x3 (ix2 j e)) ?_
  rw [View.readAt_eq_ld, harg9.read_unread]
  exact ld_slab2 xs0 b e

theorem accB_3 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : ¬cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_B_0 (F := Ideal) c i arg2 harg2 arg3 harg3 arg4 harg4 arg5 harg5 arg6 harg6 arg7 harg7 arg8 harg8 arg9 harg9 hc0 hc1 x0 x1 x2 x3 x4 x5 xs0 (ix2 b (⟨1536 + e.val, by omega⟩ : Fin 2048))
      = xs0 (ix2 b (⟨1536 + e.val, by omega⟩ : Fin 2048)) + ∑ j : Fin 512, x0 (ix2 b j) * x4 (ix2 j e) := by
  unfold sout0_B_0
  rw [View.read_writes_junk_eq_canon]
  unfold kernelRun0_B; dsimp only; sl_unfold_words
  refine (canon4_3 _ _ _ _ _ b e).trans ?_
  refine (Cert.GateValue.pay1_apply _ _ _ b e).trans ?_
  rw [load_a, load_w]
  simp only [Cert.GateValue.pay4_apply]
  refine congrArg (fun v : EReal => v + ∑ j : Fin 512, x0 (ix2 b j) * x4 (ix2 j e)) ?_
  rw [View.readAt_eq_ld, harg9.read_unread]
  exact ld_slab3 xs0 b e

/-! ## A last step: the same for the accumulator, -/

theorem accC_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_C_0 (F := Ideal) c i arg2 harg2 arg3 harg3 arg4 harg4 arg5 harg5 arg6 harg6 arg7 harg7 arg8 harg8 arg9 harg9 hc0 hc1 x0 x1 x2 x3 x4 x5 xs0 (ix2 b (⟨e.val, by omega⟩ : Fin 2048))
      = xs0 (ix2 b (⟨e.val, by omega⟩ : Fin 2048)) + ∑ j : Fin 512, x0 (ix2 b j) * x1 (ix2 j e) := by
  unfold sout0_C_0
  rw [View.read_writes_junk_eq_canon]
  unfold kernelRun0_C; dsimp only; sl_unfold_words
  refine (canon4_0 _ _ _ _ _ b e).trans ?_
  refine (Cert.GateValue.pay5_apply _ _ _ b e).trans ?_
  rw [load_a, load_w]
  refine congrArg (fun v : EReal => v + ∑ j : Fin 512, x0 (ix2 b j) * x1 (ix2 j e)) ?_
  rw [View.readAt_eq_ld, harg9.read_unread]
  exact ld_slab0 xs0 b e

theorem accC_1 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_C_0 (F := Ideal) c i arg2 harg2 arg3 harg3 arg4 harg4 arg5 harg5 arg6 harg6 arg7 harg7 arg8 harg8 arg9 harg9 hc0 hc1 x0 x1 x2 x3 x4 x5 xs0 (ix2 b (⟨512 + e.val, by omega⟩ : Fin 2048))
      = xs0 (ix2 b (⟨512 + e.val, by omega⟩ : Fin 2048)) + ∑ j : Fin 512, x0 (ix2 b j) * x2 (ix2 j e) := by
  unfold sout0_C_0
  rw [View.read_writes_junk_eq_canon]
  unfold kernelRun0_C; dsimp only; sl_unfold_words
  refine (canon4_1 _ _ _ _ _ b e).trans ?_
  refine (Cert.GateValue.pay6_apply _ _ _ b e).trans ?_
  rw [load_a, load_w]
  refine congrArg (fun v : EReal => v + ∑ j : Fin 512, x0 (ix2 b j) * x2 (ix2 j e)) ?_
  rw [View.readAt_eq_ld, harg9.read_unread]
  exact ld_slab1 xs0 b e

theorem accC_2 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_C_0 (F := Ideal) c i arg2 harg2 arg3 harg3 arg4 harg4 arg5 harg5 arg6 harg6 arg7 harg7 arg8 harg8 arg9 harg9 hc0 hc1 x0 x1 x2 x3 x4 x5 xs0 (ix2 b (⟨1024 + e.val, by omega⟩ : Fin 2048))
      = xs0 (ix2 b (⟨1024 + e.val, by omega⟩ : Fin 2048)) + ∑ j : Fin 512, x0 (ix2 b j) * x3 (ix2 j e) := by
  unfold sout0_C_0
  rw [View.read_writes_junk_eq_canon]
  unfold kernelRun0_C; dsimp only; sl_unfold_words
  refine (canon4_2 _ _ _ _ _ b e).trans ?_
  refine (Cert.GateValue.pay7_apply _ _ _ b e).trans ?_
  rw [load_a, load_w]
  refine congrArg (fun v : EReal => v + ∑ j : Fin 512, x0 (ix2 b j) * x3 (ix2 j e)) ?_
  rw [View.readAt_eq_ld, harg9.read_unread]
  exact ld_slab2 xs0 b e

theorem accC_3 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec Ideal S32x512 .f32) (x1 x2 x3 x4 : Vec Ideal S512x512 .f32) (x5 : Vec Ideal S1x512 .f32) (xs0 : Vec Ideal S32x2048 .f32) (b : Fin 32) (e : Fin 512) :
    sout0_C_0 (F := Ideal) c i arg2 harg2 arg3 harg3 arg4 harg4 arg5 harg5 arg6 harg6 arg7 harg7 arg8 harg8 arg9 harg9 hc0 hc1 x0 x1 x2 x3 x4 x5 xs0 (ix2 b (⟨1536 + e.val, by omega⟩ : Fin 2048))
      = xs0 (ix2 b (⟨1536 + e.val, by omega⟩ : Fin 2048)) + ∑ j : Fin 512, x0 (ix2 b j) * x4 (ix2 j e) := by
  unfold sout0_C_0
  rw [View.read_writes_junk_eq_canon]
  unfold kernelRun0_C; dsimp only; sl_unfold_words
  refine (canon4_3 _ _ _ _ _ b e).trans ?_
  refine (Cert.GateValue.pay1_apply _ _ _ b e).trans ?_
  rw [load_a, load_w]
  simp only [Cert.GateValue.pay4_apply]
  refine congrArg (fun v : EReal => v + ∑ j : Fin 512, x0 (ix2 b j) * x4 (ix2 j e)) ?_
  rw [View.readAt_eq_ld, harg9.read_unread]
  exact ld_slab3 xs0 b e

/-- and the output block is the cell's output of the accumulator SO UPDATED and the cell-state row: the output gate's
    logistic times the hyperbolic tangent of (forget gate's logistic × cell state + input gate's logistic × candidate's
    hyperbolic tangent). -/
theorem outC (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : ¬cond0_0 i) (hc1 : cond0_1 i) (x0 : Vec Ideal S32x512 .f32) (x1 x2 x3 x4 : Vec Ideal S512x512 .f32) (x5 : Vec Ideal S1x512 .f32) (xs0 : Vec Ideal S32x2048 .f32) (b : Fin 32) (e : Fin 512) :
    out0_C_6 (F := Ideal) c i arg2 harg2 arg3 harg3 arg4 harg4 arg5 harg5 arg6 harg6 arg7 harg7 arg8 harg8 arg9 harg9 hc0 hc1 x0 x1 x2 x3 x4 x5 xs0 (ix2 b e)
      = Ideal.logistic (sout0_C_0 (F := Ideal) c i arg2 harg2 arg3 harg3 arg4 harg4 arg5 harg5 arg6 harg6 arg7 harg7 arg8 harg8 arg9 harg9 hc0 hc1 x0 x1 x2 x3 x4 x5 xs0 (ix2 b (⟨1536 + e.val, by omega⟩ : Fin 2048)))
          * Ideal.tanh (Ideal.logistic (sout0_C_0 (F := Ideal) c i arg2 harg2 arg3 harg3 arg4 harg4 arg5 harg5 arg6 harg6 arg7 harg7 arg8 harg8 arg9 harg9 hc0 hc1 x0 x1 x2 x3 x4 x5 xs0 (ix2 b (⟨e.val, by omega⟩ : Fin 2048))) * x5 (ix2 (0 : Fin 1) e)
              + Ideal.logistic (sout0_C_0 (F := Ideal) c i arg2 harg2 arg3 harg3 arg4 harg4 arg5 harg5 arg6 harg6 arg7 harg7 arg8 harg8 arg9 harg9 hc0 hc1 x0 x1 x2 x3 x4 x5 xs0 (ix2 b (⟨512 + e.val, by omega⟩ : Fin 2048)))
                * Ideal.tanh (sout0_C_0 (F := Ideal) c i arg2 harg2 arg3 harg3 arg4 harg4 arg5 harg5 arg6 harg6 arg7 harg7 arg8 harg8 arg9 harg9 hc0 hc1 x0 x1 x2 x3 x4 x5 xs0 (ix2 b (⟨1024 + e.val, by omega⟩ : Fin 2048)))) := by
  have hs : sout0_C_0 (F := Ideal) c i arg2 harg2 arg3 harg3 arg4 harg4 arg5 harg5 arg6 harg6 arg7 harg7 arg8 harg8 arg9 harg9 hc0 hc1 x0 x1 x2 x3 x4 x5 xs0
      = View.canon (kernelRun0_C (F := Ideal) c i arg2 harg2 arg3 harg3 arg4 harg4 arg5 harg5 arg6 harg6 arg7 harg7 arg8 harg8 arg9 harg9 hc0 hc1 x0 x1 x2 x3 x4 x5 xs0).2.1 := by
    unfold sout0_C_0; rw [View.read_writes_junk_eq_canon]
  rw [hs]
  unfold out0_C_6
  rw [View.read_writes_junk_eq_canon]
  unfold kernelRun0_C; dsimp only; sl_unfold_words
  rw [View.canon_unit_zero hz2]
  refine (Cert.GateValue.pay2_apply _ _ b e).trans ?_
  rw [load_r, View.readCov_eq_canon']
  simp only [fun (L : List (View.Piece (Elt Ideal) S32x2048 .f32)) (y : S32x2048.Idx) => (congrFun (ld_whole (View.canon L)) y : View.canon L (whole.idx y) = View.canon L y)]

/-! ## A first step: each slab is the cleared zero plus the step's product -/

theorem accA_0 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec Ideal S32x512 .f32) (x1 x2 x3 x4 : Vec Ideal S512x512 .f32) (x5 : Vec Ideal S1x512 .f32) (b : Fin 32) (e : Fin 512) :
    sout0_A_0 (F := Ideal) c i arg2 harg2 arg3 harg3 arg4 harg4 arg5 harg5 arg6 harg6 arg7 harg7 arg8 harg8 arg9 harg9 hc0 hc1 x0 x1 x2 x3 x4 x5 (ix2 b (⟨e.val, by omega⟩ : Fin 2048))
      = 0 + ∑ j : Fin 512, x0 (ix2 b j) * x1 (ix2 j e) := by
  unfold sout0_A_0
  rw [View.read_writes_junk_eq_canon]
  unfold kernelRun0_A; dsimp only; sl_unfold_words
  refine (canon4_0 _ _ _ _ _ b e).trans ?_
  refine (Cert.GateValue.pay5_apply _ _ _ b e).trans ?_
  rw [load_a]; repeat rw [load_w]
  refine congrArg (fun v : EReal => v + ∑ j : Fin 512, x0 (ix2 b j) * x1 (ix2 j e)) ?_
  rw [View.readCov_eq_canon']
  refine (congrArg (View.canon _) (idx_slab0 b e)).trans ?_
  refine (canon_under0 _ b e).trans ?_
  exact Cert.GateValue.pay3_apply _

theorem accA_1 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec Ideal S32x512 .f32) (x1 x2 x3 x4 : Vec Ideal S512x512 .f32) (x5 : Vec Ideal S1x512 .f32) (b : Fin 32) (e : Fin 512) :
    sout0_A_0 (F := Ideal) c i arg2 harg2 arg3 harg3 arg4 harg4 arg5 harg5 arg6 harg6 arg7 harg7 arg8 harg8 arg9 harg9 hc0 hc1 x0 x1 x2 x3 x4 x5 (ix2 b (⟨512 + e.val, by omega⟩ : Fin 2048))
      = 0 + ∑ j : Fin 512, x0 (ix2 b j) * x2 (ix2 j e) := by
  unfold sout0_A_0
  rw [View.read_writes_junk_eq_canon]
  unfold kernelRun0_A; dsimp only; sl_unfold_words
  refine (canon4_1 _ _ _ _ _ b e).trans ?_
  refine (Cert.GateValue.pay6_apply _ _ _ b e).trans ?_
  rw [load_a]; repeat rw [load_w]
  refine congrArg (fun v : EReal => v + ∑ j : Fin 512, x0 (ix2 b j) * x2 (ix2 j e)) ?_
  rw [View.readCov_eq_canon']
  refine (congrArg (View.canon _) (idx_slab1 b e)).trans ?_
  refine (canon_under1 _ _ b e).trans ?_
  exact Cert.GateValue.pay3_apply _

theorem accA_2 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec Ideal S32x512 .f32) (x1 x2 x3 x4 : Vec Ideal S512x512 .f32) (x5 : Vec Ideal S1x512 .f32) (b : Fin 32) (e : Fin 512) :
    sout0_A_0 (F := Ideal) c i arg2 harg2 arg3 harg3 arg4 harg4 arg5 harg5 arg6 harg6 arg7 harg7 arg8 harg8 arg9 harg9 hc0 hc1 x0 x1 x2 x3 x4 x5 (ix2 b (⟨1024 + e.val, by omega⟩ : Fin 2048))
      = 0 + ∑ j : Fin 512, x0 (ix2 b j) * x3 (ix2 j e) := by
  unfold sout0_A_0
  rw [View.read_writes_junk_eq_canon]
  unfold kernelRun0_A; dsimp only; sl_unfold_words
  refine (canon4_2 _ _ _ _ _ b e).trans ?_
  refine (Cert.GateValue.pay7_apply _ _ _ b e).trans ?_
  rw [load_a]; repeat rw [load_w]
  refine congrArg (fun v : EReal => v + ∑ j : Fin 512, x0 (ix2 b j) * x3 (ix2 j e)) ?_
  rw [View.readCov_eq_canon']
  refine (congrArg (View.canon _) (idx_slab2 b e)).trans ?_
  refine (canon_under2 _ _ _ b e).trans ?_
  exact Cert.GateValue.pay3_apply _

theorem accA_3 (c : Dev nD) (i : grid0.Coords) (arg2 : Memref sig .tc .vmem S32x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x2048 .f32) (harg9 : arg9.IsWhole) (hc0 : cond0_0 i) (hc1 : ¬cond0_1 i) (x0 : Vec Ideal S32x512 .f32) (x1 x2 x3 x4 : Vec Ideal S512x512 .f32) (x5 : Vec Ideal S1x512 .f32) (b : Fin 32) (e : Fin 512) :
    sout0_A_0 (F := Ideal) c i arg2 harg2 arg3 harg3 arg4 harg4 arg5 harg5 arg6 harg6 arg7 harg7 arg8 harg8 arg9 harg9 hc0 hc1 x0 x1 x2 x3 x4 x5 (ix2 b (⟨1536 + e.val, by omega⟩ : Fin 2048))
      = 0 + ∑ j : Fin 512, x0 (ix2 b j) * x4 (ix2 j e) := by
  unfold sout0_A_0
  rw [View.read_writes_junk_eq_canon]
  unfold kernelRun0_A; dsimp only; sl_unfold_words
  refine (canon4_3 _ _ _ _ _ b e).trans ?_
  refine (Cert.GateValue.pay1_apply _ _ _ b e).trans ?_
  rw [load_a]; repeat rw [load_w]
  simp only [Cert.GateValue.pay4_apply]
  refine congrArg (fun v : EReal => v + ∑ j : Fin 512, x0 (ix2 b j) * x4 (ix2 j e)) ?_
  rw [View.readCov_eq_canon']
  refine (congrArg (View.canon _) (idx_slab3 b e)).trans ?_
  refine (canon_under3 _ _ _ _ b e).trans ?_
  exact Cert.GateValue.pay3_apply _

end Cert.KernelIdeal.Hand

end
-- ==== Proof.KI.GateBlocks.lean ====
/-
  The gate kernel's windows' blocks read at an index, at any float instance and at parameter entry contents `V`.

  At grid point `t` the reduction step is `t % 3` and the column tile `t / 3`.  The input row block is columns
  `512 (t % 3) …` of the [32,1536] input; each weight block is rows `512 (t % 3) …` and columns `512 (t / 3) …` of
  its [1536,1024] matrix; the cell-state row block and the output block are columns `512 (t / 3) …`.  A block's
  coordinate is always block index × block size + the coordinate inside the block.
-/
import proofs.«160136_j5179730559367_2_alg».proof.Proof.KI.GateBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps, decided over the six grid points. -/
theorem idx_facts0 : ∀ t : Fin cfg0.N,
    win0_0.index t (0 : Fin 2) = 0 ∧ win0_0.index t (1 : Fin 2) = t.val % 3
    ∧ win0_1.index t (0 : Fin 2) = t.val % 3 ∧ win0_1.index t (1 : Fin 2) = t.val / 3
    ∧ win0_2.index t (0 : Fin 2) = t.val % 3 ∧ win0_2.index t (1 : Fin 2) = t.val / 3
    ∧ win0_3.index t (0 : Fin 2) = t.val % 3 ∧ win0_3.index t (1 : Fin 2) = t.val / 3
    ∧ win0_4.index t (0 : Fin 2) = t.val % 3 ∧ win0_4.index t (1 : Fin 2) = t.val / 3
    ∧ win0_5.index t (0 : Fin 2) = 0 ∧ win0_5.index t (1 : Fin 2) = t.val / 3
    ∧ win0_6.index t (0 : Fin 2) = 0 ∧ win0_6.index t (1 : Fin 2) = t.val / 3 :=
  (by decide +kernel : ∀ t : Fin grid0.N, _)

theorem lt6 (t : Fin cfg0.N) : t.val < 6 := lt_of_lt_of_eq t.isLt (show cfg0.N = 6 from N_0)

section
variable (V : (c : Dev nD) → (b : Ref sig .tc) → Buf (Elt F) ((c : Thread nD τ).loc b))

/-- The input row block: row `b`, column `512 (t % 3) + j` of the [32,1536] input. -/
theorem iblk0_0_apply (c : Dev nD) (t : Fin cfg0.N) (b : Fin 32) (j : Fin 512) :
    iblk0 V c 0 t (ix2 b j) = V c main_v4 (ix2 b (⟨512 * (t.val % 3) + j.val, by have := lt6 t; omega⟩ : Fin 1536)) := by
  obtain ⟨e0, e1, -⟩ := idx_facts0 t
  show V c main_v4 (((cfg0.win 0).blk t).view.emb (ix2 b j)) = _
  refine congrArg (V c main_v4) ?_
  funext a; apply Fin.ext
  match a with
  | ⟨0, _⟩ => show win0_0.index t (0 : Fin 2) * 32 + 1 * b.val = b.val; omega
  | ⟨1, _⟩ => show win0_0.index t (1 : Fin 2) * 512 + 1 * j.val = 512 * (t.val % 3) + j.val; omega

/-- A weight block: row `512 (t % 3) + j`, column `512 (t / 3) + e` of its [1536,1024] matrix. -/
theorem iblk0_1_apply (c : Dev nD) (t : Fin cfg0.N) (j : Fin 512) (e : Fin 512) :
    iblk0 V c 1 t (ix2 j e) = V c main_arg3 (ix2 (⟨512 * (t.val % 3) + j.val, by have := lt6 t; omega⟩ : Fin 1536) (⟨512 * (t.val / 3) + e.val, by have := lt6 t; omega⟩ : Fin 1024)) := by
  obtain ⟨-, -, e2, e3, e4, e5, e6, e7, e8, e9, -⟩ := idx_facts0 t
  show V c main_arg3 (((cfg0.win 1).blk t).view.emb (ix2 j e)) = _
  refine congrArg (V c main_arg3) ?_
  funext a; apply Fin.ext
  match a with
  | ⟨0, _⟩ => show win0_1.index t (0 : Fin 2) * 512 + 1 * j.val = 512 * (t.val % 3) + j.val; omega
  | ⟨1, _⟩ => show win0_1.index t (1 : Fin 2) * 512 + 1 * e.val = 512 * (t.val / 3) + e.val; omega

/-- A weight block: row `512 (t % 3) + j`, column `512 (t / 3) + e` of its [1536,1024] matrix. -/
theorem iblk0_2_apply (c : Dev nD) (t : Fin cfg0.N) (j : Fin 512) (e : Fin 512) :
    iblk0 V c 2 t (ix2 j e) = V c main_arg4 (ix2 (⟨512 * (t.val % 3) + j.val, by have := lt6 t; omega⟩ : Fin 1536) (⟨512 * (t.val / 3) + e.val, by have := lt6 t; omega⟩ : Fin 1024)) := by
  obtain ⟨-, -, e2, e3, e4, e5, e6, e7, e8, e9, -⟩ := idx_facts0 t
  show V c main_arg4 (((cfg0.win 2).blk t).view.emb (ix2 j e)) = _
  refine congrArg (V c main_arg4) ?_
  funext a; apply Fin.ext
  match a with
  | ⟨0, _⟩ => show win0_2.index t (0 : Fin 2) * 512 + 1 * j.val = 512 * (t.val % 3) + j.val; omega
  | ⟨1, _⟩ => show win0_2.index t (1 : Fin 2) * 512 + 1 * e.val = 512 * (t.val / 3) + e.val; omega

/-- A weight block: row `512 (t % 3) + j`, column `512 (t / 3) + e` of its [1536,1024] matrix. -/
theorem iblk0_3_apply (c : Dev nD) (t : Fin cfg0.N) (j : Fin 512) (e : Fin 512) :
    iblk0 V c 3 t (ix2 j e) = V c main_arg5 (ix2 (⟨512 * (t.val % 3) + j.val, by have := lt6 t; omega⟩ : Fin 1536) (⟨512 * (t.val / 3) + e.val, by have := lt6 t; omega⟩ : Fin 1024)) := by
  obtain ⟨-, -, e2, e3, e4, e5, e6, e7, e8, e9, -⟩ := idx_facts0 t
  show V c main_arg5 (((cfg0.win 3).blk t).view.emb (ix2 j e)) = _
  refine congrArg (V c main_arg5) ?_
  funext a; apply Fin.ext
  match a with
  | ⟨0, _⟩ => show win0_3.index t (0 : Fin 2) * 512 + 1 * j.val = 512 * (t.val % 3) + j.val; omega
  | ⟨1, _⟩ => show win0_3.index t (1 : Fin 2) * 512 + 1 * e.val = 512 * (t.val / 3) + e.val; omega

/-- A weight block: row `512 (t % 3) + j`, column `512 (t / 3) + e` of its [1536,1024] matrix. -/
theorem iblk0_4_apply (c : Dev nD) (t : Fin cfg0.N) (j : Fin 512) (e : Fin 512) :
    iblk0 V c 4 t (ix2 j e) = V c main_arg6 (ix2 (⟨512 * (t.val % 3) + j.val, by have := lt6 t; omega⟩ : Fin 1536) (⟨512 * (t.val / 3) + e.val, by have := lt6 t; omega⟩ : Fin 1024)) := by
  obtain ⟨-, -, e2, e3, e4, e5, e6, e7, e8, e9, -⟩ := idx_facts0 t
  show V c main_arg6 (((cfg0.win 4).blk t).view.emb (ix2 j e)) = _
  refine congrArg (V c main_arg6) ?_
  funext a; apply Fin.ext
  match a with
  | ⟨0, _⟩ => show win0_4.index t (0 : Fin 2) * 512 + 1 * j.val = 512 * (t.val % 3) + j.val; omega
  | ⟨1, _⟩ => show win0_4.index t (1 : Fin 2) * 512 + 1 * e.val = 512 * (t.val / 3) + e.val; omega

/-- The cell-state row block: column `512 (t / 3) + e` of the [1,1024] row. -/
theorem iblk0_5_apply (c : Dev nD) (t : Fin cfg0.N) (e : Fin 512) :
    iblk0 V c 5 t (ix2 (0 : Fin 1) e) = V c main_v5 (ix2 (0 : Fin 1) (⟨512 * (t.val / 3) + e.val, by have := lt6 t; omega⟩ : Fin 1024)) := by
  obtain ⟨-, -, -, -, -, -, -, -, -, -, e10, e11, -⟩ := idx_facts0 t
  show V c main_v5 (((cfg0.win 5).blk t).view.emb (ix2 (0 : Fin 1) e)) = _
  refine congrArg (V c main_v5) ?_
  funext a; apply Fin.ext
  match a with
  | ⟨0, _⟩ => show win0_5.index t (0 : Fin 2) * 1 + 1 * 0 = 0; omega
  | ⟨1, _⟩ => show win0_5.index t (1 : Fin 2) * 512 + 1 * e.val = 512 * (t.val / 3) + e.val; omega

end

end Cert.KernelIdeal.Hand

end
-- ==== Proof.GateTiles.lean ====
/-
  One gate's pre-activation, accumulated tile by tile, is the plain sum over the whole contracted axis.

  The gate kernel visits the 1536 contraction positions as three tiles of 512 and adds each tile's partial sum
  to what the earlier tiles left, starting from zero.  Addition on the extended reals is commutative and
  associative, so the three partial sums add up to the sum over all 1536 positions; nothing about finiteness
  is used.
-/
import proofs.«160136_j5179730559367_2_alg».proof.Proof.Spec
import Mathlib.Algebra.BigOperators.Fin

noncomputable section

open scoped BigOperators

namespace Cert.GateValue

open Idealize.ShloMosaic Idealize.ShloMosaic.ValueIdx

/-- A sum over 1536 positions is the sum of its three tiles of 512, in any additive commutative monoid. -/
theorem sum_three_tiles {M : Type*} [AddCommMonoid M] (f : Fin 1536 → M) :
    ∑ j : Fin 1536, f j
      = ((∑ j : Fin 512, f (⟨j.val, by omega⟩ : Fin 1536)) + ∑ j : Fin 512, f (⟨512 + j.val, by omega⟩ : Fin 1536))
        + ∑ j : Fin 512, f (⟨1024 + j.val, by omega⟩ : Fin 1536) := by
  show ∑ j : Fin (512 + 512 + 512), f j = _
  rw [Fin.sum_univ_add, Fin.sum_univ_add]
  rfl

/-- The three tiles' partial sums, added in the kernel's order from zero, are the gate's pre-activation. -/
theorem gate_tiles (z : Fin 1536 → EReal) (w : Cert.Spec.Sw.Idx → EReal) (n : Fin 1024) :
    ((0 + ∑ j : Fin 512, z (⟨j.val, by omega⟩ : Fin 1536) * w (ix2 (⟨j.val, by omega⟩ : Fin 1536) n))
        + ∑ j : Fin 512, z (⟨512 + j.val, by omega⟩ : Fin 1536) * w (ix2 (⟨512 + j.val, by omega⟩ : Fin 1536) n))
      + ∑ j : Fin 512, z (⟨1024 + j.val, by omega⟩ : Fin 1536) * w (ix2 (⟨1024 + j.val, by omega⟩ : Fin 1536) n)
    = Cert.Spec.gate z w n := by
  rw [zero_add]
  exact (sum_three_tiles fun j => z j * w (ix2 j n)).symm

end Cert.GateValue

end
-- ==== Proof.GateGlue.lean ====
/-
  What the host operations before the gate kernel leave in its two operand arrays, read at one index.

  The gate input is built by slicing the last time step out of the data, dropping the unit axis, repeating the
  initial hidden state down the 32 rows, and joining the two along the second axis: row `b` reads the hidden state
  at columns below 1024 and the last time step's features, 1024 columns on, from there.  The initial cell state is
  laid out as one row of 1024.
-/
import proofs.«160136_j5179730559367_2_alg».proof.Proof.Gen.KernelIdeal.Regions
import proofs.«160136_j5179730559367_2_alg».proof.Proof.Spec
import Idealize.ShloMosaic.Lib.StableHlo.Run
import Idealize.ShloMosaic.Lib.Pipeline.Value
import Idealize.ShloMosaic.Lib.ValueIdx

noncomputable section

namespace Cert.GateValue

open Cert.KernelIdeal Cert.KernelIdeal.Gen Idealize.ShloMosaic Idealize.ShloMosaic.ValueIdx Idealize.ShloMosaic.TcCoe
open Idealize.SL.Sem

section Pure
variable {α : Type}

/-- The last time step, sliced out of `[32, 512, 512]` and read without its unit axis, at `(b, e)`. -/
theorem last_step_apply (data : S32x512x512.Idx → α) (hs : S32x512x512.Slices ![0, 511, 0] S32x1x512)
    (hc : S32x1x512.ShapeCasts S32x512) (b : Fin 32) (e : Fin 512) :
    shapeCast S32x512 (extractStridedSlice S32x1x512 ![0, 511, 0] data hs) hc (ix2 b e)
      = data (ix3 b (511 : Fin 512) e) := by
  refine (shapeCast_apply _ hc (ix2 b e) (ix3 b (0 : Fin 1) e) ?_).trans ?_
  · rw [Shape.rowMajor_val_three, Shape.rowMajor_val_two]
    show (b.val * 1 + 0) * 512 + e.val = b.val * 512 + e.val
    omega
  · refine extractStridedSlice_apply _ _ _ _ _ fun a => ?_
    match a with
    | ⟨0, _⟩ => show b.val = 0 + b.val; omega
    | ⟨1, _⟩ => rfl
    | ⟨2, _⟩ => show e.val = 0 + e.val; omega

/-- A vector of 1024 laid out as the one row of `[1, 1024]`, at column `n`. -/
theorem vec_row_apply (v : S1024.Idx → α) (h1 : S1024.BroadcastsInDim S1x1024 (![1] : Fin 1 → Fin S1x1024.rank))
    (n : Fin 1024) : broadcastInDim S1x1024 ![1] h1 v (ix2 (0 : Fin 1) n) = v (ix1 n) := by
  refine broadcastInDim_apply _ h1 _ (ix2 (0 : Fin 1) n) (ix1 n) fun a => ?_
  match a with
  | ⟨0, _⟩ => rfl

/-- That row repeated down the 32 rows, at `(b, n)`. -/
theorem vec_rows_apply (v : S1024.Idx → α) (h1 : S1024.BroadcastsInDim S1x1024 (![1] : Fin 1 → Fin S1x1024.rank))
    (h2 : S1x1024.BroadcastsInDim S32x1024 (![0, 1] : Fin 2 → Fin S32x1024.rank)) (b : Fin 32) (n : Fin 1024) :
    broadcastInDim S32x1024 ![0, 1] h2 (broadcastInDim S1x1024 ![1] h1 v) (ix2 b n) = v (ix1 n) := by
  refine (broadcastInDim_apply _ h2 _ (ix2 b n) (ix2 (0 : Fin 1) n) fun a => ?_).trans (vec_row_apply v h1 n)
  match a with
  | ⟨0, _⟩ => rfl
  | ⟨1, _⟩ => rfl

/-- The two arrays joined along the second axis, at a column of the first. -/
theorem cat_left (A : S32x1024.Idx → α) (B : S32x512.Idx → α)
    (h : Shape.Concatenates [S32x1024, S32x512] S32x1536 (1 : Fin S32x1536.rank)) (b : Fin 32) (j : Fin 1536)
    (hj : j.val < 1024) :
    concatenate S32x1536 1 [⟨S32x1024, A⟩, ⟨S32x512, B⟩] h (ix2 b j) = A (ix2 b (⟨j.val, hj⟩ : Fin 1024)) :=
  concatenate_pair_apply_left (1 : Fin S32x1536.rank) A B h (ix2 b j) rfl (ix2 b (⟨j.val, hj⟩ : Fin 1024)) fun a => by
    match a with
    | ⟨0, _⟩ => rfl
    | ⟨1, _⟩ => rfl

/-- The two arrays joined along the second axis, at a column of the second: 1024 columns back. -/
theorem cat_right (A : S32x1024.Idx → α) (B : S32x512.Idx → α)
    (h : Shape.Concatenates [S32x1024, S32x512] S32x1536 (1 : Fin S32x1536.rank)) (b : Fin 32) (j : Fin 1536)
    (hj : 1024 ≤ j.val) :
    concatenate S32x1536 1 [⟨S32x1024, A⟩, ⟨S32x512, B⟩] h (ix2 b j)
      = B (ix2 b (⟨j.val - 1024, by omega⟩ : Fin 512)) :=
  concatenate_pair_apply_right (1 : Fin S32x1536.rank) A B h (ix2 b j) rfl rfl
    (ix2 b (⟨j.val - 1024, by omega⟩ : Fin 512))
    (fun a ha => by
      match a with
      | ⟨0, _⟩ => rfl
      | ⟨1, _⟩ => exact absurd rfl ha)
    (by show j.val - 1024 + 1024 = j.val; omega)

end Pure

variable (m : (ℓ : Loc nD τ sig) → Buf (Elt Ideal) ℓ) (c : Dev nD)

/-- The gate input the host operations leave, as one term over the launch contents. -/
theorem z_eq :
    (StableHlo.after (hostOps0 (F := Ideal)) (fun r => m (c, r)) (Proc.devRef .tc main_v4) : S32x1536.Idx → EReal)
      = concatenate S32x1536 1
          [⟨S32x1024, broadcastInDim S32x1024 ![0, 1] bcast_S1x1024_S32x1024_0_1
              (broadcastInDim S1x1024 ![1] bcast_S1024_S1x1024_1 (m ((c.tc : Thread nD τ).loc main_arg1)))⟩,
            ⟨S32x512, shapeCast S32x512
              (extractStridedSlice S32x1x512 ![0, 511, 0] (m ((c.tc : Thread nD τ).loc main_arg0))
                slices_S32x512x512_S32x1x512_0_511_0) shapeCasts_S32x1x512_S32x512⟩]
          concatenates_S32x1024_S32x512_S32x1536_d1 := by
  dsimp only [hostOps0]
  after_results
  rfl

/-- Row `b` of the gate input at column `j`: the specification's row. -/
theorem z_apply (b : Fin 32) (j : Fin 1536) :
    (StableHlo.after (hostOps0 (F := Ideal)) (fun r => m (c, r)) (Proc.devRef .tc main_v4) : S32x1536.Idx → EReal)
        (ix2 b j)
      = Cert.Spec.zrow (m ((c.tc : Thread nD τ).loc main_arg0)) (m ((c.tc : Thread nD τ).loc main_arg1)) b j := by
  rw [z_eq]
  unfold Cert.Spec.zrow
  split
  · next h => rw [cat_left _ _ _ b j h, vec_rows_apply]
  · next h => rw [cat_right _ _ _ b j (by omega), last_step_apply]

/-- The initial cell state as the host operations lay it out, as one term over the launch contents. -/
theorem c0row_eq :
    (StableHlo.after (hostOps0 (F := Ideal)) (fun r => m (c, r)) (Proc.devRef .tc main_v5) : S1x1024.Idx → EReal)
      = broadcastInDim S1x1024 ![1] bcast_S1024_S1x1024_1 (m ((c.tc : Thread nD τ).loc main_arg2)) := by
  dsimp only [hostOps0]
  after_results

/-- The one row of the initial cell state at column `n`. -/
theorem c0row_apply (n : Fin 1024) :
    (StableHlo.after (hostOps0 (F := Ideal)) (fun r => m (c, r)) (Proc.devRef .tc main_v5) : S1x1024.Idx → EReal)
        (ix2 (0 : Fin 1) n)
      = m ((c.tc : Thread nD τ).loc main_arg2) (ix1 n) := by
  rw [c0row_eq]
  exact vec_row_apply _ _ n

end Cert.GateValue

end
-- ==== Proof.KI.GateSums.lean ====
/-
  The gate kernel's region at the extended reals: what a column tile's last reduction step stores, in terms of the
  argument arrays.

  The region is entered with the joined input row [initial hidden state | last step's features] and the cell-state row
  as the host operations before it computed them, and the four weight matrices as launched.  Unrolling the three
  reduction steps of a column tile, slab `q` of the accumulator ends at `((0 + S₀) + S₁) + S₂`, `S_k` the sum over the
  `k`-th tile of 512 coordinates: the gate's whole sum over 1536 coordinates, by associativity of addition.  The stored
  block is then the cell's hidden state at the tile's columns.
-/
import proofs.«160136_j5179730559367_2_alg».proof.Proof.KI.Run
import proofs.«160136_j5179730559367_2_alg».proof.Proof.KI.GateAcc
import proofs.«160136_j5179730559367_2_alg».proof.Proof.KI.GateBlocks
import proofs.«160136_j5179730559367_2_alg».proof.Proof.GateTiles
import proofs.«160136_j5179730559367_2_alg».proof.Proof.GateGlue
import proofs.«160136_j5179730559367_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Slabs

variable (m : (ℓ : Loc nD τ sig) → Buf (Elt Ideal) ℓ) (ρ : Dev nD → PrngReg) (c : Dev nD)

/-- The windows' blocks at a point, as vectors of the block shapes. -/
abbrev zB (t : Fin cfg0.N) : Vec Ideal S32x512 .f32 := iblk0 (En1 (F := Ideal) m ρ) c 0 t
abbrev wB1 (t : Fin cfg0.N) : Vec Ideal S512x512 .f32 := iblk0 (En1 (F := Ideal) m ρ) c 1 t
abbrev wB2 (t : Fin cfg0.N) : Vec Ideal S512x512 .f32 := iblk0 (En1 (F := Ideal) m ρ) c 2 t
abbrev wB3 (t : Fin cfg0.N) : Vec Ideal S512x512 .f32 := iblk0 (En1 (F := Ideal) m ρ) c 3 t
abbrev wB4 (t : Fin cfg0.N) : Vec Ideal S512x512 .f32 := iblk0 (En1 (F := Ideal) m ρ) c 4 t
abbrev cB (t : Fin cfg0.N) : Vec Ideal S1x512 .f32 := iblk0 (En1 (F := Ideal) m ρ) c 5 t

/-! ## What the region is entered from -/

theorem En1_z (b : Fin 32) (j : Fin 1536) :
    ((En1 (F := Ideal) m ρ) c main_v4 : S32x1536.Idx → EReal) (ix2 b j) = Cert.Spec.zrow (m ((c.tc : Thread nD τ).loc main_arg0)) (m ((c.tc : Thread nD τ).loc main_arg1)) b j :=
  Cert.GateValue.z_apply m c b j
theorem En1_c0 (n : Fin 1024) :
    ((En1 (F := Ideal) m ρ) c main_v5 : S1x1024.Idx → EReal) (ix2 (0 : Fin 1) n) = (m ((c.tc : Thread nD τ).loc main_arg2)) (ix1 n) :=
  Cert.GateValue.c0row_apply m c n
theorem En1_w3 : (En1 (F := Ideal) m ρ) c main_arg3 = (m ((c.tc : Thread nD τ).loc main_arg3)) :=
  StableHlo.after_of_writes_sub hostOps0 _ hostOps0_writes (show main_arg3 ∉ hostOps0_W by decide)
theorem En1_w4 : (En1 (F := Ideal) m ρ) c main_arg4 = (m ((c.tc : Thread nD τ).loc main_arg4)) :=
  StableHlo.after_of_writes_sub hostOps0 _ hostOps0_writes (show main_arg4 ∉ hostOps0_W by decide)
theorem En1_w5 : (En1 (F := Ideal) m ρ) c main_arg5 = (m ((c.tc : Thread nD τ).loc main_arg5)) :=
  StableHlo.after_of_writes_sub hostOps0 _ hostOps0_writes (show main_arg5 ∉ hostOps0_W by decide)
theorem En1_w6 : (En1 (F := Ideal) m ρ) c main_arg6 = (m ((c.tc : Thread nD τ).loc main_arg6)) :=
  StableHlo.after_of_writes_sub hostOps0 _ hostOps0_writes (show main_arg6 ∉ hostOps0_W by decide)

/-! ## The windows' blocks in terms of the arguments, by reduction step -/

theorem blk_z0 (t : Fin cfg0.N) (h : t.val % 3 = 0) (b : Fin 32) (j : Fin 512) :
    zB m ρ c t (ix2 b j) = Cert.Spec.zrow (m ((c.tc : Thread nD τ).loc main_arg0)) (m ((c.tc : Thread nD τ).loc main_arg1)) b (⟨j.val, by omega⟩ : Fin 1536) :=
  (iblk0_0_apply (En1 (F := Ideal) m ρ) c t b j).trans ((En1_z m ρ c b _).trans
    (congrArg (Cert.Spec.zrow (m ((c.tc : Thread nD τ).loc main_arg0)) (m ((c.tc : Thread nD τ).loc main_arg1)) b) (Fin.ext (by show 512 * (t.val % 3) + j.val = j.val; omega))))

theorem blk_z1 (t : Fin cfg0.N) (h : t.val % 3 = 1) (b : Fin 32) (j : Fin 512) :
    zB m ρ c t (ix2 b j) = Cert.Spec.zrow (m ((c.tc : Thread nD τ).loc main_arg0)) (m ((c.tc : Thread nD τ).loc main_arg1)) b (⟨512 + j.val, by omega⟩ : Fin 1536) :=
  (iblk0_0_apply (En1 (F := Ideal) m ρ) c t b j).trans ((En1_z m ρ c b _).trans
    (congrArg (Cert.Spec.zrow (m ((c.tc : Thread nD τ).loc main_arg0)) (m ((c.tc : Thread nD τ).loc main_arg1)) b) (Fin.ext (by show 512 * (t.val % 3) + j.val = 512 + j.val; omega))))

theorem blk_z2 (t : Fin cfg0.N) (h : t.val % 3 = 2) (b : Fin 32) (j : Fin 512) :
    zB m ρ c t (ix2 b j) = Cert.Spec.zrow (m ((c.tc : Thread nD τ).loc main_arg0)) (m ((c.tc : Thread nD τ).loc main_arg1)) b (⟨1024 + j.val, by omega⟩ : Fin 1536) :=
  (iblk0_0_apply (En1 (F := Ideal) m ρ) c t b j).trans ((En1_z m ρ c b _).trans
    (congrArg (Cert.Spec.zrow (m ((c.tc : Thread nD τ).loc main_arg0)) (m ((c.tc : Thread nD τ).loc main_arg1)) b) (Fin.ext (by show 512 * (t.val % 3) + j.val = 1024 + j.val; omega))))

theorem blk_w0_0 (t : Fin cfg0.N) (h : t.val % 3 = 0) (n : Fin 1024) (e : Fin 512) (hn : n.val = 512 * (t.val / 3) + e.val) (j : Fin 512) :
    wB1 m ρ c t (ix2 j e) = (m ((c.tc : Thread nD τ).loc main_arg3)) (ix2 (⟨j.val, by omega⟩ : Fin 1536) n) :=
  (iblk0_1_apply (En1 (F := Ideal) m ρ) c t j e).trans ((congrFun (En1_w3 m ρ c) _).trans
    (congrArg (m ((c.tc : Thread nD τ).loc main_arg3)) (congrArg₂ ix2 (Fin.ext (by show 512 * (t.val % 3) + j.val = j.val; omega)) (Fin.ext (by show 512 * (t.val / 3) + e.val = n.val; omega)))))

theorem blk_w0_1 (t : Fin cfg0.N) (h : t.val % 3 = 1) (n : Fin 1024) (e : Fin 512) (hn : n.val = 512 * (t.val / 3) + e.val) (j : Fin 512) :
    wB1 m ρ c t (ix2 j e) = (m ((c.tc : Thread nD τ).loc main_arg3)) (ix2 (⟨512 + j.val, by omega⟩ : Fin 1536) n) :=
  (iblk0_1_apply (En1 (F := Ideal) m ρ) c t j e).trans ((congrFun (En1_w3 m ρ c) _).trans
    (congrArg (m ((c.tc : Thread nD τ).loc main_arg3)) (congrArg₂ ix2 (Fin.ext (by show 512 * (t.val % 3) + j.val = 512 + j.val; omega)) (Fin.ext (by show 512 * (t.val / 3) + e.val = n.val; omega)))))

theorem blk_w0_2 (t : Fin cfg0.N) (h : t.val % 3 = 2) (n : Fin 1024) (e : Fin 512) (hn : n.val = 512 * (t.val / 3) + e.val) (j : Fin 512) :
    wB1 m ρ c t (ix2 j e) = (m ((c.tc : Thread nD τ).loc main_arg3)) (ix2 (⟨1024 + j.val, by omega⟩ : Fin 1536) n) :=
  (iblk0_1_apply (En1 (F := Ideal) m ρ) c t j e).trans ((congrFun (En1_w3 m ρ c) _).trans
    (congrArg (m ((c.tc : Thread nD τ).loc main_arg3)) (congrArg₂ ix2 (Fin.ext (by show 512 * (t.val % 3) + j.val = 1024 + j.val; omega)) (Fin.ext (by show 512 * (t.val / 3) + e.val = n.val; omega)))))

theorem blk_w1_0 (t : Fin cfg0.N) (h : t.val % 3 = 0) (n : Fin 1024) (e : Fin 512) (hn : n.val = 512 * (t.val / 3) + e.val) (j : Fin 512) :
    wB2 m ρ c t (ix2 j e) = (m ((c.tc : Thread nD τ).loc main_arg4)) (ix2 (⟨j.val, by omega⟩ : Fin 1536) n) :=
  (iblk0_2_apply (En1 (F := Ideal) m ρ) c t j e).trans ((congrFun (En1_w4 m ρ c) _).trans
    (congrArg (m ((c.tc : Thread nD τ).loc main_arg4)) (congrArg₂ ix2 (Fin.ext (by show 512 * (t.val % 3) + j.val = j.val; omega)) (Fin.ext (by show 512 * (t.val / 3) + e.val = n.val; omega)))))

theorem blk_w1_1 (t : Fin cfg0.N) (h : t.val % 3 = 1) (n : Fin 1024) (e : Fin 512) (hn : n.val = 512 * (t.val / 3) + e.val) (j : Fin 512) :
    wB2 m ρ c t (ix2 j e) = (m ((c.tc : Thread nD τ).loc main_arg4)) (ix2 (⟨512 + j.val, by omega⟩ : Fin 1536) n) :=
  (iblk0_2_apply (En1 (F := Ideal) m ρ) c t j e).trans ((congrFun (En1_w4 m ρ c) _).trans
    (congrArg (m ((c.tc : Thread nD τ).loc main_arg4)) (congrArg₂ ix2 (Fin.ext (by show 512 * (t.val % 3) + j.val = 512 + j.val; omega)) (Fin.ext (by show 512 * (t.val / 3) + e.val = n.val; omega)))))

theorem blk_w1_2 (t : Fin cfg0.N) (h : t.val % 3 = 2) (n : Fin 1024) (e : Fin 512) (hn : n.val = 512 * (t.val / 3) + e.val) (j : Fin 512) :
    wB2 m ρ c t (ix2 j e) = (m ((c.tc : Thread nD τ).loc main_arg4)) (ix2 (⟨1024 + j.val, by omega⟩ : Fin 1536) n) :=
  (iblk0_2_apply (En1 (F := Ideal) m ρ) c t j e).trans ((congrFun (En1_w4 m ρ c) _).trans
    (congrArg (m ((c.tc : Thread nD τ).loc main_arg4)) (congrArg₂ ix2 (Fin.ext (by show 512 * (t.val % 3) + j.val = 1024 + j.val; omega)) (Fin.ext (by show 512 * (t.val / 3) + e.val = n.val; omega)))))

theorem blk_w2_0 (t : Fin cfg0.N) (h : t.val % 3 = 0) (n : Fin 1024) (e : Fin 512) (hn : n.val = 512 * (t.val / 3) + e.val) (j : Fin 512) :
    wB3 m ρ c t (ix2 j e) = (m ((c.tc : Thread nD τ).loc main_arg5)) (ix2 (⟨j.val, by omega⟩ : Fin 1536) n) :=
  (iblk0_3_apply (En1 (F := Ideal) m ρ) c t j e).trans ((congrFun (En1_w5 m ρ c) _).trans
    (congrArg (m ((c.tc : Thread nD τ).loc main_arg5)) (congrArg₂ ix2 (Fin.ext (by show 512 * (t.val % 3) + j.val = j.val; omega)) (Fin.ext (by show 512 * (t.val / 3) + e.val = n.val; omega)))))

theorem blk_w2_1 (t : Fin cfg0.N) (h : t.val % 3 = 1) (n : Fin 1024) (e : Fin 512) (hn : n.val = 512 * (t.val / 3) + e.val) (j : Fin 512) :
    wB3 m ρ c t (ix2 j e) = (m ((c.tc : Thread nD τ).loc main_arg5)) (ix2 (⟨512 + j.val, by omega⟩ : Fin 1536) n) :=
  (iblk0_3_apply (En1 (F := Ideal) m ρ) c t j e).trans ((congrFun (En1_w5 m ρ c) _).trans
    (congrArg (m ((c.tc : Thread nD τ).loc main_arg5)) (congrArg₂ ix2 (Fin.ext (by show 512 * (t.val % 3) + j.val = 512 + j.val; omega)) (Fin.ext (by show 512 * (t.val / 3) + e.val = n.val; omega)))))

theorem blk_w2_2 (t : Fin cfg0.N) (h : t.val % 3 = 2) (n : Fin 1024) (e : Fin 512) (hn : n.val = 512 * (t.val / 3) + e.val) (j : Fin 512) :
    wB3 m ρ c t (ix2 j e) = (m ((c.tc : Thread nD τ).loc main_arg5)) (ix2 (⟨1024 + j.val, by omega⟩ : Fin 1536) n) :=
  (iblk0_3_apply (En1 (F := Ideal) m ρ) c t j e).trans ((congrFun (En1_w5 m ρ c) _).trans
    (congrArg (m ((c.tc : Thread nD τ).loc main_arg5)) (congrArg₂ ix2 (Fin.ext (by show 512 * (t.val % 3) + j.val = 1024 + j.val; omega)) (Fin.ext (by show 512 * (t.val / 3) + e.val = n.val; omega)))))

theorem blk_w3_0 (t : Fin cfg0.N) (h : t.val % 3 = 0) (n : Fin 1024) (e : Fin 512) (hn : n.val = 512 * (t.val / 3) + e.val) (j : Fin 512) :
    wB4 m ρ c t (ix2 j e) = (m ((c.tc : Thread nD τ).loc main_arg6)) (ix2 (⟨j.val, by omega⟩ : Fin 1536) n) :=
  (iblk0_4_apply (En1 (F := Ideal) m ρ) c t j e).trans ((congrFun (En1_w6 m ρ c) _).trans
    (congrArg (m ((c.tc : Thread nD τ).loc main_arg6)) (congrArg₂ ix2 (Fin.ext (by show 512 * (t.val % 3) + j.val = j.val; omega)) (Fin.ext (by show 512 * (t.val / 3) + e.val = n.val; omega)))))

theorem blk_w3_1 (t : Fin cfg0.N) (h : t.val % 3 = 1) (n : Fin 1024) (e : Fin 512) (hn : n.val = 512 * (t.val / 3) + e.val) (j : Fin 512) :
    wB4 m ρ c t (ix2 j e) = (m ((c.tc : Thread nD τ).loc main_arg6)) (ix2 (⟨512 + j.val, by omega⟩ : Fin 1536) n) :=
  (iblk0_4_apply (En1 (F := Ideal) m ρ) c t j e).trans ((congrFun (En1_w6 m ρ c) _).trans
    (congrArg (m ((c.tc : Thread nD τ).loc main_arg6)) (congrArg₂ ix2 (Fin.ext (by show 512 * (t.val % 3) + j.val = 512 + j.val; omega)) (Fin.ext (by show 512 * (t.val / 3) + e.val = n.val; omega)))))

theorem blk_w3_2 (t : Fin cfg0.N) (h : t.val % 3 = 2) (n : Fin 1024) (e : Fin 512) (hn : n.val = 512 * (t.val / 3) + e.val) (j : Fin 512) :
    wB4 m ρ c t (ix2 j e) = (m ((c.tc : Thread nD τ).loc main_arg6)) (ix2 (⟨1024 + j.val, by omega⟩ : Fin 1536) n) :=
  (iblk0_4_apply (En1 (F := Ideal) m ρ) c t j e).trans ((congrFun (En1_w6 m ρ c) _).trans
    (congrArg (m ((c.tc : Thread nD τ).loc main_arg6)) (congrArg₂ ix2 (Fin.ext (by show 512 * (t.val % 3) + j.val = 1024 + j.val; omega)) (Fin.ext (by show 512 * (t.val / 3) + e.val = n.val; omega)))))

theorem blk_c0 (t : Fin cfg0.N) (n : Fin 1024) (e : Fin 512) (hn : n.val = 512 * (t.val / 3) + e.val) :
    cB m ρ c t (ix2 (0 : Fin 1) e) = (m ((c.tc : Thread nD τ).loc main_arg2)) (ix1 n) :=
  (iblk0_5_apply (En1 (F := Ideal) m ρ) c t e).trans ((congrArg ((En1 (F := Ideal) m ρ) c main_v5) (congrArg₂ ix2 rfl (Fin.ext (by show 512 * (t.val / 3) + e.val = n.val; omega)))).trans (En1_c0 m ρ c n))

/-! ## One reduction step of slab `q` -/

theorem acc_first_0 (t : Fin cfg0.N) (h0 : t.val % 3 = 0) (b : Fin 32) (e : Fin 512) :
    (outsAt0 (En1 (F := Ideal) m ρ) c t.val t.isLt).2 (ix2 b (⟨e.val, by omega⟩ : Fin 2048))
      = 0 + ∑ j : Fin 512, zB m ρ c t (ix2 b j) * wB1 m ρ c t (ix2 j e) := by
  have hn2 : ¬t.val % 3 = 2 := by omega
  rw [outsAt0_A (En1 (F := Ideal) m ρ) c t h0 hn2]
  dsimp only
  exact accA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => hn2 ((hcond0_1 t).mp h)) (zB m ρ c t) (wB1 m ρ c t) (wB2 m ρ c t) (wB3 m ρ c t) (wB4 m ρ c t) (cB m ρ c t) b e

theorem acc_mid_0 (t : Fin cfg0.N) (h1 : t.val % 3 = 1) (b : Fin 32) (e : Fin 512) :
    (outsAt0 (En1 (F := Ideal) m ρ) c t.val t.isLt).2 (ix2 b (⟨e.val, by omega⟩ : Fin 2048))
      = (outsAt0 (En1 (F := Ideal) m ρ) c (t.val - 1) (Nat.lt_of_le_of_lt (Nat.sub_le _ _) t.isLt)).2 (ix2 b (⟨e.val, by omega⟩ : Fin 2048))
        + ∑ j : Fin 512, zB m ρ c t (ix2 b j) * wB1 m ρ c t (ix2 j e) := by
  have hn0 : ¬t.val % 3 = 0 := by omega
  have hn2 : ¬t.val % 3 = 2 := by omega
  rw [outsAt0_B (En1 (F := Ideal) m ρ) c t hn0 hn2]
  dsimp only
  exact accB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) (fun h => hn2 ((hcond0_1 t).mp h)) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_last_0 (t : Fin cfg0.N) (h2 : t.val % 3 = 2) (b : Fin 32) (e : Fin 512) :
    (outsAt0 (En1 (F := Ideal) m ρ) c t.val t.isLt).2 (ix2 b (⟨e.val, by omega⟩ : Fin 2048))
      = (outsAt0 (En1 (F := Ideal) m ρ) c (t.val - 1) (Nat.lt_of_le_of_lt (Nat.sub_le _ _) t.isLt)).2 (ix2 b (⟨e.val, by omega⟩ : Fin 2048))
        + ∑ j : Fin 512, zB m ρ c t (ix2 b j) * wB1 m ρ c t (ix2 j e) := by
  have hn0 : ¬t.val % 3 = 0 := by omega
  rw [outsAt0_C (En1 (F := Ideal) m ρ) c t hn0 h2]
  dsimp only
  exact accC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) ((hcond0_1 t).mpr h2) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_first_1 (t : Fin cfg0.N) (h0 : t.val % 3 = 0) (b : Fin 32) (e : Fin 512) :
    (outsAt0 (En1 (F := Ideal) m ρ) c t.val t.isLt).2 (ix2 b (⟨512 + e.val, by omega⟩ : Fin 2048))
      = 0 + ∑ j : Fin 512, zB m ρ c t (ix2 b j) * wB2 m ρ c t (ix2 j e) := by
  have hn2 : ¬t.val % 3 = 2 := by omega
  rw [outsAt0_A (En1 (F := Ideal) m ρ) c t h0 hn2]
  dsimp only
  exact accA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => hn2 ((hcond0_1 t).mp h)) (zB m ρ c t) (wB1 m ρ c t) (wB2 m ρ c t) (wB3 m ρ c t) (wB4 m ρ c t) (cB m ρ c t) b e

theorem acc_mid_1 (t : Fin cfg0.N) (h1 : t.val % 3 = 1) (b : Fin 32) (e : Fin 512) :
    (outsAt0 (En1 (F := Ideal) m ρ) c t.val t.isLt).2 (ix2 b (⟨512 + e.val, by omega⟩ : Fin 2048))
      = (outsAt0 (En1 (F := Ideal) m ρ) c (t.val - 1) (Nat.lt_of_le_of_lt (Nat.sub_le _ _) t.isLt)).2 (ix2 b (⟨512 + e.val, by omega⟩ : Fin 2048))
        + ∑ j : Fin 512, zB m ρ c t (ix2 b j) * wB2 m ρ c t (ix2 j e) := by
  have hn0 : ¬t.val % 3 = 0 := by omega
  have hn2 : ¬t.val % 3 = 2 := by omega
  rw [outsAt0_B (En1 (F := Ideal) m ρ) c t hn0 hn2]
  dsimp only
  exact accB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) (fun h => hn2 ((hcond0_1 t).mp h)) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_last_1 (t : Fin cfg0.N) (h2 : t.val % 3 = 2) (b : Fin 32) (e : Fin 512) :
    (outsAt0 (En1 (F := Ideal) m ρ) c t.val t.isLt).2 (ix2 b (⟨512 + e.val, by omega⟩ : Fin 2048))
      = (outsAt0 (En1 (F := Ideal) m ρ) c (t.val - 1) (Nat.lt_of_le_of_lt (Nat.sub_le _ _) t.isLt)).2 (ix2 b (⟨512 + e.val, by omega⟩ : Fin 2048))
        + ∑ j : Fin 512, zB m ρ c t (ix2 b j) * wB2 m ρ c t (ix2 j e) := by
  have hn0 : ¬t.val % 3 = 0 := by omega
  rw [outsAt0_C (En1 (F := Ideal) m ρ) c t hn0 h2]
  dsimp only
  exact accC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) ((hcond0_1 t).mpr h2) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_first_2 (t : Fin cfg0.N) (h0 : t.val % 3 = 0) (b : Fin 32) (e : Fin 512) :
    (outsAt0 (En1 (F := Ideal) m ρ) c t.val t.isLt).2 (ix2 b (⟨1024 + e.val, by omega⟩ : Fin 2048))
      = 0 + ∑ j : Fin 512, zB m ρ c t (ix2 b j) * wB3 m ρ c t (ix2 j e) := by
  have hn2 : ¬t.val % 3 = 2 := by omega
  rw [outsAt0_A (En1 (F := Ideal) m ρ) c t h0 hn2]
  dsimp only
  exact accA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => hn2 ((hcond0_1 t).mp h)) (zB m ρ c t) (wB1 m ρ c t) (wB2 m ρ c t) (wB3 m ρ c t) (wB4 m ρ c t) (cB m ρ c t) b e

theorem acc_mid_2 (t : Fin cfg0.N) (h1 : t.val % 3 = 1) (b : Fin 32) (e : Fin 512) :
    (outsAt0 (En1 (F := Ideal) m ρ) c t.val t.isLt).2 (ix2 b (⟨1024 + e.val, by omega⟩ : Fin 2048))
      = (outsAt0 (En1 (F := Ideal) m ρ) c (t.val - 1) (Nat.lt_of_le_of_lt (Nat.sub_le _ _) t.isLt)).2 (ix2 b (⟨1024 + e.val, by omega⟩ : Fin 2048))
        + ∑ j : Fin 512, zB m ρ c t (ix2 b j) * wB3 m ρ c t (ix2 j e) := by
  have hn0 : ¬t.val % 3 = 0 := by omega
  have hn2 : ¬t.val % 3 = 2 := by omega
  rw [outsAt0_B (En1 (F := Ideal) m ρ) c t hn0 hn2]
  dsimp only
  exact accB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) (fun h => hn2 ((hcond0_1 t).mp h)) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_last_2 (t : Fin cfg0.N) (h2 : t.val % 3 = 2) (b : Fin 32) (e : Fin 512) :
    (outsAt0 (En1 (F := Ideal) m ρ) c t.val t.isLt).2 (ix2 b (⟨1024 + e.val, by omega⟩ : Fin 2048))
      = (outsAt0 (En1 (F := Ideal) m ρ) c (t.val - 1) (Nat.lt_of_le_of_lt (Nat.sub_le _ _) t.isLt)).2 (ix2 b (⟨1024 + e.val, by omega⟩ : Fin 2048))
        + ∑ j : Fin 512, zB m ρ c t (ix2 b j) * wB3 m ρ c t (ix2 j e) := by
  have hn0 : ¬t.val % 3 = 0 := by omega
  rw [outsAt0_C (En1 (F := Ideal) m ρ) c t hn0 h2]
  dsimp only
  exact accC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) ((hcond0_1 t).mpr h2) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_first_3 (t : Fin cfg0.N) (h0 : t.val % 3 = 0) (b : Fin 32) (e : Fin 512) :
    (outsAt0 (En1 (F := Ideal) m ρ) c t.val t.isLt).2 (ix2 b (⟨1536 + e.val, by omega⟩ : Fin 2048))
      = 0 + ∑ j : Fin 512, zB m ρ c t (ix2 b j) * wB4 m ρ c t (ix2 j e) := by
  have hn2 : ¬t.val % 3 = 2 := by omega
  rw [outsAt0_A (En1 (F := Ideal) m ρ) c t h0 hn2]
  dsimp only
  exact accA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => hn2 ((hcond0_1 t).mp h)) (zB m ρ c t) (wB1 m ρ c t) (wB2 m ρ c t) (wB3 m ρ c t) (wB4 m ρ c t) (cB m ρ c t) b e

theorem acc_mid_3 (t : Fin cfg0.N) (h1 : t.val % 3 = 1) (b : Fin 32) (e : Fin 512) :
    (outsAt0 (En1 (F := Ideal) m ρ) c t.val t.isLt).2 (ix2 b (⟨1536 + e.val, by omega⟩ : Fin 2048))
      = (outsAt0 (En1 (F := Ideal) m ρ) c (t.val - 1) (Nat.lt_of_le_of_lt (Nat.sub_le _ _) t.isLt)).2 (ix2 b (⟨1536 + e.val, by omega⟩ : Fin 2048))
        + ∑ j : Fin 512, zB m ρ c t (ix2 b j) * wB4 m ρ c t (ix2 j e) := by
  have hn0 : ¬t.val % 3 = 0 := by omega
  have hn2 : ¬t.val % 3 = 2 := by omega
  rw [outsAt0_B (En1 (F := Ideal) m ρ) c t hn0 hn2]
  dsimp only
  exact accB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) (fun h => hn2 ((hcond0_1 t).mp h)) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

theorem acc_last_3 (t : Fin cfg0.N) (h2 : t.val % 3 = 2) (b : Fin 32) (e : Fin 512) :
    (outsAt0 (En1 (F := Ideal) m ρ) c t.val t.isLt).2 (ix2 b (⟨1536 + e.val, by omega⟩ : Fin 2048))
      = (outsAt0 (En1 (F := Ideal) m ρ) c (t.val - 1) (Nat.lt_of_le_of_lt (Nat.sub_le _ _) t.isLt)).2 (ix2 b (⟨1536 + e.val, by omega⟩ : Fin 2048))
        + ∑ j : Fin 512, zB m ρ c t (ix2 b j) * wB4 m ρ c t (ix2 j e) := by
  have hn0 : ¬t.val % 3 = 0 := by omega
  rw [outsAt0_C (En1 (F := Ideal) m ρ) c t hn0 h2]
  dsimp only
  exact accC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) ((hcond0_1 t).mpr h2) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e

/-! ## Three steps make the gate's whole sum -/

theorem gate_0 (t : Fin cfg0.N) (h2 : t.val % 3 = 2) (b : Fin 32) (e : Fin 512) (n : Fin 1024) (hn : n.val = 512 * (t.val / 3) + e.val) :
    (outsAt0 (En1 (F := Ideal) m ρ) c t.val t.isLt).2 (ix2 b (⟨e.val, by omega⟩ : Fin 2048))
      = Cert.Spec.gate (Cert.Spec.zrow (m ((c.tc : Thread nD τ).loc main_arg0)) (m ((c.tc : Thread nD τ).loc main_arg1)) b) (m ((c.tc : Thread nD τ).loc main_arg3)) n := by
  have hN := lt6 t
  have hlt1 : t.val - 1 < cfg0.N := by have := t.isLt; omega
  have hlt2 : t.val - 1 - 1 < cfg0.N := by have := t.isLt; omega
  have h1 : (⟨t.val - 1, hlt1⟩ : Fin cfg0.N).val % 3 = 1 := by show (t.val - 1) % 3 = 1; omega
  have h0 : (⟨t.val - 1 - 1, hlt2⟩ : Fin cfg0.N).val % 3 = 0 := by show (t.val - 1 - 1) % 3 = 0; omega
  have hn1 : n.val = 512 * ((⟨t.val - 1, hlt1⟩ : Fin cfg0.N).val / 3) + e.val := by show n.val = 512 * ((t.val - 1) / 3) + e.val; omega
  have hn0 : n.val = 512 * ((⟨t.val - 1 - 1, hlt2⟩ : Fin cfg0.N).val / 3) + e.val := by show n.val = 512 * ((t.val - 1 - 1) / 3) + e.val; omega
  refine (acc_last_0 m ρ c t h2 b e).trans ?_
  refine (congrArg (fun v : EReal => v + _) ((acc_mid_0 m ρ c ⟨t.val - 1, hlt1⟩ h1 b e).trans
    (congrArg (fun v : EReal => v + _) (acc_first_0 m ρ c ⟨t.val - 1 - 1, hlt2⟩ h0 b e)))).trans ?_
  simp only [blk_z2 m ρ c t h2, blk_w0_2 m ρ c t h2 n e hn, blk_z1 m ρ c ⟨t.val - 1, hlt1⟩ h1, blk_w0_1 m ρ c ⟨t.val - 1, hlt1⟩ h1 n e hn1,
    blk_z0 m ρ c ⟨t.val - 1 - 1, hlt2⟩ h0, blk_w0_0 m ρ c ⟨t.val - 1 - 1, hlt2⟩ h0 n e hn0]
  exact Cert.GateValue.gate_tiles _ _ n

theorem gate_1 (t : Fin cfg0.N) (h2 : t.val % 3 = 2) (b : Fin 32) (e : Fin 512) (n : Fin 1024) (hn : n.val = 512 * (t.val / 3) + e.val) :
    (outsAt0 (En1 (F := Ideal) m ρ) c t.val t.isLt).2 (ix2 b (⟨512 + e.val, by omega⟩ : Fin 2048))
      = Cert.Spec.gate (Cert.Spec.zrow (m ((c.tc : Thread nD τ).loc main_arg0)) (m ((c.tc : Thread nD τ).loc main_arg1)) b) (m ((c.tc : Thread nD τ).loc main_arg4)) n := by
  have hN := lt6 t
  have hlt1 : t.val - 1 < cfg0.N := by have := t.isLt; omega
  have hlt2 : t.val - 1 - 1 < cfg0.N := by have := t.isLt; omega
  have h1 : (⟨t.val - 1, hlt1⟩ : Fin cfg0.N).val % 3 = 1 := by show (t.val - 1) % 3 = 1; omega
  have h0 : (⟨t.val - 1 - 1, hlt2⟩ : Fin cfg0.N).val % 3 = 0 := by show (t.val - 1 - 1) % 3 = 0; omega
  have hn1 : n.val = 512 * ((⟨t.val - 1, hlt1⟩ : Fin cfg0.N).val / 3) + e.val := by show n.val = 512 * ((t.val - 1) / 3) + e.val; omega
  have hn0 : n.val = 512 * ((⟨t.val - 1 - 1, hlt2⟩ : Fin cfg0.N).val / 3) + e.val := by show n.val = 512 * ((t.val - 1 - 1) / 3) + e.val; omega
  refine (acc_last_1 m ρ c t h2 b e).trans ?_
  refine (congrArg (fun v : EReal => v + _) ((acc_mid_1 m ρ c ⟨t.val - 1, hlt1⟩ h1 b e).trans
    (congrArg (fun v : EReal => v + _) (acc_first_1 m ρ c ⟨t.val - 1 - 1, hlt2⟩ h0 b e)))).trans ?_
  simp only [blk_z2 m ρ c t h2, blk_w1_2 m ρ c t h2 n e hn, blk_z1 m ρ c ⟨t.val - 1, hlt1⟩ h1, blk_w1_1 m ρ c ⟨t.val - 1, hlt1⟩ h1 n e hn1,
    blk_z0 m ρ c ⟨t.val - 1 - 1, hlt2⟩ h0, blk_w1_0 m ρ c ⟨t.val - 1 - 1, hlt2⟩ h0 n e hn0]
  exact Cert.GateValue.gate_tiles _ _ n

theorem gate_2 (t : Fin cfg0.N) (h2 : t.val % 3 = 2) (b : Fin 32) (e : Fin 512) (n : Fin 1024) (hn : n.val = 512 * (t.val / 3) + e.val) :
    (outsAt0 (En1 (F := Ideal) m ρ) c t.val t.isLt).2 (ix2 b (⟨1024 + e.val, by omega⟩ : Fin 2048))
      = Cert.Spec.gate (Cert.Spec.zrow (m ((c.tc : Thread nD τ).loc main_arg0)) (m ((c.tc : Thread nD τ).loc main_arg1)) b) (m ((c.tc : Thread nD τ).loc main_arg5)) n := by
  have hN := lt6 t
  have hlt1 : t.val - 1 < cfg0.N := by have := t.isLt; omega
  have hlt2 : t.val - 1 - 1 < cfg0.N := by have := t.isLt; omega
  have h1 : (⟨t.val - 1, hlt1⟩ : Fin cfg0.N).val % 3 = 1 := by show (t.val - 1) % 3 = 1; omega
  have h0 : (⟨t.val - 1 - 1, hlt2⟩ : Fin cfg0.N).val % 3 = 0 := by show (t.val - 1 - 1) % 3 = 0; omega
  have hn1 : n.val = 512 * ((⟨t.val - 1, hlt1⟩ : Fin cfg0.N).val / 3) + e.val := by show n.val = 512 * ((t.val - 1) / 3) + e.val; omega
  have hn0 : n.val = 512 * ((⟨t.val - 1 - 1, hlt2⟩ : Fin cfg0.N).val / 3) + e.val := by show n.val = 512 * ((t.val - 1 - 1) / 3) + e.val; omega
  refine (acc_last_2 m ρ c t h2 b e).trans ?_
  refine (congrArg (fun v : EReal => v + _) ((acc_mid_2 m ρ c ⟨t.val - 1, hlt1⟩ h1 b e).trans
    (congrArg (fun v : EReal => v + _) (acc_first_2 m ρ c ⟨t.val - 1 - 1, hlt2⟩ h0 b e)))).trans ?_
  simp only [blk_z2 m ρ c t h2, blk_w2_2 m ρ c t h2 n e hn, blk_z1 m ρ c ⟨t.val - 1, hlt1⟩ h1, blk_w2_1 m ρ c ⟨t.val - 1, hlt1⟩ h1 n e hn1,
    blk_z0 m ρ c ⟨t.val - 1 - 1, hlt2⟩ h0, blk_w2_0 m ρ c ⟨t.val - 1 - 1, hlt2⟩ h0 n e hn0]
  exact Cert.GateValue.gate_tiles _ _ n

theorem gate_3 (t : Fin cfg0.N) (h2 : t.val % 3 = 2) (b : Fin 32) (e : Fin 512) (n : Fin 1024) (hn : n.val = 512 * (t.val / 3) + e.val) :
    (outsAt0 (En1 (F := Ideal) m ρ) c t.val t.isLt).2 (ix2 b (⟨1536 + e.val, by omega⟩ : Fin 2048))
      = Cert.Spec.gate (Cert.Spec.zrow (m ((c.tc : Thread nD τ).loc main_arg0)) (m ((c.tc : Thread nD τ).loc main_arg1)) b) (m ((c.tc : Thread nD τ).loc main_arg6)) n := by
  have hN := lt6 t
  have hlt1 : t.val - 1 < cfg0.N := by have := t.isLt; omega
  have hlt2 : t.val - 1 - 1 < cfg0.N := by have := t.isLt; omega
  have h1 : (⟨t.val - 1, hlt1⟩ : Fin cfg0.N).val % 3 = 1 := by show (t.val - 1) % 3 = 1; omega
  have h0 : (⟨t.val - 1 - 1, hlt2⟩ : Fin cfg0.N).val % 3 = 0 := by show (t.val - 1 - 1) % 3 = 0; omega
  have hn1 : n.val = 512 * ((⟨t.val - 1, hlt1⟩ : Fin cfg0.N).val / 3) + e.val := by show n.val = 512 * ((t.val - 1) / 3) + e.val; omega
  have hn0 : n.val = 512 * ((⟨t.val - 1 - 1, hlt2⟩ : Fin cfg0.N).val / 3) + e.val := by show n.val = 512 * ((t.val - 1 - 1) / 3) + e.val; omega
  refine (acc_last_3 m ρ c t h2 b e).trans ?_
  refine (congrArg (fun v : EReal => v + _) ((acc_mid_3 m ρ c ⟨t.val - 1, hlt1⟩ h1 b e).trans
    (congrArg (fun v : EReal => v + _) (acc_first_3 m ρ c ⟨t.val - 1 - 1, hlt2⟩ h0 b e)))).trans ?_
  simp only [blk_z2 m ρ c t h2, blk_w3_2 m ρ c t h2 n e hn, blk_z1 m ρ c ⟨t.val - 1, hlt1⟩ h1, blk_w3_1 m ρ c ⟨t.val - 1, hlt1⟩ h1 n e hn1,
    blk_z0 m ρ c ⟨t.val - 1 - 1, hlt2⟩ h0, blk_w3_0 m ρ c ⟨t.val - 1 - 1, hlt2⟩ h0 n e hn0]
  exact Cert.GateValue.gate_tiles _ _ n

/-- What a last reduction step stores at `(b, e)` of its block: the hidden state at column `n = 512 (t / 3) + e`. -/
theorem hid_block (t : Fin cfg0.N) (h2 : t.val % 3 = 2) (b : Fin 32) (e : Fin 512) (n : Fin 1024) (hn : n.val = 512 * (t.val / 3) + e.val) :
    (outsAt0 (En1 (F := Ideal) m ρ) c t.val t.isLt).1 (ix2 b e)
      = Cert.Spec.hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b n := by
  have hn0 : ¬t.val % 3 = 0 := by omega
  have g0 := gate_0 m ρ c t h2 b e n hn
  have g1 := gate_1 m ρ c t h2 b e n hn
  have g2 := gate_2 m ρ c t h2 b e n hn
  have g3 := gate_3 m ρ c t h2 b e n hn
  rw [outsAt0_C (En1 (F := Ideal) m ρ) c t hn0 h2] at g0 g1 g2 g3
  dsimp only at g0 g1 g2 g3
  rw [outsAt0_C (En1 (F := Ideal) m ρ) c t hn0 h2]
  dsimp only
  refine (outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => hn0 ((hcond0_0 t).mp h)) ((hcond0_1 t).mpr h2) (zB m ρ c t) (wB1 m ρ c t) (wB2 m ρ c t) (wB3 m ρ c t) (wB4 m ρ c t) (cB m ρ c t) (outsAt0 (En1 (F := Ideal) m ρ) c (t.val - 1) (Nat.lt_of_le_of_lt (Nat.sub_le _ _) t.isLt)).2 b e).trans ?_
  rw [g0, g1, g2, g3, blk_c0 m ρ c t n e hn]
  rfl

end Cert.KernelIdeal.Hand

end
-- ==== Proof.KI.GateArray.lean ====
/-
  The gate kernel's region at the extended reals: its output array.

  The output window's block is written back at each column tile's last reduction step, and the two tiles' blocks cover
  the [32,1024] array; each written block is the hidden state at the tile's columns.  So the array ends holding the
  hidden state, index by index.
-/
import proofs.«160136_j5179730559367_2_alg».proof.Proof.KI.GateSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg) (c : Dev nD)

/-- The hidden state as an array over [32,1024]. -/
def hidArr : S32x1024.Idx → EReal := fun i => Cert.Spec.hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1)

/-- An index of the array is in point `t`'s block iff each coordinate is in the block's range on its axis. -/
theorem mem_blk6 (t : Fin cfg0.N) (i : S32x1024.Idx) :
    i ∈ ((cfg0.win 6).blk t).view.set ↔ ∀ a : Fin 2, win0_6.index t a * S32x512.size a ≤ (i a).val ∧ (i a).val < win0_6.index t a * S32x512.size a + S32x512.size a := by
  show i ∈ ((View.whole main_v6).slice (win0_6.rect t)).set ↔ _
  rw [View.set_slice_whole, Rect.mem_set_unit]
  exact Iff.rfl

/-- What a flushing point writes back is its block of the hidden state. -/
theorem flushed6 (t : Fin cfg0.N) (hf : (cfg0.win 6).flush t = true) :
    (dat0 (En1 (F := Ideal) m ρ) c).flushed 6 t = ((cfg0.win 6).blk t).view.read (Elt Ideal) (hidArr m c) := by
  have h2 : t.val % 3 = 2 := (flush0_6 t).mp hf
  have hN := lt6 t
  obtain ⟨-, -, -, -, -, -, -, -, -, -, -, -, e12, e13⟩ := idx_facts0 t
  show (cfg0.win 6).cut (grid0.coords t) ((dat0 (En1 (F := Ideal) m ρ) c).after 6 t) = _
  rw [after0_6]
  funext y
  obtain ⟨b, e, rfl⟩ : ∃ (b : Fin 32) (e : Fin 512), y = ix2 b e := ⟨y 0, y 1, eq_ix2 y⟩
  have hidx : ((cfg0.win 6).blk t).view.emb (ix2 b e) = ix2 b (⟨512 * (t.val / 3) + e.val, by omega⟩ : Fin 1024) := by
    funext a; apply Fin.ext
    match a with
    | ⟨0, _⟩ => show win0_6.index t (0 : Fin 2) * 32 + 1 * b.val = b.val; omega
    | ⟨1, _⟩ => show win0_6.index t (1 : Fin 2) * 512 + 1 * e.val = 512 * (t.val / 3) + e.val; omega
  show (outsAt0 (En1 (F := Ideal) m ρ) c t.val t.isLt).1 (ix2 b e) = hidArr m c (((cfg0.win 6).blk t).view.emb (ix2 b e))
  rw [hidx]
  exact hid_block m ρ c t h2 b e ⟨512 * (t.val / 3) + e.val, by omega⟩ rfl

/-- Every index of the array is in a flushing point's block: the point is the last step of the index's column tile. -/
theorem cover6 (i : S32x1024.Idx) : ∃ t : Fin cfg0.N, (cfg0.win 6).flush t = true ∧ i ∈ ((cfg0.win 6).blk t).view.set := by
  have hi0 : (i 0).val < 32 := (i 0).isLt
  have hi1 : (i 1).val < 1024 := (i 1).isLt
  have hlt : 3 * ((i 1).val / 512) + 2 < cfg0.N := by rw [show cfg0.N = 6 from N_0]; omega
  refine ⟨⟨3 * ((i 1).val / 512) + 2, hlt⟩, (flush0_6 _).mpr (by show (3 * ((i 1).val / 512) + 2) % 3 = 2; omega), ?_⟩
  rw [mem_blk6]
  obtain ⟨-, -, -, -, -, -, -, -, -, -, -, -, e12, e13⟩ := idx_facts0 ⟨3 * ((i 1).val / 512) + 2, hlt⟩
  have e13' : win0_6.index ⟨3 * ((i 1).val / 512) + 2, hlt⟩ (1 : Fin 2) = (3 * ((i 1).val / 512) + 2) / 3 := e13
  intro a
  match a with
  | ⟨0, _⟩ => show win0_6.index ⟨3 * ((i 1).val / 512) + 2, hlt⟩ (0 : Fin 2) * 32 ≤ (i 0).val ∧ (i 0).val < win0_6.index ⟨3 * ((i 1).val / 512) + 2, hlt⟩ (0 : Fin 2) * 32 + 32; omega
  | ⟨1, _⟩ => show win0_6.index ⟨3 * ((i 1).val / 512) + 2, hlt⟩ (1 : Fin 2) * 512 ≤ (i 1).val ∧ (i 1).val < win0_6.index ⟨3 * ((i 1).val / 512) + 2, hlt⟩ (1 : Fin 2) * 512 + 512; omega

/-- THE GATE REGION'S OUTPUT ARRAY is the hidden state. -/
theorem gate_array : (dat0 (En1 (F := Ideal) m ρ) c).arrAt 6 cfg0.N = hidArr m c :=
  (dat0 (En1 (F := Ideal) m ρ) c).arrAt_eq_of_cover 6 (hidArr m c) (fun t hf => flushed6 m ρ c t hf) (cover6)

/-- So the buffer the final-layer kernel reads its hidden state from holds it, index by index. -/
theorem Bd2_hid (b : Fin 32) (n : Fin 1024) :
    (Bd2 (F := Ideal) m ρ c (Proc.devRef .tc main_v6) : S32x1024.Idx → EReal) (ix2 b n)
      = Cert.Spec.hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b n :=
  (congrFun ((Bd2_arr m ρ c 6).trans (gate_array m ρ c)) (ix2 b n))

end Cert.KernelIdeal.Hand

end
-- ==== Proof.KI.FcBlocks.lean ====
/-
  The final-layer region's output array from its blocks, at any float instance and at parameter entry contents `V`.

  The region runs at one grid point and each of its four windows' blocks is its whole array: block index zero on both
  axes, block extents the array's.  So each input block read off its array is the array, what the one point writes back
  is the stored value of the three input arrays, and that one block covers the output array: the output array ends
  holding the stored value of the hidden-state array, the transposed-weights array and the bias-row array as the region
  finds them.
-/
import proofs.«160136_j5179730559367_2_alg».proof.Proof.KI.FcBody
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

section
variable (V : (c : Dev nD) → (b : Ref sig .tc) → Buf (Elt F) ((c : Thread nD τ).loc b))

theorem zero_offsets : (![0, 0] : Fin 2 → Nat) = fun _ => 0 := funext fun a => by fin_cases a <;> rfl

/-- At the one point every window's block index is zero on both axes. -/
theorem block_index1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-! ## Each block is its whole array -/

/-- The hidden state's block is the hidden-state array. -/
theorem iblk1_0_eq (c : Dev nD) (t : Fin cfg1.N) :
    (iblk1 V c 0 t : Vec F S32x1024 .f32) = (V c main_v6 : S32x1024.Idx → Elt F .f32) := by
  obtain ⟨e0, e1, -⟩ := block_index1 t
  funext y
  unfold iblk1
  rw [View.read_apply]
  show V c main_v6 (((cfg1.win 0).blk t).view.emb y) = V c main_v6 y
  refine congrArg (V c main_v6) (funext fun a => Fin.ext ?_)
  match a with
  | ⟨0, _⟩ => show win1_0.index t (0 : Fin 2) * 32 + 1 * (y 0).val = (y 0).val; rw [e0]; omega
  | ⟨1, _⟩ => show win1_0.index t (1 : Fin 2) * 1024 + 1 * (y 1).val = (y 1).val; rw [e1]; omega

/-- The weights' block is the transposed-weights array. -/
theorem iblk1_1_eq (c : Dev nD) (t : Fin cfg1.N) :
    (iblk1 V c 1 t : Vec F S1024x1000 .f32) = (V c main_v7 : S1024x1000.Idx → Elt F .f32) := by
  obtain ⟨-, -, e0, e1, -⟩ := block_index1 t
  funext y
  unfold iblk1
  rw [View.read_apply]
  show V c main_v7 (((cfg1.win 1).blk t).view.emb y) = V c main_v7 y
  refine congrArg (V c main_v7) (funext fun a => Fin.ext ?_)
  match a with
  | ⟨0, _⟩ => show win1_1.index t (0 : Fin 2) * 1024 + 1 * (y 0).val = (y 0).val; rw [e0]; omega
  | ⟨1, _⟩ => show win1_1.index t (1 : Fin 2) * 1000 + 1 * (y 1).val = (y 1).val; rw [e1]; omega

/-- The bias's block is the bias-row array. -/
theorem iblk1_2_eq (c : Dev nD) (t : Fin cfg1.N) :
    (iblk1 V c 2 t : Vec F S1x1000 .f32) = (V c main_v8 : S1x1000.Idx → Elt F .f32) := by
  obtain ⟨-, -, -, -, e0, e1, -⟩ := block_index1 t
  funext y
  unfold iblk1
  rw [View.read_apply]
  show V c main_v8 (((cfg1.win 2).blk t).view.emb y) = V c main_v8 y
  refine congrArg (V c main_v8) (funext fun a => Fin.ext ?_)
  match a with
  | ⟨0, _⟩ => show win1_2.index t (0 : Fin 2) * 1 + 1 * (y 0).val = (y 0).val; rw [e0]; omega
  | ⟨1, _⟩ => show win1_2.index t (1 : Fin 2) * 1000 + 1 * (y 1).val = (y 1).val; rw [e1]; omega

/-- An array over the output's shape read through the output window's block is the array. -/
theorem read_blk1_3 (t : Fin cfg1.N) (G : S32x1000.Idx → Elt F .f32) :
    (((cfg1.win 3).blk t).view.read (Elt F) G : S32x1000.Idx → Elt F .f32) = G := by
  obtain ⟨-, -, -, -, -, -, e0, e1⟩ := block_index1 t
  funext y
  rw [View.read_apply]
  refine congrArg G (funext fun a => Fin.ext ?_)
  match a with
  | ⟨0, _⟩ => show win1_3.index t (0 : Fin 2) * 32 + 1 * (y 0).val = (y 0).val; rw [e0]; omega
  | ⟨1, _⟩ => show win1_3.index t (1 : Fin 2) * 1000 + 1 * (y 1).val = (y 1).val; rw [e1]; omega

/-! ## What the one point writes back, and the array -/

/-- The stored value of the three input arrays as the region finds them. -/
def fcOut (c : Dev nD) : S32x1000.Idx → Elt F .f32 :=
  k1_pay1 (V c main_v6) (V c main_v7) (V c main_v8)

/-- The output window's buffer after the body holds it. -/
theorem after1_3_eq (c : Dev nD) (t : Fin cfg1.N) :
    ((dat1 V c).after 3 t : S32x1000.Idx → Elt F .f32) = fcOut V c := by
  rw [after1_3]
  unfold out1_3
  rw [View.canon_unit_zero zero_offsets]
  simp only [View.ld_unit_zero (S := S32x1024) zero_offsets, View.ld_unit_zero (S := S1024x1000) zero_offsets,
    View.ld_unit_zero (S := S1x1000) zero_offsets]
  unfold fcOut
  rw [iblk1_0_eq V c t, iblk1_1_eq V c t, iblk1_2_eq V c t]

/-- What the point writes back is that value's block. -/
theorem flushed1_3_eq (c : Dev nD) (t : Fin cfg1.N) :
    (dat1 V c).flushed 3 t = ((cfg1.win 3).blk t).view.read (Elt F) (fcOut V c) := by
  show (cfg1.win 3).cut (grid1.coords t) ((dat1 V c).after 3 t) = _
  rw [read_blk1_3 t (fcOut V c), ← after1_3_eq V c t]

/-- An index of the output array is in the point's block: the block is the whole array. -/
theorem mem_blk1_3 (t : Fin cfg1.N) (i : S32x1000.Idx) : i ∈ ((cfg1.win 3).blk t).view.set := by
  obtain ⟨-, -, -, -, -, -, e0, e1⟩ := block_index1 t
  show i ∈ ((View.whole main_v9).slice (win1_3.rect t)).set
  rw [View.set_slice_whole, Rect.mem_set_unit]
  intro a
  have h0 : (i 0).val < 32 := (i 0).isLt
  have h1 : (i 1).val < 1000 := (i 1).isLt
  match a with
  | ⟨0, _⟩ =>
    show win1_3.index t (0 : Fin 2) * 32 ≤ (i 0).val ∧ (i 0).val < win1_3.index t (0 : Fin 2) * 32 + 32
    rw [e0]; omega
  | ⟨1, _⟩ =>
    show win1_3.index t (1 : Fin 2) * 1000 ≤ (i 1).val ∧ (i 1).val < win1_3.index t (1 : Fin 2) * 1000 + 1000
    rw [e1]; omega

/-- THE OUTPUT ARRAY after the region: the stored value of the three input arrays as the region finds them. -/
theorem arr1_3_eq (c : Dev nD) : ((dat1 V c).arrAt 3 cfg1.N : S32x1000.Idx → Elt F .f32) = fcOut V c :=
  (dat1 V c).arrAt_eq_of_cover 3 (fcOut V c) (fun t _ => flushed1_3_eq V c t)
    fun i => ⟨t1_0, flush1_3 t1_0, mem_blk1_3 t1_0 i⟩

end

end Cert.KernelIdeal.Hand

end
-- ==== Proof.FcOps.lean ====
/-
  The non-pointwise operations of the final layer's stored value, each read at an index on the extended reals:
  the product into the zero accumulator as a plain sum over the contracted axis, the bias row repeated down the
  rows, a row's maximum and a row's sum over the lanes, and the keep-dims column forms (a vector of row values cast
  to a one-column array and repeated across the lanes).
-/
import proofs.«160136_j5179730559367_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.FcValue

open Idealize.ShloMosaic Idealize.ShloMosaic.ValueIdx Cert.KernelIdeal Cert.KernelIdeal.Gen

/-! ## The product into the zero accumulator -/

/-- The left operand's index of the product at output `(b, k)` and contraction index `q`: row `b`. -/
theorem lhs_row (j : S32x1000.Idx) (q : dot_S32x1024_S1024x1000_S32x1000_1_0_0_1_n_n.contr.Idx) :
    (dot_S32x1024_S1024x1000_S32x1000_1_0_0_1_n_n.lhsIdx j q 0).val = (j 0).val := by
  unfold DotDims.lhsIdx
  rw [dif_neg (show ¬(0 : Fin S32x1024.rank) ∈ dot_S32x1024_S1024x1000_S32x1000_1_0_0_1_n_n.lhsBatch by decide),
    dif_pos (show (0 : Fin S32x1024.rank) ∈ dot_S32x1024_S1024x1000_S32x1000_1_0_0_1_n_n.lhsNonContracting by decide)]
  rfl

/-- … and column the contracted coordinate. -/
theorem lhs_col (j : S32x1000.Idx) (q : dot_S32x1024_S1024x1000_S32x1000_1_0_0_1_n_n.contr.Idx) :
    (dot_S32x1024_S1024x1000_S32x1000_1_0_0_1_n_n.lhsIdx j q 1).val = (q ⟨0, by decide⟩).val :=
  dot_S32x1024_S1024x1000_S32x1000_1_0_0_1_n_n.lhsIdx_val_of_single rfl j q

/-- The right operand's index: row the contracted coordinate … -/
theorem rhs_row (j : S32x1000.Idx) (q : dot_S32x1024_S1024x1000_S32x1000_1_0_0_1_n_n.contr.Idx) :
    (dot_S32x1024_S1024x1000_S32x1000_1_0_0_1_n_n.rhsIdx j q 0).val = (q ⟨0, by decide⟩).val :=
  dot_S32x1024_S1024x1000_S32x1000_1_0_0_1_n_n.rhsIdx_val_of_single rfl j q

/-- … and column `k`. -/
theorem rhs_col (j : S32x1000.Idx) (q : dot_S32x1024_S1024x1000_S32x1000_1_0_0_1_n_n.contr.Idx) :
    (dot_S32x1024_S1024x1000_S32x1000_1_0_0_1_n_n.rhsIdx j q 1).val = (j 1).val := by
  unfold DotDims.rhsIdx
  rw [dif_neg (show ¬(1 : Fin S1024x1000.rank) ∈ dot_S32x1024_S1024x1000_S32x1000_1_0_0_1_n_n.rhsBatch by decide),
    dif_pos (show (1 : Fin S1024x1000.rank) ∈ dot_S32x1024_S1024x1000_S32x1000_1_0_0_1_n_n.rhsNonContracting by decide)]
  rfl

/-- The product of a `[32, 1024]` array and a `[1024, 1000]` array into the zero accumulator, at `(b, k)`:
    the plain sum over the contracted axis. -/
theorem matmul_zero_apply (x : FVec Ideal S32x1024 .f32) (w : FVec Ideal S1024x1000 .f32) (b : Fin 32) (k : Fin 1000) :
    (matmul dot_S32x1024_S1024x1000_S32x1000_1_0_0_1_n_n none x w (constant S32x1000 .f32 0x00000000#32)
        : FVec Ideal S32x1000 .f32) (ix2 b k)
      = ∑ n : Fin 1024, x (ix2 b n) * w (ix2 n k) := by
  refine (Ideal.matmul_constant_zero_apply dot_S32x1024_S1024x1000_S32x1000_1_0_0_1_n_n none x w (ix2 b k)).trans ?_
  rw [← Equiv.sum_comp (contrEquiv1 dot_S32x1024_S1024x1000_S32x1000_1_0_0_1_n_n 1024 rfl rfl).symm]
  refine Finset.sum_congr rfl fun n _ => ?_
  have hn := contrEquiv1_symm_val dot_S32x1024_S1024x1000_S32x1000_1_0_0_1_n_n 1024 rfl rfl n
  have el : dot_S32x1024_S1024x1000_S32x1000_1_0_0_1_n_n.lhsIdx (ix2 b k)
      ((contrEquiv1 dot_S32x1024_S1024x1000_S32x1000_1_0_0_1_n_n 1024 rfl rfl).symm n) = ix2 b n :=
    funext fun a => Fin.ext (by
      match a with
      | ⟨0, _⟩ => exact lhs_row _ _
      | ⟨1, _⟩ => exact (lhs_col _ _).trans hn)
  have er : dot_S32x1024_S1024x1000_S32x1000_1_0_0_1_n_n.rhsIdx (ix2 b k)
      ((contrEquiv1 dot_S32x1024_S1024x1000_S32x1000_1_0_0_1_n_n 1024 rfl rfl).symm n) = ix2 n k :=
    funext fun a => Fin.ext (by
      match a with
      | ⟨0, _⟩ => exact (rhs_row _ _).trans hn
      | ⟨1, _⟩ => exact rhs_col _ _)
  rw [el, er]

/-! ## The bias row repeated down the rows -/

/-- A `[1, 1000]` row repeated to `[32, 1000]`, at `(b, k)`: the row at `k`. -/
theorem bias_rows_apply (r : FVec Ideal S1x1000 .f32) (b : Fin 32) (k : Fin 1000) :
    (broadcastTo S32x1000 r broadcasts_S1x1000_S32x1000 : FVec Ideal S32x1000 .f32) (ix2 b k)
      = r (ix2 (0 : Fin 1) k) :=
  broadcastTo_apply r broadcasts_S1x1000_S32x1000 (ix2 b k) (ix2 (0 : Fin 1) k) (fun a => match a with
    | ⟨0, _⟩ => by show (0 : Nat) = if (1 : Nat) = 1 then 0 else _; rw [if_pos rfl]
    | ⟨1, _⟩ => by show k.val = if (1000 : Nat) = 1 then 0 else k.val; rw [if_neg (by decide)])

/-! ## The lane reductions -/

/-- The index a reduction over the lanes reads at row `b`, lane `k`. -/
theorem lift_row (b : Fin 32) (k : Fin 1000) : reduces_S32x1000_S32.lift (ix1 b) k = ix2 b k :=
  funext fun a => Fin.ext (by
    match a with
    | ⟨0, _⟩ => rfl
    | ⟨1, _⟩ => rfl)

/-- A row's maximum over the lanes from the negative infinity of the format: the fold of `max` over the lanes. -/
theorem lane_max_apply (x : FVec Ideal S32x1000 .f32) (b : Fin 32) :
    (multiReduction .maximumf [1] S32 x 0xFF800000#32 reduces_S32x1000_S32 (.inl rfl) rfl : FVec Ideal S32 .f32) (ix1 b)
      = (Finset.univ : Finset (Fin 1000)).fold max (Ideal.ofBits .f32 0xFF800000#32) (fun k => x (ix2 b k)) := by
  refine (Ideal.multiReduction_maximumf_single x _ reduces_S32x1000_S32 (.inl rfl) rfl (ix1 b)).trans ?_
  show (Finset.univ : Finset (Fin 1000)).fold max (Ideal.ofBits .f32 0xFF800000#32) (x ∘ reduces_S32x1000_S32.lift (ix1 b)) = _
  have hf : (x ∘ reduces_S32x1000_S32.lift (ix1 b)) = fun k => x (ix2 b k) :=
    funext fun k => congrArg x (lift_row b k)
  rw [hf]
  rfl

/-- A row's sum over the lanes from zero: the plain sum over the lanes. -/
theorem lane_sum_apply (x : FVec Ideal S32x1000 .f32) (b : Fin 32) :
    (multiReduction .add [1] S32 x 0x00000000#32 reduces_S32x1000_S32 (.inl rfl) rfl : FVec Ideal S32 .f32) (ix1 b)
      = ∑ k : Fin 1000, x (ix2 b k) := by
  refine (Ideal.multiReduction_add_single x _ reduces_S32x1000_S32 (.inl rfl) rfl (ix1 b)).trans ?_
  show ∑ k : Fin 1000, x (reduces_S32x1000_S32.lift (ix1 b) k) = _
  refine Finset.sum_congr rfl fun k _ => ?_
  rw [lift_row]

/-! ## The keep-dims column forms -/

/-- A vector of 32 row values cast to a one-column array, at `(b, 0)`: the value of row `b`. -/
theorem col_cast_apply (v : FVec Ideal S32 .f32) (b : Fin 32) :
    (shapeCast S32x1 v shapeCasts_S32_S32x1 : FVec Ideal S32x1 .f32) (ix2 b (0 : Fin 1)) = v (ix1 b) :=
  shapeCast_apply v shapeCasts_S32_S32x1 (ix2 b (0 : Fin 1)) (ix1 b) (by
    rw [Shape.rowMajor_val_one, Shape.rowMajor_val_two]
    show b.val = b.val * 1 + 0
    omega)

/-- A one-column array repeated across the lanes, at `(b, k)`: the column at row `b`. -/
theorem col_bcast_apply (c : FVec Ideal S32x1 .f32) (b : Fin 32) (k : Fin 1000) :
    (broadcastTo S32x1000 c broadcasts_S32x1_S32x1000 : FVec Ideal S32x1000 .f32) (ix2 b k)
      = c (ix2 b (0 : Fin 1)) :=
  broadcastTo_apply c broadcasts_S32x1_S32x1000 (ix2 b k) (ix2 b (0 : Fin 1)) (fun a => match a with
    | ⟨0, _⟩ => by show b.val = if (32 : Nat) = 1 then 0 else b.val; rw [if_neg (by decide)]
    | ⟨1, _⟩ => by show (0 : Nat) = if (1 : Nat) = 1 then 0 else _; rw [if_pos rfl])

end Cert.FcValue

end
-- ==== Proof.FcValue.lean ====
/-
  The final layer's stored value read at an index on the extended reals.

  The stored array is, row by row, the logarithm of the soft maximum of the rectified logits: with
  `x b k = max (∑ n, h b n * w n k + bias k) 0`, the entry at `(b, k)` is `x b k` less the row's maximum, less the
  logarithm of the row sum of the exponentials of those differences.  The array of logits is read first
  (`logits_apply`), then the remaining operations over an arbitrary array in its place (`tail_apply`); the stored value
  is the second applied to the first.  The weights reach the product transposed and the bias as one row; the last two
  glue lemmas read those forms, and `fc_eq` states the whole against the shared specification.
-/
import proofs.«160136_j5179730559367_2_alg».proof.Proof.Gen.KernelIdeal.Skeleton
import proofs.«160136_j5179730559367_2_alg».proof.Proof.Spec
import proofs.«160136_j5179730559367_2_alg».proof.Proof.FcOps
import Idealize.ShloMosaic.Lib.ValueIdx
import Idealize.ShloMosaic.Lib.Pipeline.Value
import Idealize.ShloMosaic.PureOps.Ideal.Laws

noncomputable section

namespace Cert.FcValue

open Idealize.ShloMosaic Idealize.ShloMosaic.ValueIdx Cert.KernelIdeal Cert.KernelIdeal.Gen

/-! ## The rectified logits -/

/-- The array of rectified logits as the stored value builds it: the product into the zero accumulator, plus the
    bias row repeated down the rows, rectified against a zero splat. -/
def logits (h : Vec Ideal S32x1024 .f32) (wt : Vec Ideal S1024x1000 .f32) (br : Vec Ideal S1x1000 .f32) :
    FVec Ideal S32x1000 .f32 :=
  maximumf
    (addf
      (matmul dot_S32x1024_S1024x1000_S32x1000_1_0_0_1_n_n none
        (shapeCast S32x1024 h shapeCasts_S32x1024_S32x1024 : FVec Ideal S32x1024 .f32)
        (shapeCast S1024x1000 wt shapeCasts_S1024x1000_S1024x1000 : FVec Ideal S1024x1000 .f32)
        (constant S32x1000 .f32 0x00000000#32))
      (broadcastTo S32x1000 (shapeCast S1x1000 br shapeCasts_S1x1000_S1x1000 : FVec Ideal S1x1000 .f32)
        broadcasts_S1x1000_S32x1000))
    (broadcast S32x1000 (Scalar.ofBits .f32 0x00000000#32))

/-- At `(b, k)`: the larger of `∑ n, h b n * w n k + bias k` and zero. -/
theorem logits_apply (h : Vec Ideal S32x1024 .f32) (wt : Vec Ideal S1024x1000 .f32) (br : Vec Ideal S1x1000 .f32)
    (b : Fin 32) (k : Fin 1000) :
    logits h wt br (ix2 b k)
      = max ((∑ n : Fin 1024, h (ix2 b n) * wt (ix2 n k)) + br (ix2 (0 : Fin 1) k))
          (Ideal.ofBits .f32 0x00000000#32) := by
  unfold logits
  rw [shapeCast_self, shapeCast_self, shapeCast_self]
  show max (_ + _) (Ideal.ofBits .f32 0x00000000#32) = _
  rw [matmul_zero_apply, bias_rows_apply]

/-! ## The logarithm of the soft maximum over the lanes -/

/-- The row maxima as the stored value takes them: the lane maximum from the negative infinity of the format, taken
    once more against it. -/
def rmax (x : FVec Ideal S32x1000 .f32) : FVec Ideal S32 .f32 :=
  maximumf (broadcast S32 (Scalar.ofBits .f32 0xFF800000#32))
    (multiReduction .maximumf [1] S32 x 0xFF800000#32 reduces_S32x1000_S32 (.inl rfl) rfl)

theorem rmax_apply (x : FVec Ideal S32x1000 .f32) (b : Fin 32) :
    rmax x (ix1 b) = Cert.Spec.rowmax (fun k => x (ix2 b k)) := by
  unfold rmax
  refine (maximumf_apply _ _ _).trans ?_
  rw [lane_max_apply]
  rfl

/-- A vector of row values laid as a column and repeated across the lanes, at `(b, k)`: the value of row `b`. -/
theorem col_apply (v : FVec Ideal S32 .f32) (b : Fin 32) (k : Fin 1000) :
    (broadcastTo S32x1000 (shapeCast S32x1 v shapeCasts_S32_S32x1 : FVec Ideal S32x1 .f32)
        broadcasts_S32x1_S32x1000 : FVec Ideal S32x1000 .f32) (ix2 b k) = v (ix1 b) :=
  (col_bcast_apply _ b k).trans (col_cast_apply v b)

/-- The same with the logarithm taken on the column. -/
theorem log_col_apply (v : FVec Ideal S32 .f32) (b : Fin 32) (k : Fin 1000) :
    (broadcastTo S32x1000 (log (shapeCast S32x1 v shapeCasts_S32_S32x1 : FVec Ideal S32x1 .f32))
        broadcasts_S32x1_S32x1000 : FVec Ideal S32x1000 .f32) (ix2 b k) = Ideal.log (v (ix1 b)) :=
  (col_bcast_apply _ b k).trans (congrArg Ideal.log (col_cast_apply v b))

/-- The array less its row maxima. -/
def shifted (x : FVec Ideal S32x1000 .f32) : FVec Ideal S32x1000 .f32 :=
  subf x (broadcastTo S32x1000 (shapeCast S32x1 (rmax x) shapeCasts_S32_S32x1 : FVec Ideal S32x1 .f32)
    broadcasts_S32x1_S32x1000)

theorem shifted_apply (x : FVec Ideal S32x1000 .f32) (b : Fin 32) (k : Fin 1000) :
    shifted x (ix2 b k) = x (ix2 b k) - Cert.Spec.rowmax (fun k' => x (ix2 b k')) := by
  unfold shifted
  refine (subf_apply _ _ _).trans ?_
  rw [col_apply, rmax_apply]

/-- The operations the stored value applies to the logits, over an arbitrary array in their place. -/
def tail (x : FVec Ideal S32x1000 .f32) : FVec Ideal S32x1000 .f32 :=
  subf (shifted x)
    (broadcastTo S32x1000
      (log (shapeCast S32x1
        (multiReduction .add [1] S32 (exp (shifted x)) 0x00000000#32 reduces_S32x1000_S32 (.inl rfl) rfl)
        shapeCasts_S32_S32x1 : FVec Ideal S32x1 .f32))
      broadcasts_S32x1_S32x1000)

/-- They are the logarithm of the soft maximum of the rows. -/
theorem tail_apply (x : FVec Ideal S32x1000 .f32) (b : Fin 32) (k : Fin 1000) :
    tail x (ix2 b k) = Cert.Spec.logSoftmax (fun b' k' => x (ix2 b' k')) b k := by
  unfold tail
  refine (subf_apply _ _ _).trans ?_
  rw [log_col_apply, lane_sum_apply, shifted_apply]
  unfold Cert.Spec.logSoftmax
  refine congrArg (fun s => (x (ix2 b k) - Cert.Spec.rowmax (fun k' => x (ix2 b k'))) - Ideal.log s) ?_
  refine Finset.sum_congr rfl fun k' _ => ?_
  show Ideal.exp (shifted x (ix2 b k')) = _
  rw [shifted_apply]

/-! ## The stored value -/

/-- The stored value is those operations applied to the logits. -/
theorem pay_eq (h : Vec Ideal S32x1024 .f32) (wt : Vec Ideal S1024x1000 .f32) (br : Vec Ideal S1x1000 .f32) :
    k1_pay1 (F := Ideal) h wt br = tail (logits h wt br) := rfl

theorem pay_apply (h : Vec Ideal S32x1024 .f32) (wt : Vec Ideal S1024x1000 .f32) (br : Vec Ideal S1x1000 .f32)
    (b : Fin 32) (k : Fin 1000) :
    k1_pay1 (F := Ideal) h wt br (ix2 b k)
      = Cert.Spec.logSoftmax (fun b' k' => max ((∑ n : Fin 1024, h (ix2 b' n) * wt (ix2 n k'))
          + br (ix2 (0 : Fin 1) k')) (Ideal.ofBits .f32 0x00000000#32)) b k := by
  rw [pay_eq, tail_apply]
  refine congrArg (fun f => Cert.Spec.logSoftmax f b k) ?_
  funext b' k'
  exact logits_apply h wt br b' k'

/-! ## The forms in which the weights and the bias arrive -/

/-- The weights transposed, at `(n, k)`: the weights at `(k, n)`. -/
theorem fcw_t_apply (fcw : FVec Ideal S1000x1024 .f32) (n : Fin 1024) (k : Fin 1000) :
    (transpose S1024x1000 [1, 0] fcw transposes_S1000x1024_S1024x1000_1_0 : FVec Ideal S1024x1000 .f32) (ix2 n k)
      = fcw (ix2 k n) :=
  transpose_apply [1, 0] fcw transposes_S1000x1024_S1024x1000_1_0 (ix2 n k) (ix2 k n) (fun b => match b with
    | ⟨0, _⟩ => rfl
    | ⟨1, _⟩ => rfl)

/-- The bias laid as one row, at `(0, k)`: the bias at `k`. -/
theorem fcb_row_apply (fcb : FVec Ideal S1000 .f32) (k : Fin 1000) :
    (broadcastInDim S1x1000 ![1] bcast_S1000_S1x1000_1 fcb : FVec Ideal S1x1000 .f32) (ix2 (0 : Fin 1) k)
      = fcb (ix1 k) :=
  broadcastInDim_apply ![1] bcast_S1000_S1x1000_1 fcb (ix2 (0 : Fin 1) k) (ix1 k) (fun a => match a with
    | ⟨0, _⟩ => by show k.val = if (1000 : Nat) = 1 then 0 else k.val; rw [if_neg (by decide)])

/-- The stored value over a hidden state, the transposed weights and the bias row is the specification's logarithm
    of the soft maximum of the rectified logits. -/
theorem fc_eq (hidf : Fin 32 → Fin 1024 → EReal) (h : Vec Ideal S32x1024 .f32) (hh : ∀ b n, h (ix2 b n) = hidf b n)
    (fcw : FVec Ideal S1000x1024 .f32) (fcb : FVec Ideal S1000 .f32) (i : S32x1000.Idx) :
    k1_pay1 (F := Ideal) h (transpose S1024x1000 [1, 0] fcw transposes_S1000x1024_S1024x1000_1_0)
        (broadcastInDim S1x1000 ![1] bcast_S1000_S1x1000_1 fcb) i
      = Cert.Spec.logSoftmax (Cert.Spec.logit hidf fcw fcb) (i 0) (i 1) := by
  obtain ⟨p, q, rfl⟩ : ∃ (p : Fin 32) (q : Fin 1000), i = ix2 p q := ⟨i 0, i 1, eq_ix2 i⟩
  refine (pay_apply h _ _ p q).trans ?_
  show Cert.Spec.logSoftmax _ p q = Cert.Spec.logSoftmax _ p q
  refine congrArg (fun f => Cert.Spec.logSoftmax f p q) ?_
  funext b' k'
  unfold Cert.Spec.logit
  rw [fcb_row_apply]
  refine congrArg (fun s => max (s + fcb (ix1 k')) (Ideal.ofBits .f32 0x00000000#32)) ?_
  refine Finset.sum_congr rfl fun n _ => ?_
  rw [hh, fcw_t_apply]

end Cert.FcValue

end
-- ==== Proof.KI.FcArray.lean ====
/-
  The final-layer region's output array as one function of the argument arrays, on the extended reals.

  The region is entered after two host operations: the weights transposed and the bias laid as one row; neither
  touches the hidden-state array, which is as the gate region left it, and both read argument arrays nothing has
  written since the launch.  The output array ends holding the stored value of those three arrays, which is the
  specification's logarithm of the soft maximum of the rectified logits over the hidden state.
-/
import proofs.«160136_j5179730559367_2_alg».proof.Proof.KI.Run
import proofs.«160136_j5179730559367_2_alg».proof.Proof.KI.FcBlocks
import proofs.«160136_j5179730559367_2_alg».proof.Proof.FcValue
import proofs.«160136_j5179730559367_2_alg».proof.Proof.Spec

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## What the region is entered from -/

/-- The hidden-state array is as the gate region left it: the two host operations between write other arrays. -/
theorem En3_main_v6 (c : Dev nD) : En3 m ρ c main_v6 = Bd2 m ρ c (Proc.devRef .tc main_v6) :=
  StableHlo.after_of_writes_sub hostOps1 _ hostOps1_writes (show main_v6 ∉ hostOps1_W by decide)

/-- The weights argument is as launched when the gate region exits. -/
theorem Bd2_main_arg7 (c : Dev nD) : Bd2 m ρ c (Proc.devRef .tc main_arg7) = m ((c : Thread nD τ).loc main_arg7) :=
  calc Bd2 m ρ c (Proc.devRef .tc main_arg7)
    _ = Bd1 m ρ c (Proc.devRef .tc main_arg7) := Bd2_of_ne m ρ c main_arg7 (by decide)
    _ = Bd0 m ρ c (Proc.devRef .tc main_arg7) := StableHlo.after_of_writes_sub hostOps0 _ hostOps0_writes (show main_arg7 ∉ hostOps0_W by decide)
    _ = m ((c : Thread nD τ).loc main_arg7) := rfl

/-- The bias argument likewise. -/
theorem Bd2_main_arg8 (c : Dev nD) : Bd2 m ρ c (Proc.devRef .tc main_arg8) = m ((c : Thread nD τ).loc main_arg8) :=
  calc Bd2 m ρ c (Proc.devRef .tc main_arg8)
    _ = Bd1 m ρ c (Proc.devRef .tc main_arg8) := Bd2_of_ne m ρ c main_arg8 (by decide)
    _ = Bd0 m ρ c (Proc.devRef .tc main_arg8) := StableHlo.after_of_writes_sub hostOps0 _ hostOps0_writes (show main_arg8 ∉ hostOps0_W by decide)
    _ = m ((c : Thread nD τ).loc main_arg8) := rfl

/-- The weights window's array is the weights argument transposed. -/
theorem En3_main_v7 (c : Dev nD) :
    (En3 m ρ c main_v7 : S1024x1000.Idx → Elt F .f32)
      = transpose S1024x1000 [1, 0] (m ((c : Thread nD τ).loc main_arg7) : S1000x1024.Idx → Elt F .f32)
          transposes_S1000x1024_S1024x1000_1_0 := by
  show StableHlo.after hostOps1 (Bd2 m ρ c) (Proc.devRef .tc main_v7) = _
  after_results
  rw [Bd2_main_arg7]

/-- The bias window's array is the bias argument laid as one row. -/
theorem En3_main_v8 (c : Dev nD) :
    (En3 m ρ c main_v8 : S1x1000.Idx → Elt F .f32)
      = broadcastInDim S1x1000 ![1] bcast_S1000_S1x1000_1 (m ((c : Thread nD τ).loc main_arg8) : S1000.Idx → Elt F .f32) := by
  show StableHlo.after hostOps1 (Bd2 m ρ c) (Proc.devRef .tc main_v8) = _
  after_results
  rw [Bd2_main_arg8]

/-! ## The output array -/

/-- THE OUTPUT ARRAY of the final-layer region: the logarithm of the soft maximum of the rectified logits over the
    hidden state the gate region left, the weights and the bias as launched. -/
theorem fc_array (m : (ℓ : Loc nD τ sig) → Buf (Elt Ideal) ℓ) (ρ : Dev nD → PrngReg) (c : Dev nD) (hidf : Fin 32 → Fin 1024 → EReal)
    (hh : ∀ (b : Fin 32) (n : Fin 1024), (Bd2 (F := Ideal) m ρ c (Proc.devRef .tc main_v6) : S32x1024.Idx → EReal) (ix2 b n) = hidf b n) :
    ((dat1 (En3 (F := Ideal) m ρ) c).arrAt 3 cfg1.N : S32x1000.Idx → EReal)
      = fun i => Cert.Spec.logSoftmax (Cert.Spec.logit hidf (m ((c.tc : Thread nD τ).loc main_arg7)) (m ((c.tc : Thread nD τ).loc main_arg8))) (i 0) (i 1) := by
  rw [arr1_3_eq (En3 (F := Ideal) m ρ) c]
  unfold fcOut
  rw [En3_main_v7 m ρ c, En3_main_v8 m ρ c]
  funext i
  exact Cert.FcValue.fc_eq hidf (En3 (F := Ideal) m ρ c main_v6)
    (fun b n => by rw [En3_main_v6 m ρ c]; exact hh b n)
    (m ((c.tc : Thread nD τ).loc main_arg7)) (m ((c.tc : Thread nD τ).loc main_arg8)) i

end Cert.KernelIdeal.Hand

end
-- ==== Proof.lean ====
/-
  The certificate: the kernel (a gate kernel that accumulates the four gates' products over a 2 × 3 grid, then a
  final-layer kernel) against the plain reference, on the extended reals.

  Both programs compute, for each batch row, the cell's hidden state at the LAST time step — each gate the plain sum
  over the 1536 coordinates of the row [initial hidden state | last step's features] against the gate's weights —
  followed by the final layer, its rectification, and the logarithm of the soft maximum.  The kernel slices the last
  time step before the product where the reference slices it after, and splits each sum over 1536 coordinates into
  three tiles of 512 accumulated from zero: equal by associativity of addition alone.  No float literal is read:
  the same words stand on both sides.

  The three frames: each program runs to the end from any memory, faults nowhere, and leaves its nine argument arrays
  as launched (the kernel's at the word level and at the extended reals from one text, read at the two instances).
  The idealized kernel is the kernel's own text read at the extended reals: nothing was rewritten.
-/
import proofs.«160136_j5179730559367_2_alg».proof.Defs
import proofs.«160136_j5179730559367_2_alg».proof.Proof.Gen.Kernel
import proofs.«160136_j5179730559367_2_alg».proof.Proof.Gen.KernelIdeal
import proofs.«160136_j5179730559367_2_alg».proof.Proof.Gen.ReferenceIdeal
import proofs.«160136_j5179730559367_2_alg».proof.Proof.Gen.Pre_finite_inputs
import proofs.«160136_j5179730559367_2_alg».proof.Proof.K.Run
import proofs.«160136_j5179730559367_2_alg».proof.Proof.KI.Run
import proofs.«160136_j5179730559367_2_alg».proof.Proof.RefRunP
import proofs.«160136_j5179730559367_2_alg».proof.Proof.RefSpec
import proofs.«160136_j5179730559367_2_alg».proof.Proof.KI.GateArray
import proofs.«160136_j5179730559367_2_alg».proof.Proof.KI.FcArray
import proofs.«160136_j5179730559367_2_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- From memories agreeing on the nine arguments both idealized programs end with the result array at ONE function of the
    arguments: the kernel's final-layer region writes the logarithm of the soft maximum of the rectified logits of the
    hidden state its gate region left, and the reference's composed term is the same function, index by index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, ?_⟩) (Cert.KernelIdeal.Hand.run_all (F := Ideal) m ρ)
    · exact ((h c _ (Cert.KernelIdeal.Hand.mem_uc Cert.KernelIdeal.main_v9 (by decide))).trans (Cert.KernelIdeal.Hand.Bd4_main_v9 m ρ c)).trans
        (Cert.KernelIdeal.Hand.fc_array m ρ c (Cert.Spec.hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
          (fun b n => Cert.KernelIdeal.Hand.Bd2_hid m ρ c b n))
    · exact ⟨(h c _ (Cert.KernelIdeal.Hand.mem_uc Cert.KernelIdeal.main_arg0 (by decide))).trans (Cert.KernelIdeal.Hand.Bd4_main_arg0 m ρ c),
        (h c _ (Cert.KernelIdeal.Hand.mem_uc Cert.KernelIdeal.main_arg1 (by decide))).trans (Cert.KernelIdeal.Hand.Bd4_main_arg1 m ρ c),
        (h c _ (Cert.KernelIdeal.Hand.mem_uc Cert.KernelIdeal.main_arg2 (by decide))).trans (Cert.KernelIdeal.Hand.Bd4_main_arg2 m ρ c),
        (h c _ (Cert.KernelIdeal.Hand.mem_uc Cert.KernelIdeal.main_arg3 (by decide))).trans (Cert.KernelIdeal.Hand.Bd4_main_arg3 m ρ c),
        (h c _ (Cert.KernelIdeal.Hand.mem_uc Cert.KernelIdeal.main_arg4 (by decide))).trans (Cert.KernelIdeal.Hand.Bd4_main_arg4 m ρ c),
        (h c _ (Cert.KernelIdeal.Hand.mem_uc Cert.KernelIdeal.main_arg5 (by decide))).trans (Cert.KernelIdeal.Hand.Bd4_main_arg5 m ρ c),
        (h c _ (Cert.KernelIdeal.Hand.mem_uc Cert.KernelIdeal.main_arg6 (by decide))).trans (Cert.KernelIdeal.Hand.Bd4_main_arg6 m ρ c),
        (h c _ (Cert.KernelIdeal.Hand.mem_uc Cert.KernelIdeal.main_arg7 (by decide))).trans (Cert.KernelIdeal.Hand.Bd4_main_arg7 m ρ c),
        (h c _ (Cert.KernelIdeal.Hand.mem_uc Cert.KernelIdeal.main_arg8 (by decide))).trans (Cert.KernelIdeal.Hand.Bd4_main_arg8 m ρ c)⟩
  · refine (θ_run Cert.ReferenceIdeal.defs _ _).mono (fun r h c => ⟨((h c).1).trans ?_, (h c).2⟩) (Cert.ReferenceIdeal.ValueP.run (F := Ideal) m' ρ')
    obtain ⟨h0, h1, h2, h3, h4, h5, h6, h7, h8⟩ := hagree c
    rw [Cert.RefSpec.res_eq m' c, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
